-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S1x64 : Shape := ⟨2, ![1, 64]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x96 : Shape := ⟨2, ![32, 96]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1x64 : S_.BroadcastsInDim S1x64 (![] : Fin 0 → Fin S1x64.rank)
  reducesTo_S1x64_S_d0_1 : S1x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x96 : S_.BroadcastsInDim S32x96 (![] : Fin 0 → Fin S32x96.rank)
  reducesTo_S32x96_S_d0_1 : S32x96.ReducesTo [0, 1] S_

variable [Facts]

def fn_part3 {F : FTy → Type} [FloatOps F] (main_arg11 : FVec F S64 .f32) (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_cst_24 : FVec F S_ .f32 := constant S_ .f32 0x00000000#32
  let main_v64 : FVec F S64 .f32 := broadcastInDim S64 ![] bcast_S_S64 main_cst_24
  let main_v65 : IVec S64 1 := cmpf .oge main_arg12 main_v64
  let main_c_25 : IVec S_ 1 := constantI S_ 1 1#1
  let main_v66 : IVec S_ 1 := (fun x v => Host.reduce IntOp.andi x v reducesTo_S64_S_d0 h_S_) main_v65 main_c_25
  let main_v67 : IVec S_ 1 := andi main_v63 main_v66
  main_v67

def fn_part2 {F : FTy → Type} [FloatOps F] (main_arg7 : FVec F S32x96 .f32) (main_arg8 : FVec F S32 .f32) (main_arg9 : FVec F S64 .f32) (main_arg10 : FVec F S64 .f32) (main_arg11 : FVec F S64 .f32) (main_arg12 : FVec F S64 .f32) (main_v33 : IVec S_ 1) : IVec S_ 1 :=
  let main_v34 : FVec F S32x96 .f32 := Host.absf main_arg7
  let main_cst_12 : FVec F S_ .f32 := constant S_ .f32 0x7F800000#32
  let main_v35 : FVec F S32x96 .f32 := broadcastInDim S32x96 ![] bcast_S_S32x96 main_cst_12
  let main_v36 : IVec S32x96 1 := cmpf .olt main_v34 main_v35
  let main_c_13 : IVec S_ 1 := constantI S_ 1 1#1
  let main_v37 : IVec S_ 1 := (fun x v => Host.reduce IntOp.andi x v reducesTo_S32x96_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S64 .f32) (main_arg5 : FVec F S64x32 .f32) (main_arg6 : FVec F S32 .f32) (main_arg7 : FVec F S32x96 .f32) (main_arg8 : FVec F S32 .f32) (main_arg9 : FVec F S64 .f32) (main_arg10 : FVec F S64 .f32) (main_arg11 : FVec F S64 .f32) (main_arg12 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S1x64 .f32) (main_arg3 : FVec F S128x64 .f32) (main_arg4 : FVec F S64 .f32) (main_arg5 : FVec F S64x32 .f32) (main_arg6 : FVec F S32 .f32) (main_arg7 : FVec F S32x96 .f32) (main_arg8 : FVec F S32 .f32) (main_arg9 : FVec F S64 .f32) (main_arg10 : FVec F S64 .f32) (main_arg11 : FVec F S64 .f32) (main_arg12 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S1x64 : Shape := ⟨2, ![1, 64]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x96 : Shape := ⟨2, ![32, 96]⟩
abbrev S32x32 : Shape := ⟨2, ![32, 32]⟩
abbrev S32x64 : Shape := ⟨2, ![32, 64]⟩
abbrev S1x32 : Shape := ⟨2, ![1, 32]⟩
abbrev S1x1 : Shape := ⟨2, ![1, 1]⟩
abbrev S400x10000 : Shape := ⟨2, ![400, 10000]⟩
abbrev S10000x64 : Shape := ⟨2, ![10000, 64]⟩
abbrev S10000x32 : Shape := ⟨2, ![10000, 32]⟩
abbrev S400x64 : Shape := ⟨2, ![400, 64]⟩
abbrev S400x32 : Shape := ⟨2, ![400, 32]⟩
abbrev S1 : Shape := ⟨1, ![1]⟩
abbrev S32x1 : Shape := ⟨2, ![32, 1]⟩
abbrev S_ : Shape := ⟨0, ![]⟩

abbrev nBuf : Space → Nat
  | .hbm => 25
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1x64, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x96, .f32⟩
  | .hbm, ⟨8, _⟩ => ⟨S32, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S32x32, .f32⟩
  | .hbm, ⟨14, _⟩ => ⟨S32x64, .f32⟩
  | .hbm, ⟨15, _⟩ => ⟨S1x64, .f32⟩
  | .hbm, ⟨16, _⟩ => ⟨S1x32, .f32⟩
  | .hbm, ⟨17, _⟩ => ⟨S1x32, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x32, .f32⟩
  | .hbm, ⟨23, _⟩ => ⟨S1x1, .f32⟩
  | .hbm, ⟨24, _⟩ => ⟨S_, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S1x64, .f32⟩
  | .local _ .vmem, ⟨4, _⟩ => ⟨S128x64, .f32⟩
  | .local _ .vmem, ⟨5, _⟩ => ⟨S1x64, .f32⟩
  | .local _ .vmem, ⟨6, _⟩ => ⟨S64x32, .f32⟩
  | .local _ .vmem, ⟨7, _⟩ => ⟨S1x32, .f32⟩
  | .local _ .vmem, ⟨8, _⟩ => ⟨S32x32, .f32⟩
  | .local _ .vmem, ⟨9, _⟩ => ⟨S32x64, .f32⟩
  | .local _ .vmem, ⟨10, _⟩ => ⟨S1x32, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x32, .f32⟩
  | .local _ .vmem, ⟨16, _⟩ => ⟨S1x1, .f32⟩
  | .local _ .vmem, ⟨17, _⟩ => ⟨S10000x64, .f32⟩
  | .local _ .vmem, ⟨18, _⟩ => ⟨S10000x64, .f32⟩
  | .local _ .vmem, ⟨19, _⟩ => ⟨S10000x32, .f32⟩
  | .local _ .vmem, ⟨20, _⟩ => ⟨S1x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v10 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32_1 : BitVec 32 := 25#32
  let v4 : BitVec 1 := Scalar.cmpi .slt arg0 c25_i32_1
  let v5 : BitVec 32 := Scalar.extui v4
  let c0_i32_2 : BitVec 32 := 0#32
  let v6 : BitVec 1 := Scalar.cmpi .ne v5 c0_i32_2
  v6

def k0_off1 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v33 : BitVec 32 := Scalar.muli v0 c400_i32
  let v34 : Index := Scalar.indexCast v33
  let c0_17 : Index := 0#32
  ![v34.toNat, 0]
def k0_cond5 (i : grid0.Coords) : BitVec 1 :=
  let arg0 : BitVec 32 := BitVec.ofNat 32 (i 0).val
  let c49_i32 : BitVec 32 := 49#32
  let v13 : BitVec 1 := Scalar.cmpi .eq arg0 c49_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c25_i32 : BitVec 32 := 25#32
  let v0 : BitVec 32 := Scalar.remsi arg0 c25_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

class Facts₀ : Prop where
  slices_S32x96_S32x32_0_0 : S32x96.Slices ![0, 0] S32x32
  slices_S32x96_S32x64_0_32 : S32x96.Slices ![0, 32] S32x64
  shapeCasts_S64_S1x64 : S64.ShapeCasts S1x64
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  h_S400x64 : 0 < S400x64.numel
  shapeCasts_S400x64_S400x64 : S400x64.ShapeCasts S400x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  reduces_S400x32_S32 : S400x32.Reduces [0] S32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  reduces_S1x32_S1 : S1x32.Reduces [1] S1
  shapeCasts_S1_S1x1 : S1.ShapeCasts S1x1
  broadcasts_S1x1_S1x32 : S1x1.Broadcasts S1x32
  reduces_S32x32_S32 : S32x32.Reduces [1] S32
  shapeCasts_S32_S32x1 : S32.ShapeCasts S32x1
  reduces_S32x1_S1 : S32x1.Reduces [0] S1
  reduces_S32x64_S32 : S32x64.Reduces [1] S32
  inb_S1x1_S1x1_0_0 : ∀ a, (![0, 0] : Fin 2 → Nat) a + S1x1.size a ≤ S1x1.size a
  h_S1x1 : 0 < S1x1.numel
  shapeCasts_S1x1_S_ : S1x1.ShapeCasts S_
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S10000x64_S64x32_S10000x32_1_0_0_1_n_n_wf : DotDims.WF S10000x64 S64x32 S10000x32 [1] [0] [0] [1] [] []
  dot_S400x10000_S10000x32_S400x32_1_0_0_1_n_n_wf : DotDims.WF S400x10000 S10000x32 S400x32 [1] [0] [0] [1] [] []
  dot_S1x32_S32x32_S1x32_1_1_0_0_n_n_wf : DotDims.WF S1x32 S32x32 S1x32 [1] [1] [0] [0] [] []
  dot_S1x64_S32x64_S1x32_1_1_0_0_n_n_wf : DotDims.WF S1x64 S32x64 S1x32 [1] [1] [0] [0] [] []
  hrank0 : 0 < grid0.rank
  k0_off1_inb : ∀ i : grid0.Coords, ∀ (k0_h2 : k0_cond2 i = 1#1), ∀ a, (k0_off1 i) a + S400x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x64.size a ≤ S32x64.size a
  hwx0_8 : ∀ i : grid0.Coords, EltTy.bits .f32 = 32 ∨ (Rect.block (s := S32x64) S32x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x32.size a ≤ S1x32.size a
  hwx0_14 : ∀ i : grid0.Coords, EltTy.bits .f32 = 32 ∨ (Rect.block (s := S1x32) S1x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S1x32_S32x32_S1x32_1_1_0_0_n_n : DotDims S1x32 S32x32 S1x32 where
  lhsContracting := [1]
  rhsContracting := [1]
  lhsNonContracting := [0]
  rhsNonContracting := [0]
  lhsBatch := []
  rhsBatch := []
  wf := dot_S1x32_S32x32_S1x32_1_1_0_0_n_n_wf
def dot_S1x64_S32x64_S1x32_1_1_0_0_n_n : DotDims S1x64 S32x64 S1x32 where
  lhsContracting := [1]
  rhsContracting := [1]
  lhsNonContracting := [0]
  rhsNonContracting := [0]
  lhsBatch := []
  rhsBatch := []
  wf := dot_S1x64_S32x64_S1x32_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S32x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9_0) S1x32.size cc0_transform_14 reads0_14 true true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9_1) S1x1.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond5 i == 1#1) | 15 => fun i => !(k0_cond5 i == 1#1) | ⟨_ + 16, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S1x64 : Shape := ⟨2, ![1, 64]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x96 : Shape := ⟨2, ![32, 96]⟩
abbrev S10000x64 : Shape := ⟨2, ![10000, 64]⟩
abbrev S_ : Shape := ⟨0, ![]⟩
abbrev S10000x32 : Shape := ⟨2, ![10000, 32]⟩
abbrev S1x32 : Shape := ⟨2, ![1, 32]⟩
abbrev S1x96 : Shape := ⟨2, ![1, 96]⟩
abbrev S96x32 : Shape := ⟨2, ![96, 32]⟩
abbrev S1 : Shape := ⟨1, ![1]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1x64, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x96, .f32⟩
  | .hbm, ⟨8, _⟩ => ⟨S32, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S10000x64, .f32⟩
  | .hbm, ⟨14, _⟩ => ⟨S10000x64, .f32⟩
  | .hbm, ⟨15, _⟩ => ⟨S1x64, .f32⟩
  | .hbm, ⟨16, _⟩ => ⟨S10000x64, .f32⟩
  | .hbm, ⟨17, _⟩ => ⟨S10000x64, .f32⟩
  | .hbm, ⟨18, _⟩ => ⟨S_, .f32⟩
  | .hbm, ⟨19, _⟩ => ⟨S_, .f32⟩
  | .hbm, ⟨20, _⟩ => ⟨S10000x64, .f32⟩
  | .hbm, ⟨21, _⟩ => ⟨S10000x64, .i1⟩
  | .hbm, ⟨22, _⟩ => ⟨S_, .f32⟩
  | .hbm, ⟨23, _⟩ => ⟨S10000x64, .f32⟩
  | .hbm, ⟨24, _⟩ => ⟨S10000x64, .i1⟩
  | .hbm, ⟨25, _⟩ => ⟨S_, .f32⟩
  | .hbm, ⟨26, _⟩ => ⟨S_, .f32⟩
  | .hbm, ⟨27, _⟩ => ⟨S10000x64, .f32⟩
  | .hbm, ⟨28, _⟩ => ⟨S10000x64, .f32⟩
  | .hbm, ⟨29, _⟩ => ⟨S10000x64, .f32⟩
  | .hbm, ⟨30, _⟩ => ⟨S_, .f32⟩
  | .hbm, ⟨31, _⟩ => ⟨S10000x64, .f32⟩
  | .hbm, ⟨32, _⟩ => ⟨S10000x64, .f32⟩
  | .hbm, ⟨33, _⟩ => ⟨S10000x64, .f32⟩
  | .hbm, ⟨34, _⟩ => ⟨S_, .f32⟩
  | .hbm, ⟨35, _⟩ => ⟨S10000x64, .f32⟩
  | .hbm, ⟨36, _⟩ => ⟨S10000x64, .f32⟩
  | .hbm, ⟨37, _⟩ => ⟨S10000x32, .f32⟩
  | .hbm, ⟨38, _⟩ => ⟨S10000x32, .f32⟩
  | .hbm, ⟨39, _⟩ => ⟨S1x32, .f32⟩
  | .hbm, ⟨40, _⟩ => ⟨S10000x32, .f32⟩
  | .hbm, ⟨41, _⟩ => ⟨S10000x32, .f32⟩
  | .hbm, ⟨42, _⟩ => ⟨S_, .f32⟩
  | .hbm, ⟨43, _⟩ => ⟨S_, .f32⟩
  | .hbm, ⟨44, _⟩ => ⟨S10000x32, .f32⟩
  | .hbm, ⟨45, _⟩ => ⟨S10000x32, .i1⟩
  | .hbm, ⟨46, _⟩ => ⟨S_, .f32⟩
  | .hbm, ⟨47, _⟩ => ⟨S10000x32, .f32⟩
  | .hbm, ⟨48, _⟩ => ⟨S10000x32, .i1⟩
  | .hbm, ⟨49, _⟩ => ⟨S_, .f32⟩
  | .hbm, ⟨50, _⟩ => ⟨S_, .f32⟩
  | .hbm, ⟨51, _⟩ => ⟨S10000x32, .f32⟩
  | .hbm, ⟨52, _⟩ => ⟨S10000x32, .f32⟩
  | .hbm, ⟨53, _⟩ => ⟨S10000x32, .f32⟩
  | .hbm, ⟨54, _⟩ => ⟨S_, .f32⟩
  | .hbm, ⟨55, _⟩ => ⟨S10000x32, .f32⟩
  | .hbm, ⟨56, _⟩ => ⟨S10000x32, .f32⟩
  | .hbm, ⟨57, _⟩ => ⟨S10000x32, .f32⟩
  | .hbm, ⟨58, _⟩ => ⟨S_, .f32⟩
  | .hbm, ⟨59, _⟩ => ⟨S10000x32, .f32⟩
  | .hbm, ⟨60, _⟩ => ⟨S10000x32, .f32⟩
  | .hbm, ⟨61, _⟩ => ⟨S_, .f32⟩
  | .hbm, ⟨62, _⟩ => ⟨S32, .f32⟩
  | .hbm, ⟨63, _⟩ => ⟨S1x32, .f32⟩
  | .hbm, ⟨64, _⟩ => ⟨S_, .f32⟩
  | .hbm, ⟨65, _⟩ => ⟨S1x32, .f32⟩
  | .hbm, ⟨66, _⟩ => ⟨S1x32, .f32⟩
  | .hbm, ⟨67, _⟩ => ⟨S_, .f32⟩
  | .hbm, ⟨68, _⟩ => ⟨S_, .f32⟩
  | .hbm, ⟨69, _⟩ => ⟨S1x32, .f32⟩
  | .hbm, ⟨70, _⟩ => ⟨S1x32, .i1⟩
  | .hbm, ⟨71, _⟩ => ⟨S_, .f32⟩
  | .hbm, ⟨72, _⟩ => ⟨S1x32, .f32⟩
  | .hbm, ⟨73, _⟩ => ⟨S1x32, .i1⟩
  | .hbm, ⟨74, _⟩ => ⟨S_, .f32⟩
  | .hbm, ⟨75, _⟩ => ⟨S_, .f32⟩
  | .hbm, ⟨76, _⟩ => ⟨S1x32, .f32⟩
  | .hbm, ⟨77, _⟩ => ⟨S1x32, .f32⟩
  | .hbm, ⟨78, _⟩ => ⟨S1x32, .f32⟩
  | .hbm, ⟨79, _⟩ => ⟨S_, .f32⟩
  | .hbm, ⟨80, _⟩ => ⟨S1x32, .f32⟩
  | .hbm, ⟨81, _⟩ => ⟨S1x32, .f32⟩
  | .hbm, ⟨82, _⟩ => ⟨S1x32, .f32⟩
  | .hbm, ⟨83, _⟩ => ⟨S_, .f32⟩
  | .hbm, ⟨84, _⟩ => ⟨S1x32, .f32⟩
  | .hbm, ⟨85, _⟩ => ⟨S1x32, .f32⟩
  | .hbm, ⟨86, _⟩ => ⟨S1x64, .f32⟩
  | .hbm, ⟨87, _⟩ => ⟨S1x64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S64, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S1x64, .f32⟩
  | .hbm, ⟨98, _⟩ => ⟨S1x96, .f32⟩
  | .hbm, ⟨99, _⟩ => ⟨S96x32, .f32⟩
  | .hbm, ⟨100, _⟩ => ⟨S1x32, .f32⟩
  | .hbm, ⟨101, _⟩ => ⟨S1x32, .f32⟩
  | .hbm, ⟨102, _⟩ => ⟨S1x32, .f32⟩
  | .hbm, ⟨103, _⟩ => ⟨S32x96, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S1, .f32⟩
  | .hbm, ⟨110, _⟩ => ⟨S_, .f32⟩
  | .hbm, ⟨111, _⟩ => ⟨S1, .f32⟩
  | .hbm, ⟨112, _⟩ => ⟨S1, .f32⟩
  | .hbm, ⟨113, _⟩ => ⟨S1x1, .f32⟩
  | .hbm, ⟨114, _⟩ => ⟨S1x32, .f32⟩
  | .hbm, ⟨115, _⟩ => ⟨S1x32, .f32⟩
  | .hbm, ⟨116, _⟩ => ⟨S1x32, .f32⟩
  | .hbm, ⟨117, _⟩ => ⟨S_, .f32⟩
  | .hbm, ⟨118, _⟩ => ⟨S1, .f32⟩
  | .hbm, ⟨119, _⟩ => ⟨S1x1, .f32⟩
  | .hbm, ⟨120, _⟩ => ⟨S1x1, .f32⟩
  | .hbm, ⟨121, _⟩ => ⟨S1x32, .f32⟩
  | .hbm, ⟨122, _⟩ => ⟨S1x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_cst_0 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_cst_1 : Ref sig .tc := ⟨.hbm, 25, rfl⟩
abbrev main_call0_call0_call0_v0 : Ref sig .tc := ⟨.hbm, 26, rfl⟩
abbrev main_call0_call0_call0_v1 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_v0 : Ref sig .tc := ⟨.hbm, 33, rfl⟩
abbrev main_call0_cst_0 : Ref sig .tc := ⟨.hbm, 34, rfl⟩
abbrev main_call0_v1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call1_cst : Ref sig .tc := ⟨.hbm, 42, rfl⟩
abbrev main_call1_call0_cst : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_call0_cst_0 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_cst_1 : Ref sig .tc := ⟨.hbm, 49, rfl⟩
abbrev main_call1_call0_call0_v0 : Ref sig .tc := ⟨.hbm, 50, rfl⟩
abbrev main_call1_call0_call0_v1 : Ref sig .tc := ⟨.hbm, 51, rfl⟩
abbrev main_call1_call0_v4 : Ref sig .tc := ⟨.hbm, 52, rfl⟩
abbrev main_call1_call0_v5 : Ref sig .tc := ⟨.hbm, 53, rfl⟩
abbrev main_call1_call0_v6 : Ref sig .tc := ⟨.hbm, 54, rfl⟩
abbrev main_call1_call0_v7 : Ref sig .tc := ⟨.hbm, 55, rfl⟩
abbrev main_call1_call0_v8 : Ref sig .tc := ⟨.hbm, 56, rfl⟩
abbrev main_call1_v0 : Ref sig .tc := ⟨.hbm, 57, rfl⟩
abbrev main_call1_cst_0 : Ref sig .tc := ⟨.hbm, 58, rfl⟩
abbrev main_call1_v1 : Ref sig .tc := ⟨.hbm, 59, rfl⟩
abbrev main_v11 : Ref sig .tc := ⟨.hbm, 60, rfl⟩
abbrev main_cst : Ref sig .tc := ⟨.hbm, 61, rfl⟩
abbrev main_v12 : Ref sig .tc := ⟨.hbm, 62, rfl⟩
abbrev main_v13 : Ref sig .tc := ⟨.hbm, 63, rfl⟩
abbrev main_cst_0 : Ref sig .tc := ⟨.hbm, 64, rfl⟩
abbrev main_v14 : Ref sig .tc := ⟨.hbm, 65, rfl⟩
abbrev main_v15 : Ref sig .tc := ⟨.hbm, 66, rfl⟩
abbrev main_call2_cst : Ref sig .tc := ⟨.hbm, 67, rfl⟩
abbrev main_call2_call0_cst : Ref sig .tc := ⟨.hbm, 68, rfl⟩
abbrev main_call2_call0_v0 : Ref sig .tc := ⟨.hbm, 69, rfl⟩
abbrev main_call2_call0_v1 : Ref sig .tc := ⟨.hbm, 70, rfl⟩
abbrev main_call2_call0_cst_0 : Ref sig .tc := ⟨.hbm, 71, rfl⟩
abbrev main_call2_call0_v2 : Ref sig .tc := ⟨.hbm, 72, rfl⟩
abbrev main_call2_call0_v3 : Ref sig .tc := ⟨.hbm, 73, rfl⟩
abbrev main_call2_call0_cst_1 : Ref sig .tc := ⟨.hbm, 74, rfl⟩
abbrev main_call2_call0_call0_v0 : Ref sig .tc := ⟨.hbm, 75, rfl⟩
abbrev main_call2_call0_call0_v1 : Ref sig .tc := ⟨.hbm, 76, rfl⟩
abbrev main_call2_call0_v4 : Ref sig .tc := ⟨.hbm, 77, rfl⟩
abbrev main_call2_call0_v5 : Ref sig .tc := ⟨.hbm, 78, rfl⟩
abbrev main_call2_call0_v6 : Ref sig .tc := ⟨.hbm, 79, rfl⟩
abbrev main_call2_call0_v7 : Ref sig .tc := ⟨.hbm, 80, rfl⟩
abbrev main_call2_call0_v8 : Ref sig .tc := ⟨.hbm, 81, rfl⟩
abbrev main_call2_v0 : Ref sig .tc := ⟨.hbm, 82, rfl⟩
abbrev main_call2_cst_0 : Ref sig .tc := ⟨.hbm, 83, rfl⟩
abbrev main_call2_v1 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_cst_1 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_cst_2 : Ref sig .tc := ⟨.hbm, 104, rfl⟩
abbrev main_v34 : Ref sig .tc := ⟨.hbm, 105, rfl⟩
abbrev main_cst_3 : Ref sig .tc := ⟨.hbm, 106, rfl⟩
abbrev main_v35 : Ref sig .tc := ⟨.hbm, 107, rfl⟩
abbrev main_call3_cst : Ref sig .tc := ⟨.hbm, 108, rfl⟩
abbrev main_call3_v0 : Ref sig .tc := ⟨.hbm, 109, rfl⟩
abbrev main_call3_cst_0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_v6 : Ref sig .tc := ⟨.hbm, 116, rfl⟩
abbrev main_call3_cst_1 : Ref sig .tc := ⟨.hbm, 117, rfl⟩
abbrev main_call3_v7 : Ref sig .tc := ⟨.hbm, 118, rfl⟩
abbrev main_call3_v8 : Ref sig .tc := ⟨.hbm, 119, rfl⟩
abbrev main_call3_v9 : Ref sig .tc := ⟨.hbm, 120, rfl⟩
abbrev main_call3_v10 : Ref sig .tc := ⟨.hbm, 121, rfl⟩
abbrev main_v36 : Ref sig .tc := ⟨.hbm, 122, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  reducesTo_S10000x32_S32_d0 : S10000x32.ReducesTo [0] S32
  h_S_ : 0 < S_.numel
  bcast_S_S1x32 : S_.BroadcastsInDim S1x32 (![] : Fin 0 → Fin S1x32.rank)
  bcast_S_S64 : S_.BroadcastsInDim S64 (![] : Fin 0 → Fin S64.rank)
  concatenates_S1x32_S1x64_S1x96_d1 : Shape.Concatenates [S1x32, S1x64] S1x96 1
  transposes_S32x96_S96x32_1_0 : S32x96.Transposes [1, 0] S96x32
  reducesTo_S32x96_S_d0_1 : S32x96.ReducesTo [0, 1] S_
  reducesTo_S1x32_S1_d1 : S1x32.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x32_0_1 : S1x1.BroadcastsInDim S1x32 (![0, 1] : Fin 2 → Fin S1x32.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S1x96_S96x32_S1x32_1_0_0_1_n_n_wf : DotDims.WF S1x96 S96x32 S1x32 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S1x96_S96x32_S1x32_1_0_0_1_n_n : DotDims S1x96 S96x32 S1x32 where
  lhsContracting := [1]
  rhsContracting := [0]
  lhsNonContracting := [0]
  rhsNonContracting := [1]
  lhsBatch := []
  rhsBatch := []
  wf := dot_S1x96_S96x32_S1x32_1_0_0_1_n_n_wf

class Facts : Prop extends Facts₀ where

variable [Facts]
-- ==== Proof.BitsConds.lean ====
import proofs.«177514_g91036126806361_cont_sun_m_26_3_alg».proof.Proof.Gen.Kernel.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The five branch conditions of the body, as it computes them from the grid coordinate, and where on the grid of
    fifty points each holds: the first point computes x·W1; points 0–24 are the first layer's row blocks; point 25
    computes h1·W2 and clears the pooled sum; points 25–49 are the second layer's row blocks; the last point forms
    the logits. The row block a point works on starts at row 400·(t mod 25). -/

abbrev cond1 (i : grid0.Coords) : Prop :=
  Scalar.cmpi .ne (Scalar.extui (Scalar.cmpi .eq (BitVec.ofNat 32 (i 0).val) 0#32)) 0#32 = 1#1
abbrev cond2 (i : grid0.Coords) : Prop := k0_cond2 i = 1#1
abbrev cond3 (i : grid0.Coords) : Prop :=
  Scalar.cmpi .ne (Scalar.extui (Scalar.cmpi .eq (BitVec.ofNat 32 (i 0).val) 25#32)) 0#32 = 1#1
abbrev cond4 (i : grid0.Coords) : Prop :=
  Scalar.cmpi .ne (Scalar.extui (Scalar.cmpi .sge (BitVec.ofNat 32 (i 0).val) 25#32)) 0#32 = 1#1
abbrev cond5 (i : grid0.Coords) : Prop := k0_cond5 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 25 :=
  (by decide +kernel : ∀ t : Fin grid0.N, cond3 (grid0.coords t) ↔ t.val = 25)
theorem hcond4 : ∀ t : Fin cfg0.N, cond4 (grid0.coords t) ↔ 25 ≤ t.val :=
  (by decide +kernel : ∀ t : Fin grid0.N, cond4 (grid0.coords t) ↔ 25 ≤ t.val)
theorem hcond5 : ∀ t : Fin cfg0.N, cond5 (grid0.coords t) ↔ t.val = 49 :=
  (by decide +kernel : ∀ t : Fin grid0.N, cond5 (grid0.coords t) ↔ t.val = 49)
theorem hoff1 : ∀ t : Fin cfg0.N, k0_off1 (grid0.coords t) = ![400 * (t.val % 25), 0] :=
  (by decide +kernel : ∀ t : Fin grid0.N, k0_off1 (grid0.coords t) = ![400 * (t.val % 25), 0])

end Cert.Kernel.Hand

end
-- ==== Proof.BitsData.lean ====
import proofs.«177514_g91036126806361_cont_sun_m_26_3_alg».proof.Proof.Gen.Kernel.Frame
import proofs.«177514_g91036126806361_cont_sun_m_26_3_alg».proof.Proof.Gen.Kernel.Skeleton
import proofs.«177514_g91036126806361_cont_sun_m_26_3_alg».proof.Proof.BitsConds
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the four scratch buffers hold between points

The first scratch holds x·W1 from the first point on. The second is filled 400 rows per point with the first layer
h1 = selu (adj·(x·W1) + b1): before point n ≤ 25 its rows below 400·n hold h1, the rest whatever the buffer held. From
point 25 on the third holds h1·W2 and the fourth the column sums of the second layer over the row blocks done. -/

theorem N_50 : cfg0.N = 50 := N_0

/-- The grid point of a number below fifty. -/
abbrev pt (n : ℕ) (h : n < 50) : Fin cfg0.N := ⟨n, lt_of_lt_of_eq h N_50.symm⟩

/-- The scratch operands: whole buffers of the kernel's own. -/
abbrev sc17 : Memref sig .tc .vmem S10000x64 .f32 := Memref.whole cc0_scratch0
abbrev sc18 : Memref sig .tc .vmem S10000x64 .f32 := Memref.whole cc0_scratch1
abbrev sc19 : Memref sig .tc .vmem S10000x32 .f32 := Memref.whole cc0_scratch2
abbrev sc20 : Memref sig .tc .vmem S1x32 .f32 := Memref.whole cc0_scratch3

/-- x·W1, from the blocks the first point reads. -/
def Y1 (c : Dev nD) : Vec F S10000x64 .f32 := k0_pay1 (iblk m c 0 (pt 0 (by omega))) (iblk m c 3 (pt 0 (by omega)))

/-- The first layer, row by row: row r is computed at point r / 400 from that point's adjacency block. -/
def H1full (c : Dev nD) : Vec F S10000x64 .f32 := fun idx =>
  k0_pay2 (iblk m c 1 (pt ((idx 0).val / 400) (by have := (idx 0).isLt; change _ < 10000 at this; omega)))
    (Y1 m c) (iblk m c 4 (pt ((idx 0).val / 400) (by have := (idx 0).isLt; change _ < 10000 at this; omega)))
    (ValueIdx.ix2 (⟨(idx 0).val % 400, Nat.mod_lt _ (by omega)⟩ : Fin 400) (⟨(idx 1).val, (idx 1).isLt⟩ : Fin 64))

/-- The rows below 400·n of a buffer hold the first layer. -/
def Filled (c : Dev nD) (n : ℕ) (H : Vec F S10000x64 .f32) : Prop :=
  ∀ idx : S10000x64.Idx, (idx 0).val < 400 * n → H idx = H1full m c idx

/-- h1·W2. -/
def Y2 (c : Dev nD) : Vec F S10000x32 .f32 := k0_pay3 (H1full m c) (iblk m c 5 (pt 25 (by omega)))

/-- The pooled column sums after k row blocks of the second layer. -/
def accAt (c : Dev nD) : ℕ → Vec F S1x32 .f32
  | 0 => k0_pay4
  | k + 1 =>
    if h : 25 + k < 50 then
      k0_pay5 (iblk m c 1 (pt (25 + k) h)) (Y2 m c) (iblk m c 6 (pt (25 + k) h)) (accAt c k)
    else accAt c k

/-- What the last point leaves in the two outputs' staging buffers. -/
def out14 (c : Dev nD) (t : Fin cfg0.N) : Vec F S1x32 .f32 :=
  k0_pay6 (k0_pay10 (accAt m c 25) (iblk m c 2 t) (iblk m c 12 t) (iblk m c 13 t) (iblk m c 10 t) (iblk m c 11 t)
    (iblk m c 7 t) (iblk m c 8 t)) (iblk m c 9 t)
def out15 (c : Dev nD) (t : Fin cfg0.N) : Vec F S1x1 .f32 :=
  k0_pay7 (k0_pay8 (iblk m c 7 t)) (k0_pay9 (iblk m c 8 t))

/-- The invariant before point n. -/
def PhiS (c : Dev nD) : (n : ℕ) → n ≤ cfg0.N → sProp 𝕄
  | 0, _ => Pipeline.ΦA spec0 c
  | n + 1, _ =>
    if n + 1 ≤ 25 then
      iprop((∃ H : Vec F S10000x64 .f32, ⌜Filled m c (n + 1) H⌝ ∗ owns (c : Thread nD τ) sc18 fullShare H)
        ∗ owns (c : Thread nD τ) sc17 fullShare (Y1 m c)
        ∗ (∃ d, owns (c : Thread nD τ) sc19 fullShare d) ∗ (∃ d, owns (c : Thread nD τ) sc20 fullShare d)
        ∗ (∃ r, prngReg c r))
    else
      iprop(owns (c : Thread nD τ) sc18 fullShare (H1full m c)
        ∗ owns (c : Thread nD τ) sc17 fullShare (Y1 m c)
        ∗ owns (c : Thread nD τ) sc19 fullShare (Y2 m c) ∗ owns (c : Thread nD τ) sc20 fullShare (accAt m c (n + 1 - 25))
        ∗ (∃ r, prngReg c r))

theorem PhiS_zero (c : Dev nD) (n : ℕ) (h : n ≤ cfg0.N) (hz : n = 0) : PhiS m c n h = Pipeline.ΦA spec0 c := by
  subst hz; rfl

theorem PhiS_low (c : Dev nD) (n : ℕ) (h : n ≤ cfg0.N) (h0 : n ≠ 0) (h25 : n ≤ 25) :
    PhiS m c n h = iprop((∃ H : Vec F S10000x64 .f32, ⌜Filled m c n H⌝ ∗ owns (c : Thread nD τ) sc18 fullShare H)
        ∗ owns (c : Thread nD τ) sc17 fullShare (Y1 m c)
        ∗ (∃ d, owns (c : Thread nD τ) sc19 fullShare d) ∗ (∃ d, owns (c : Thread nD τ) sc20 fullShare d)
        ∗ (∃ r, prngReg c r)) := by
  cases n with
  | zero => exact absurd rfl h0
  | succ n => exact if_pos h25

theorem PhiS_high (c : Dev nD) (n : ℕ) (h : n ≤ cfg0.N) (h25 : 25 < n) :
    PhiS m c n h = iprop(owns (c : Thread nD τ) sc18 fullShare (H1full m c)
        ∗ owns (c : Thread nD τ) sc17 fullShare (Y1 m c)
        ∗ owns (c : Thread nD τ) sc19 fullShare (Y2 m c) ∗ owns (c : Thread nD τ) sc20 fullShare (accAt m c (n - 25))
        ∗ (∃ r, prngReg c r)) := by
  cases n with
  | zero => omega
  | succ n => exact if_neg (by omega)

/-- The class invariant with the scratch operands as memrefs owned at some contents. -/
theorem PhiA0_eq (c : Dev nD) :
    (Pipeline.ΦA spec0 c : sProp 𝕄)
      = iprop(iprop((∃ d, owns (c : Thread nD τ) sc17 fullShare d) ∗ (∃ d, owns (c : Thread nD τ) sc18 fullShare d)
          ∗ (∃ d, owns (c : Thread nD τ) sc19 fullShare d) ∗ (∃ d, owns (c : Thread nD τ) sc20 fullShare d)) ∗ (∃ r, prngReg c r)) := by
  unfold Pipeline.ΦA; rw [scopedRest0_eq]; simp only [sc17, sc18, sc19, sc20, owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out14 m c t
    | ⟨15, _⟩ => out15 m c t
    | ⟨_ + 16, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out14 m c t := by dsimp only [dats]
theorem after0_15 (c : Dev nD) (t : Fin cfg0.N) : (dats m 0 c).after 15 t = out15 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

end Cert.Kernel.Hand

end
-- ==== Proof.BitsIdle.lean ====
import proofs.«177514_g91036126806361_cont_sun_m_26_3_alg».proof.Proof.Gen.Kernel.Frame
import proofs.«177514_g91036126806361_cont_sun_m_26_3_alg».proof.Proof.BitsConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! Where the windows are idle: an input never; the two outputs at every point but the last, which is also the one
    point that writes them back. -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem idleAt0_14 : ∀ t : Fin cfg0.N, ¬cond5 (grid0.coords t) → cfg0.idle 14 (grid0.coords t) = true := by decide +kernel
theorem idleAt0_15 : ∀ t : Fin cfg0.N, ¬cond5 (grid0.coords t) → cfg0.idle 15 (grid0.coords t) = true := by decide +kernel
theorem liveAt0_14 : ∀ t : Fin cfg0.N, cond5 (grid0.coords t) → cfg0.idle 14 (grid0.coords t) = false := by decide +kernel
theorem liveAt0_15 : ∀ t : Fin cfg0.N, cond5 (grid0.coords t) → cfg0.idle 15 (grid0.coords t) = false := by decide +kernel
theorem noFlush0_14 : ∀ t : Fin cfg0.N, ¬cond5 (grid0.coords t) → (cfg0.win 14).flush t = false := by decide +kernel
theorem noFlush0_15 : ∀ t : Fin cfg0.N, ¬cond5 (grid0.coords t) → (cfg0.win 15).flush t = false := by decide +kernel

end Cert.Kernel.Hand

end
-- ==== Proof.LibRowSlots.lean ====
import Idealize.ShloMosaic.Lib.WritesUnit
import Idealize.ShloMosaic.Lib.Pipeline.Frame

noncomputable section

namespace Cert.Lib.RowSlots

open Idealize.ShloMosaic Idealize.SL.Sem

variable {Val : EltTy → Type} {sig : RefSig} {κ : Kind} {sp : Space} {e : EltTy} {d : Fin 2 → ℕ}

/-- `hs'` is `hs` with the `W` rows from row `o` replaced by the rows of `w`: inside the band it reads `w` at the
    row counted from `o`, outside it reads `hs`. The relation between a rank-2 buffer before and after one store of a
    band of whole rows, free of the buffer's view. -/
def Slot (o W : ℕ) {size : Fin 2 → ℕ} (hs : (⟨2, d⟩ : Shape).Idx → Val e) (w : (⟨2, size⟩ : Shape).Idx → Val e)
    (hs' : (⟨2, d⟩ : Shape).Idx → Val e) : Prop :=
  (∀ (y : (⟨2, d⟩ : Shape).Idx) (x : (⟨2, size⟩ : Shape).Idx),
      (y (0 : Fin 2)).val = o + (x (0 : Fin 2)).val → (y (1 : Fin 2)).val = (x (1 : Fin 2)).val → hs' y = w x)
  ∧ ∀ y : (⟨2, d⟩ : Shape).Idx, ((y (0 : Fin 2)).val < o ∨ o + W ≤ (y (0 : Fin 2)).val) → hs' y = hs y

/-- One store of the rows `[o, o + W)` into a whole rank-2 buffer holding `hs` leaves such a buffer. -/
theorem slot_store (M : Memref sig κ sp (⟨2, d⟩ : Shape) e) (hM : M.IsWhole) {off size : Fin 2 → ℕ}
    (inb : ∀ a : Fin 2, off a + size a ≤ d a) (o W : ℕ) (hoff : off = ![o, 0]) (hW : size (0 : Fin 2) = W)
    (hs : (⟨2, d⟩ : Shape).Idx → Val e) (w : (Rect.unit (s := ⟨2, d⟩) off size inb).shape.Idx → Val e) :
    Slot o W hs w (M.view.read Val (M.view.writes Val (hM.unread hs)
      [(⟨Rect.unit (s := ⟨2, d⟩) off size inb, w⟩ : View.Piece Val (⟨2, d⟩ : Shape) e)])) := by
  refine ⟨fun y x h0 h1 => ?_, fun y h => ?_⟩
  · exact View.read_writes_cons_rows_of_mem M.view _ inb w [] y x hoff h0 h1
  · rw [View.read_writes_cons_rows_of_not_mem M.view _ inb w [] y hoff hW h]
    exact congrFun (hM.read_unread hs) y

end Cert.Lib.RowSlots

end
-- ==== Proof.BitsSteps.lean ====
import proofs.«177514_g91036126806361_cont_sun_m_26_3_alg».proof.Proof.Gen.Kernel.Frame
import proofs.«177514_g91036126806361_cont_sun_m_26_3_alg».proof.Proof.Gen.Kernel.Skeleton
import proofs.«177514_g91036126806361_cont_sun_m_26_3_alg».proof.Proof.BitsConds
import proofs.«177514_g91036126806361_cont_sun_m_26_3_alg».proof.Proof.BitsData
import proofs.«177514_g91036126806361_cont_sun_m_26_3_alg».proof.Proof.LibRowSlots
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! How one point's stores move the invariant: a band of 400 rows of the first layer lands in the second scratch; the
    pooled sum grows by one row block's column sums. -/

/-- A grid point is the point of its number. -/
theorem pt_self (t : Fin cfg0.N) (h : t.val < 50) : pt t.val h = t := Fin.ext rfl

/-- Storing point t's 400 activated rows at row 400·t, into a buffer whose rows below 400·t hold the first layer,
    leaves one whose rows below 400·(t+1) do. -/
theorem filled_step (c : Dev nD) (t : Fin cfg0.N) (h25 : t.val < 25) (hc2 : cond2 (grid0.coords t))
    (y1 : Vec F S10000x64 .f32) (hy : y1 = Y1 m c)
    (H : Vec F S10000x64 .f32) (hH : Filled m c t.val H) :
    Filled m c (t.val + 1) (sc18.view.read (Elt F) (sc18.view.writes (Elt F) ((Memref.isWhole_whole _).unread H)
      [(⟨Rect.unit (s := S10000x64) (k0_off1 (grid0.coords t)) S400x64.size (k0_off1_inb (grid0.coords t) hc2),
          k0_pay2 (iblk m c 1 t) y1 (iblk m c 4 t)⟩ : View.Piece (Elt F) S10000x64 .f32)])) := by
  subst hy
  have hoff : k0_off1 (grid0.coords t) = ![400 * t.val, 0] := by rw [hoff1 t, Nat.mod_eq_of_lt h25]
  have S := Cert.Lib.RowSlots.slot_store (Val := Elt F) sc18 (Memref.isWhole_whole _)
    (k0_off1_inb (grid0.coords t) hc2) (400 * t.val) 400 hoff rfl H (k0_pay2 (iblk m c 1 t) (Y1 m c) (iblk m c 4 t))
  intro idx hidx
  have hlt : (idx 0).val < 10000 := (idx 0).isLt
  by_cases hb : (idx 0).val < 400 * t.val
  · rw [S.2 idx (Or.inl hb)]; exact hH idx hb
  · have hq : (idx 0).val / 400 = t.val := by omega
    have hr : (idx 0).val % 400 = (idx 0).val - 400 * t.val := by omega
    rw [S.1 idx (ValueIdx.ix2 (⟨(idx 0).val % 400, Nat.mod_lt _ (by omega)⟩ : Fin 400) (⟨(idx 1).val, (idx 1).isLt⟩ : Fin 64))
      (by show (idx 0).val = 400 * t.val + (idx 0).val % 400; omega) rfl]
    unfold H1full
    have e : pt ((idx 0).val / 400) (by omega) = t := Fin.ext hq
    rw [e]

/-- Once all 25 bands are in, the buffer holds the first layer. -/
theorem filled_all (c : Dev nD) (H : Vec F S10000x64 .f32) (hH : Filled m c 25 H) : H = H1full m c := by
  funext idx
  exact hH idx (by have : (idx 0).val < 10000 := (idx 0).isLt; omega)

/-- Nothing is asked of a buffer before the first band. -/
theorem filled_zero (c : Dev nD) (H : Vec F S10000x64 .f32) : Filled m c 0 H := by
  intro idx h; omega

/-- The pooled sum after the row block of point t ≥ 25 is the sum before it plus that block's column sums. -/
theorem accAt_step (c : Dev nD) (t : Fin cfg0.N) (h25 : 25 ≤ t.val) :
    accAt m c (t.val + 1 - 25) = k0_pay5 (iblk m c 1 t) (Y2 m c) (iblk m c 6 t) (accAt m c (t.val - 25)) := by
  have hN : t.val < 50 := lt_of_lt_of_eq t.isLt N_50
  obtain ⟨k, hk⟩ : ∃ k, t.val = 25 + k := ⟨t.val - 25, by omega⟩
  have e1 : t.val + 1 - 25 = k + 1 := by omega
  have e2 : t.val - 25 = k := by omega
  rw [e1, e2]
  have e : pt (25 + k) (by omega) = t := Fin.ext hk.symm
  show (if h : 25 + k < 50 then
      k0_pay5 (iblk m c 1 (pt (25 + k) h)) (Y2 m c) (iblk m c 6 (pt (25 + k) h)) (accAt m c k) else accAt m c k) = _
  rw [dif_pos (by omega), e]

end Cert.Kernel.Hand

end
-- ==== Proof.LibWholeBuffer.lean ====
import Idealize.ShloMosaic.Lib.Pipeline.Value
import Idealize.ShloMosaic.Lib.Pipeline.FrameBody
import Idealize.ShloMosaic.Lib.Pipeline.Frame

noncomputable section

namespace Cert.Lib.WholeBuffer

open Idealize.ShloMosaic Idealize.SL.Sem

variable {Val : EltTy → Type} {sig : RefSig} {κ : Kind} {sp : Space} {S : Shape} {e : EltTy}

/-- A load of a whole buffer, through the rectangle of the buffer's own extents at zero offsets (however the zeros
    are spelt), of the contents that read `x` reads `x`. -/
theorem readAt_whole (M : Memref sig κ sp S e) (hM : M.IsWhole) {off : Fin S.rank → Nat} (h : off = fun _ => 0)
    (inb : ∀ a, off a + S.size a ≤ S.size a) (x : S.Idx → Val e) :
    View.readAt Val M.view (Rect.unit off S.size inb).toLoadRect (hM.unread x) = x := by
  rw [View.readAt_eq_ld, hM.read_unread, View.ld_unit_zero h]

/-- After ONE store of `w` through that rectangle, over any contents, the buffer reads `w`. -/
theorem read_store_whole [∀ e, Nonempty (Val e)] (v : View sig κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- A load through that rectangle of what ONE store of `w` through it left reads `w`. -/
theorem readCov_store_whole [∀ e, Nonempty (Val e)] (v : View sig κ sp S e) {off : Fin S.rank → Nat}
    (h : off = fun _ => 0) (inb : ∀ a, off a + S.size a ≤ S.size a) (w : S.Idx → Val e) :
    v.readCov [(⟨Rect.unit off S.size inb, w⟩ : View.Piece Val S e)] (Rect.unit off S.size inb).toLoadRect = w :=
  View.readCov_unit_zero v h inb w

/-- A load through any rectangle of the contents that read `x` reads `x` at the rectangle's indices. -/
theorem readAt_part (M : Memref sig κ sp S e) (hM : M.IsWhole) (r : Rect S) (x : S.Idx → Val e) :
    View.readAt Val M.view r.toLoadRect (hM.unread x) = View.ld x r := by
  rw [View.readAt_eq_ld, hM.read_unread]

/-- The two-coordinate zero offsets, as the constant function. -/
theorem zero2 : (![0, 0] : Fin 2 → Nat) = fun _ => 0 := by
  funext a; fin_cases a <;> rfl

end Cert.Lib.WholeBuffer

end
-- ==== Proof.LibNewestStore.lean ====
import Idealize.ShloMosaic.Lib.Pipeline.Value
import Idealize.ShloMosaic.Lib.Pipeline.FrameBody

noncomputable section

namespace Cert.Lib.NewestStore

open Idealize.ShloMosaic Idealize.SL.Sem

variable {Val : EltTy → Type} {sig : RefSig} {κ : Kind} {sp : Space} {S : Shape} {e : EltTy}

/-- After a list of stores whose NEWEST one went through the rectangle of the buffer's whole extent at zero offsets,
    over any contents and whatever the older stores were, the buffer reads the newest store's value: for any view,
    element type and shape. -/
theorem read_writes_cons_whole [∀ e, Nonempty (Val e)] (v : View sig κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

/-- A load through that rectangle after such a list of stores reads the newest store's value. -/
theorem readCov_cons_whole [∀ e, Nonempty (Val e)] (v : View sig κ sp S e)
    {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl,
    View.ld_unit_zero rfl]

end Cert.Lib.NewestStore

end
-- ==== Proof.BitsRunA.lean ====
import proofs.«177514_g91036126806361_cont_sun_m_26_3_alg».proof.Proof.Gen.Kernel.Frame
import proofs.«177514_g91036126806361_cont_sun_m_26_3_alg».proof.Proof.Gen.Kernel.Skeleton
import proofs.«177514_g91036126806361_cont_sun_m_26_3_alg».proof.Proof.BitsConds
import proofs.«177514_g91036126806361_cont_sun_m_26_3_alg».proof.Proof.LibWholeBuffer
import proofs.«177514_g91036126806361_cont_sun_m_26_3_alg».proof.Proof.LibNewestStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first point: the body forms x·W1 into the first scratch (over whatever it held), then does the first layer's
    first row block from it, stored into rows 0–399 of the second scratch. -/
theorem run_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x32 .f32) (harg15 : arg15.IsWhole) (arg16 : Memref sig .tc .vmem S1x1 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x32 .f32) (harg19 : arg19.IsWhole) (arg20 : Memref sig .tc .vmem S1x32 .f32) (harg20 : arg20.IsWhole)
    (hc1 : cond1 i) (hc2 : cond2 i) (hc3 : ¬cond3 i) (hc4 : ¬cond4 i) (hc5 : ¬cond5 i)
    (x1 : Vec F S10000x128 .f32) (x4 : Vec F S128x64 .f32) (x2 : Vec F S400x10000 .f32) (x5 : Vec F S1x64 .f32) (d17 : Vec F S10000x64 .f32) (h1 : Vec F S10000x64 .f32)
    (E : Set ℕ) (K : PUnit → sProp 𝕄) :
    iprop(owns (c : Thread nD τ) arg1 fullShare x1
        ∗ owns (c : Thread nD τ) arg4 fullShare x4
        ∗ owns (c : Thread nD τ) arg2 fullShare x2
        ∗ owns (c : Thread nD τ) arg5 fullShare x5
        ∗ owns (c : Thread nD τ) arg17 fullShare d17
        ∗ owns (c : Thread nD τ) arg18 fullShare h1
        ∗ (iprop(owns (c : Thread nD τ) arg1 fullShare x1
            ∗ owns (c : Thread nD τ) arg4 fullShare x4
            ∗ owns (c : Thread nD τ) arg2 fullShare x2
            ∗ owns (c : Thread nD τ) arg5 fullShare x5
            ∗ owns (c : Thread nD τ) arg17 fullShare (k0_pay1 x1 x4)
            ∗ owns (c : Thread nD τ) arg18 fullShare (arg18.view.read (Elt F) (arg18.view.writes (Elt F) (harg18.unread h1)
                [(⟨Rect.unit (s := S10000x64) (k0_off1 i) S400x64.size (k0_off1_inb i hc2), k0_pay2 x2 (k0_pay1 x1 x4) x5⟩ : View.Piece (Elt F) S10000x64 .f32)]))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_body_eq_skeleton]; unfold cc0__gcn_body_skel
  unfold owns
  iintro ⟨⟨%f1, %hf1, H1⟩, ⟨%f4, %hf4, H4⟩, ⟨%f2, %hf2, H2⟩, ⟨%f5, %hf5, H5⟩, ⟨%f17, %hf17, H17⟩, ⟨%f18, %hf18, H18⟩, Hk⟩
  obtain rfl := harg1.eq_unread hf1
  obtain rfl := harg4.eq_unread hf4
  obtain rfl := harg2.eq_unread hf2
  obtain rfl := harg5.eq_unread hf5
  obtain rfl := harg17.eq_unread hf17
  obtain rfl := harg18.eq_unread hf18
  sl_exec (disch := first | exact hc1 | exact hc2 | exact hc3 | exact hc4 | exact hc5)
  sl_step
  iapply Hk
  isplitl [H1]
  · iexists _; isplitr; · ipureintro; exact harg1.read_unread _
    iexact H1
  isplitl [H4]
  · iexists _; isplitr; · ipureintro; exact harg4.read_unread _
    iexact H4
  isplitl [H2]
  · iexists _; isplitr; · ipureintro; exact harg2.read_unread _
    iexact H2
  isplitl [H5]
  · iexists _; isplitr; · ipureintro; exact harg5.read_unread _
    iexact H5
  isplitl [H17]
  · iexists _; isplitr
    swap; · iexact H17
    ipureintro
    sl_unfold_words
    simp only [Cert.Lib.WholeBuffer.readAt_whole arg1 harg1 Cert.Lib.WholeBuffer.zero2,
      Cert.Lib.WholeBuffer.readAt_whole arg4 harg4 Cert.Lib.WholeBuffer.zero2,
      Cert.Lib.WholeBuffer.readAt_whole arg2 harg2 Cert.Lib.WholeBuffer.zero2,
      Cert.Lib.WholeBuffer.readAt_whole arg5 harg5 Cert.Lib.WholeBuffer.zero2,
      Cert.Lib.WholeBuffer.readAt_whole arg17 harg17 Cert.Lib.WholeBuffer.zero2,
      Cert.Lib.WholeBuffer.readAt_whole arg18 harg18 Cert.Lib.WholeBuffer.zero2,
      Cert.Lib.NewestStore.readCov_cons_whole arg17.view Cert.Lib.WholeBuffer.zero2,
      Cert.Lib.NewestStore.read_writes_cons_whole arg17.view _ Cert.Lib.WholeBuffer.zero2,
      Cert.Lib.NewestStore.readCov_cons_whole arg18.view Cert.Lib.WholeBuffer.zero2,
      Cert.Lib.NewestStore.read_writes_cons_whole arg18.view _ Cert.Lib.WholeBuffer.zero2]
  · iexists _; isplitr
    swap; · iexact H18
    ipureintro
    sl_unfold_words
    simp only [Cert.Lib.WholeBuffer.readAt_whole arg1 harg1 Cert.Lib.WholeBuffer.zero2,
      Cert.Lib.WholeBuffer.readAt_whole arg4 harg4 Cert.Lib.WholeBuffer.zero2,
      Cert.Lib.WholeBuffer.readAt_whole arg2 harg2 Cert.Lib.WholeBuffer.zero2,
      Cert.Lib.WholeBuffer.readAt_whole arg5 harg5 Cert.Lib.WholeBuffer.zero2,
      Cert.Lib.WholeBuffer.readAt_whole arg17 harg17 Cert.Lib.WholeBuffer.zero2,
      Cert.Lib.WholeBuffer.readAt_whole arg18 harg18 Cert.Lib.WholeBuffer.zero2,
      Cert.Lib.NewestStore.readCov_cons_whole arg17.view Cert.Lib.WholeBuffer.zero2,
      Cert.Lib.NewestStore.read_writes_cons_whole arg17.view _ Cert.Lib.WholeBuffer.zero2,
      Cert.Lib.NewestStore.readCov_cons_whole arg18.view Cert.Lib.WholeBuffer.zero2,
      Cert.Lib.NewestStore.read_writes_cons_whole arg18.view _ Cert.Lib.WholeBuffer.zero2]

end Cert.Kernel.Hand

end
-- ==== Proof.BitsRunB.lean ====
import proofs.«177514_g91036126806361_cont_sun_m_26_3_alg».proof.Proof.Gen.Kernel.Frame
import proofs.«177514_g91036126806361_cont_sun_m_26_3_alg».proof.Proof.Gen.Kernel.Skeleton
import proofs.«177514_g91036126806361_cont_sun_m_26_3_alg».proof.Proof.BitsConds
import proofs.«177514_g91036126806361_cont_sun_m_26_3_alg».proof.Proof.LibWholeBuffer
import proofs.«177514_g91036126806361_cont_sun_m_26_3_alg».proof.Proof.LibNewestStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A point of the first layer other than the first (1 ≤ t < 25): the body multiplies the adjacency row block by the
    projected features it finds in the first scratch, adds the bias, activates, and stores the 400 rows into the
    second scratch at the block's offset; nothing else is touched. -/
theorem run_B (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x32 .f32) (harg15 : arg15.IsWhole) (arg16 : Memref sig .tc .vmem S1x1 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x32 .f32) (harg19 : arg19.IsWhole) (arg20 : Memref sig .tc .vmem S1x32 .f32) (harg20 : arg20.IsWhole)
    (hc1 : ¬cond1 i) (hc2 : cond2 i) (hc3 : ¬cond3 i) (hc4 : ¬cond4 i) (hc5 : ¬cond5 i)
    (x2 : Vec F S400x10000 .f32) (x5 : Vec F S1x64 .f32) (y1 : Vec F S10000x64 .f32) (h1 : Vec F S10000x64 .f32)
    (E : Set ℕ) (K : PUnit → sProp 𝕄) :
    iprop(owns (c : Thread nD τ) arg2 fullShare x2
        ∗ owns (c : Thread nD τ) arg5 fullShare x5
        ∗ owns (c : Thread nD τ) arg17 fullShare y1
        ∗ owns (c : Thread nD τ) arg18 fullShare h1
        ∗ (iprop(owns (c : Thread nD τ) arg2 fullShare x2
            ∗ owns (c : Thread nD τ) arg5 fullShare x5
            ∗ owns (c : Thread nD τ) arg17 fullShare y1
            ∗ owns (c : Thread nD τ) arg18 fullShare (arg18.view.read (Elt F) (arg18.view.writes (Elt F) (harg18.unread h1)
                [(⟨Rect.unit (s := S10000x64) (k0_off1 i) S400x64.size (k0_off1_inb i hc2), k0_pay2 x2 y1 x5⟩ : View.Piece (Elt F) S10000x64 .f32)]))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_body_eq_skeleton]; unfold cc0__gcn_body_skel
  unfold owns
  iintro ⟨⟨%f2, %hf2, H2⟩, ⟨%f5, %hf5, H5⟩, ⟨%f17, %hf17, H17⟩, ⟨%f18, %hf18, H18⟩, Hk⟩
  obtain rfl := harg2.eq_unread hf2
  obtain rfl := harg5.eq_unread hf5
  obtain rfl := harg17.eq_unread hf17
  obtain rfl := harg18.eq_unread hf18
  sl_exec (disch := first | exact hc1 | exact hc2 | exact hc3 | exact hc4 | exact hc5)
  sl_step
  iapply Hk
  isplitl [H2]
  · iexists _; isplitr; · ipureintro; exact harg2.read_unread _
    iexact H2
  isplitl [H5]
  · iexists _; isplitr; · ipureintro; exact harg5.read_unread _
    iexact H5
  isplitl [H17]
  · iexists _; isplitr; · ipureintro; exact harg17.read_unread _
    iexact H17
  · iexists _; isplitr
    swap; · iexact H18
    ipureintro
    sl_unfold_words
    simp only [Cert.Lib.WholeBuffer.readAt_whole arg2 harg2 Cert.Lib.WholeBuffer.zero2,
      Cert.Lib.WholeBuffer.readAt_whole arg5 harg5 Cert.Lib.WholeBuffer.zero2,
      Cert.Lib.WholeBuffer.readAt_whole arg17 harg17 Cert.Lib.WholeBuffer.zero2,
      Cert.Lib.WholeBuffer.readAt_whole arg18 harg18 Cert.Lib.WholeBuffer.zero2,
      Cert.Lib.NewestStore.readCov_cons_whole arg18.view Cert.Lib.WholeBuffer.zero2,
      Cert.Lib.NewestStore.read_writes_cons_whole arg18.view _ Cert.Lib.WholeBuffer.zero2]

end Cert.Kernel.Hand

end
-- ==== Proof.BitsRunC.lean ====
import proofs.«177514_g91036126806361_cont_sun_m_26_3_alg».proof.Proof.Gen.Kernel.Frame
import proofs.«177514_g91036126806361_cont_sun_m_26_3_alg».proof.Proof.Gen.Kernel.Skeleton
import proofs.«177514_g91036126806361_cont_sun_m_26_3_alg».proof.Proof.BitsConds
import proofs.«177514_g91036126806361_cont_sun_m_26_3_alg».proof.Proof.LibWholeBuffer
import proofs.«177514_g91036126806361_cont_sun_m_26_3_alg».proof.Proof.LibNewestStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Point 25: the body forms h1·W2 into the third scratch and clears the pooled sum (both over whatever they held),
    then adds the second layer's first row block's column sums to it. -/
theorem run_C (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x32 .f32) (harg15 : arg15.IsWhole) (arg16 : Memref sig .tc .vmem S1x1 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x32 .f32) (harg19 : arg19.IsWhole) (arg20 : Memref sig .tc .vmem S1x32 .f32) (harg20 : arg20.IsWhole)
    (hc1 : ¬cond1 i) (hc2 : ¬cond2 i) (hc3 : cond3 i) (hc4 : cond4 i) (hc5 : ¬cond5 i)
    (h1 : Vec F S10000x64 .f32) (x6 : Vec F S64x32 .f32) (x2 : Vec F S400x10000 .f32) (x7 : Vec F S1x32 .f32) (d19 : Vec F S10000x32 .f32) (d20 : Vec F S1x32 .f32)
    (E : Set ℕ) (K : PUnit → sProp 𝕄) :
    iprop(owns (c : Thread nD τ) arg18 fullShare h1
        ∗ owns (c : Thread nD τ) arg6 fullShare x6
        ∗ owns (c : Thread nD τ) arg2 fullShare x2
        ∗ owns (c : Thread nD τ) arg7 fullShare x7
        ∗ owns (c : Thread nD τ) arg19 fullShare d19
        ∗ owns (c : Thread nD τ) arg20 fullShare d20
        ∗ (iprop(owns (c : Thread nD τ) arg18 fullShare h1
            ∗ owns (c : Thread nD τ) arg6 fullShare x6
            ∗ owns (c : Thread nD τ) arg2 fullShare x2
            ∗ owns (c : Thread nD τ) arg7 fullShare x7
            ∗ owns (c : Thread nD τ) arg19 fullShare (k0_pay3 h1 x6)
            ∗ owns (c : Thread nD τ) arg20 fullShare (k0_pay5 x2 (k0_pay3 h1 x6) x7 (k0_pay4 (F := F)))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_body_eq_skeleton]; unfold cc0__gcn_body_skel
  unfold owns
  iintro ⟨⟨%f18, %hf18, H18⟩, ⟨%f6, %hf6, H6⟩, ⟨%f2, %hf2, H2⟩, ⟨%f7, %hf7, H7⟩, ⟨%f19, %hf19, H19⟩, ⟨%f20, %hf20, H20⟩, Hk⟩
  obtain rfl := harg18.eq_unread hf18
  obtain rfl := harg6.eq_unread hf6
  obtain rfl := harg2.eq_unread hf2
  obtain rfl := harg7.eq_unread hf7
  obtain rfl := harg19.eq_unread hf19
  obtain rfl := harg20.eq_unread hf20
  sl_exec (disch := first | exact hc1 | exact hc2 | exact hc3 | exact hc4 | exact hc5)
  sl_step
  iapply Hk
  isplitl [H18]
  · iexists _; isplitr; · ipureintro; exact harg18.read_unread _
    iexact H18
  isplitl [H6]
  · iexists _; isplitr; · ipureintro; exact harg6.read_unread _
    iexact H6
  isplitl [H2]
  · iexists _; isplitr; · ipureintro; exact harg2.read_unread _
    iexact H2
  isplitl [H7]
  · iexists _; isplitr; · ipureintro; exact harg7.read_unread _
    iexact H7
  isplitl [H19]
  · iexists _; isplitr
    swap; · iexact H19
    ipureintro
    sl_unfold_words
    simp only [Cert.Lib.WholeBuffer.readAt_whole arg18 harg18 Cert.Lib.WholeBuffer.zero2,
      Cert.Lib.WholeBuffer.readAt_whole arg6 harg6 Cert.Lib.WholeBuffer.zero2,
      Cert.Lib.WholeBuffer.readAt_whole arg2 harg2 Cert.Lib.WholeBuffer.zero2,
      Cert.Lib.WholeBuffer.readAt_whole arg7 harg7 Cert.Lib.WholeBuffer.zero2,
      Cert.Lib.WholeBuffer.readAt_whole arg19 harg19 Cert.Lib.WholeBuffer.zero2,
      Cert.Lib.WholeBuffer.readAt_whole arg20 harg20 Cert.Lib.WholeBuffer.zero2,
      Cert.Lib.NewestStore.readCov_cons_whole arg19.view Cert.Lib.WholeBuffer.zero2,
      Cert.Lib.NewestStore.read_writes_cons_whole arg19.view _ Cert.Lib.WholeBuffer.zero2,
      Cert.Lib.NewestStore.readCov_cons_whole arg20.view Cert.Lib.WholeBuffer.zero2,
      Cert.Lib.NewestStore.read_writes_cons_whole arg20.view _ Cert.Lib.WholeBuffer.zero2]
  · iexists _; isplitr
    swap; · iexact H20
    ipureintro
    sl_unfold_words
    simp only [Cert.Lib.WholeBuffer.readAt_whole arg18 harg18 Cert.Lib.WholeBuffer.zero2,
      Cert.Lib.WholeBuffer.readAt_whole arg6 harg6 Cert.Lib.WholeBuffer.zero2,
      Cert.Lib.WholeBuffer.readAt_whole arg2 harg2 Cert.Lib.WholeBuffer.zero2,
      Cert.Lib.WholeBuffer.readAt_whole arg7 harg7 Cert.Lib.WholeBuffer.zero2,
      Cert.Lib.WholeBuffer.readAt_whole arg19 harg19 Cert.Lib.WholeBuffer.zero2,
      Cert.Lib.WholeBuffer.readAt_whole arg20 harg20 Cert.Lib.WholeBuffer.zero2,
      Cert.Lib.NewestStore.readCov_cons_whole arg19.view Cert.Lib.WholeBuffer.zero2,
      Cert.Lib.NewestStore.read_writes_cons_whole arg19.view _ Cert.Lib.WholeBuffer.zero2,
      Cert.Lib.NewestStore.readCov_cons_whole arg20.view Cert.Lib.WholeBuffer.zero2,
      Cert.Lib.NewestStore.read_writes_cons_whole arg20.view _ Cert.Lib.WholeBuffer.zero2]

end Cert.Kernel.Hand

end
-- ==== Proof.BitsRunD.lean ====
import proofs.«177514_g91036126806361_cont_sun_m_26_3_alg».proof.Proof.Gen.Kernel.Frame
import proofs.«177514_g91036126806361_cont_sun_m_26_3_alg».proof.Proof.Gen.Kernel.Skeleton
import proofs.«177514_g91036126806361_cont_sun_m_26_3_alg».proof.Proof.BitsConds
import proofs.«177514_g91036126806361_cont_sun_m_26_3_alg».proof.Proof.LibWholeBuffer
import proofs.«177514_g91036126806361_cont_sun_m_26_3_alg».proof.Proof.LibNewestStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A point of the second layer other than its first and last (25 < t < 49): the column sums of the row block's
    activated rows are added to the pooled sum. -/
theorem run_D (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x32 .f32) (harg15 : arg15.IsWhole) (arg16 : Memref sig .tc .vmem S1x1 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x32 .f32) (harg19 : arg19.IsWhole) (arg20 : Memref sig .tc .vmem S1x32 .f32) (harg20 : arg20.IsWhole)
    (hc1 : ¬cond1 i) (hc2 : ¬cond2 i) (hc3 : ¬cond3 i) (hc4 : cond4 i) (hc5 : ¬cond5 i)
    (x2 : Vec F S400x10000 .f32) (x7 : Vec F S1x32 .f32) (y2 : Vec F S10000x32 .f32) (a : Vec F S1x32 .f32)
    (E : Set ℕ) (K : PUnit → sProp 𝕄) :
    iprop(owns (c : Thread nD τ) arg2 fullShare x2
        ∗ owns (c : Thread nD τ) arg7 fullShare x7
        ∗ owns (c : Thread nD τ) arg19 fullShare y2
        ∗ owns (c : Thread nD τ) arg20 fullShare a
        ∗ (iprop(owns (c : Thread nD τ) arg2 fullShare x2
            ∗ owns (c : Thread nD τ) arg7 fullShare x7
            ∗ owns (c : Thread nD τ) arg19 fullShare y2
            ∗ owns (c : Thread nD τ) arg20 fullShare (k0_pay5 x2 y2 x7 a)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_body_eq_skeleton]; unfold cc0__gcn_body_skel
  unfold owns
  iintro ⟨⟨%f2, %hf2, H2⟩, ⟨%f7, %hf7, H7⟩, ⟨%f19, %hf19, H19⟩, ⟨%f20, %hf20, H20⟩, Hk⟩
  obtain rfl := harg2.eq_unread hf2
  obtain rfl := harg7.eq_unread hf7
  obtain rfl := harg19.eq_unread hf19
  obtain rfl := harg20.eq_unread hf20
  sl_exec (disch := first | exact hc1 | exact hc2 | exact hc3 | exact hc4 | exact hc5)
  sl_step
  iapply Hk
  isplitl [H2]
  · iexists _; isplitr; · ipureintro; exact harg2.read_unread _
    iexact H2
  isplitl [H7]
  · iexists _; isplitr; · ipureintro; exact harg7.read_unread _
    iexact H7
  isplitl [H19]
  · iexists _; isplitr; · ipureintro; exact harg19.read_unread _
    iexact H19
  · iexists _; isplitr
    swap; · iexact H20
    ipureintro
    sl_unfold_words
    simp only [Cert.Lib.WholeBuffer.readAt_whole arg2 harg2 Cert.Lib.WholeBuffer.zero2,
      Cert.Lib.WholeBuffer.readAt_whole arg7 harg7 Cert.Lib.WholeBuffer.zero2,
      Cert.Lib.WholeBuffer.readAt_whole arg19 harg19 Cert.Lib.WholeBuffer.zero2,
      Cert.Lib.WholeBuffer.readAt_whole arg20 harg20 Cert.Lib.WholeBuffer.zero2,
      Cert.Lib.NewestStore.readCov_cons_whole arg20.view Cert.Lib.WholeBuffer.zero2,
      Cert.Lib.NewestStore.read_writes_cons_whole arg20.view _ Cert.Lib.WholeBuffer.zero2]

end Cert.Kernel.Hand

end
-- ==== Proof.BitsRunE.lean ====
import proofs.«177514_g91036126806361_cont_sun_m_26_3_alg».proof.Proof.Gen.Kernel.Frame
import proofs.«177514_g91036126806361_cont_sun_m_26_3_alg».proof.Proof.Gen.Kernel.Skeleton
import proofs.«177514_g91036126806361_cont_sun_m_26_3_alg».proof.Proof.BitsConds
import proofs.«177514_g91036126806361_cont_sun_m_26_3_alg».proof.Proof.LibWholeBuffer
import proofs.«177514_g91036126806361_cont_sun_m_26_3_alg».proof.Proof.LibNewestStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The last point: the last row block's column sums are added to the pooled sum, and from the pooled sum and the small
    operands the body forms the log-softmax of the logits and the mean absolute weight into the two outputs' buffers. -/
theorem run_E (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x32 .f32) (harg15 : arg15.IsWhole) (arg16 : Memref sig .tc .vmem S1x1 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x32 .f32) (harg19 : arg19.IsWhole) (arg20 : Memref sig .tc .vmem S1x32 .f32) (harg20 : arg20.IsWhole)
    (hc1 : ¬cond1 i) (hc2 : ¬cond2 i) (hc3 : ¬cond3 i) (hc4 : cond4 i) (hc5 : cond5 i)
    (x2 : Vec F S400x10000 .f32) (x7 : Vec F S1x32 .f32) (y2 : Vec F S10000x32 .f32) (a : Vec F S1x32 .f32) (x3 x13 x14 x11 x12 : Vec F S1x64 .f32) (x8 : Vec F S32x32 .f32) (x9 : Vec F S32x64 .f32) (x10 : Vec F S1x32 .f32) (d15 : Vec F S1x32 .f32) (d16 : Vec F S1x1 .f32)
    (E : Set ℕ) (K : PUnit → sProp 𝕄) :
    iprop(owns (c : Thread nD τ) arg2 fullShare x2
        ∗ owns (c : Thread nD τ) arg7 fullShare x7
        ∗ owns (c : Thread nD τ) arg19 fullShare y2
        ∗ owns (c : Thread nD τ) arg3 fullShare x3
        ∗ owns (c : Thread nD τ) arg13 fullShare x13
        ∗ owns (c : Thread nD τ) arg14 fullShare x14
        ∗ owns (c : Thread nD τ) arg11 fullShare x11
        ∗ owns (c : Thread nD τ) arg12 fullShare x12
        ∗ owns (c : Thread nD τ) arg8 fullShare x8
        ∗ owns (c : Thread nD τ) arg9 fullShare x9
        ∗ owns (c : Thread nD τ) arg10 fullShare x10
        ∗ owns (c : Thread nD τ) arg20 fullShare a
        ∗ owns (c : Thread nD τ) arg15 fullShare d15
        ∗ owns (c : Thread nD τ) arg16 fullShare d16
        ∗ (iprop(owns (c : Thread nD τ) arg2 fullShare x2
            ∗ owns (c : Thread nD τ) arg7 fullShare x7
            ∗ owns (c : Thread nD τ) arg19 fullShare y2
            ∗ owns (c : Thread nD τ) arg3 fullShare x3
            ∗ owns (c : Thread nD τ) arg13 fullShare x13
            ∗ owns (c : Thread nD τ) arg14 fullShare x14
            ∗ owns (c : Thread nD τ) arg11 fullShare x11
            ∗ owns (c : Thread nD τ) arg12 fullShare x12
            ∗ owns (c : Thread nD τ) arg8 fullShare x8
            ∗ owns (c : Thread nD τ) arg9 fullShare x9
            ∗ owns (c : Thread nD τ) arg10 fullShare x10
            ∗ owns (c : Thread nD τ) arg20 fullShare (k0_pay5 x2 y2 x7 a)
            ∗ owns (c : Thread nD τ) arg15 fullShare (k0_pay6 (k0_pay10 (k0_pay5 x2 y2 x7 a) x3 x13 x14 x11 x12 x8 x9) x10)
            ∗ owns (c : Thread nD τ) arg16 fullShare (k0_pay7 (k0_pay8 x8) (k0_pay9 x9))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_body_eq_skeleton]; unfold cc0__gcn_body_skel
  simp only [k0_part1_eq_skeleton]; unfold k0_part1_skel
  unfold owns
  iintro ⟨⟨%f2, %hf2, H2⟩, ⟨%f7, %hf7, H7⟩, ⟨%f19, %hf19, H19⟩, ⟨%f3, %hf3, H3⟩, ⟨%f13, %hf13, H13⟩, ⟨%f14, %hf14, H14⟩, ⟨%f11, %hf11, H11⟩, ⟨%f12, %hf12, H12⟩, ⟨%f8, %hf8, H8⟩, ⟨%f9, %hf9, H9⟩, ⟨%f10, %hf10, H10⟩, ⟨%f20, %hf20, H20⟩, ⟨%f15, %hf15, H15⟩, ⟨%f16, %hf16, H16⟩, Hk⟩
  obtain rfl := harg2.eq_unread hf2
  obtain rfl := harg7.eq_unread hf7
  obtain rfl := harg19.eq_unread hf19
  obtain rfl := harg3.eq_unread hf3
  obtain rfl := harg13.eq_unread hf13
  obtain rfl := harg14.eq_unread hf14
  obtain rfl := harg11.eq_unread hf11
  obtain rfl := harg12.eq_unread hf12
  obtain rfl := harg8.eq_unread hf8
  obtain rfl := harg9.eq_unread hf9
  obtain rfl := harg10.eq_unread hf10
  obtain rfl := harg20.eq_unread hf20
  obtain rfl := harg15.eq_unread hf15
  obtain rfl := harg16.eq_unread hf16
  sl_exec (disch := first | exact hc1 | exact hc2 | exact hc3 | exact hc4 | exact hc5)
  sl_step
  iapply Hk
  isplitl [H2]
  · iexists _; isplitr; · ipureintro; exact harg2.read_unread _
    iexact H2
  isplitl [H7]
  · iexists _; isplitr; · ipureintro; exact harg7.read_unread _
    iexact H7
  isplitl [H19]
  · iexists _; isplitr; · ipureintro; exact harg19.read_unread _
    iexact H19
  isplitl [H3]
  · iexists _; isplitr; · ipureintro; exact harg3.read_unread _
    iexact H3
  isplitl [H13]
  · iexists _; isplitr; · ipureintro; exact harg13.read_unread _
    iexact H13
  isplitl [H14]
  · iexists _; isplitr; · ipureintro; exact harg14.read_unread _
    iexact H14
  isplitl [H11]
  · iexists _; isplitr; · ipureintro; exact harg11.read_unread _
    iexact H11
  isplitl [H12]
  · iexists _; isplitr; · ipureintro; exact harg12.read_unread _
    iexact H12
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H20]
  · iexists _; isplitr
    swap; · iexact H20
    ipureintro
    sl_unfold_words
    simp only [Cert.Lib.WholeBuffer.readAt_whole arg2 harg2 Cert.Lib.WholeBuffer.zero2,
      Cert.Lib.WholeBuffer.readAt_whole arg7 harg7 Cert.Lib.WholeBuffer.zero2,
      Cert.Lib.WholeBuffer.readAt_whole arg19 harg19 Cert.Lib.WholeBuffer.zero2,
      Cert.Lib.WholeBuffer.readAt_whole arg3 harg3 Cert.Lib.WholeBuffer.zero2,
      Cert.Lib.WholeBuffer.readAt_whole arg13 harg13 Cert.Lib.WholeBuffer.zero2,
      Cert.Lib.WholeBuffer.readAt_whole arg14 harg14 Cert.Lib.WholeBuffer.zero2,
      Cert.Lib.WholeBuffer.readAt_whole arg11 harg11 Cert.Lib.WholeBuffer.zero2,
      Cert.Lib.WholeBuffer.readAt_whole arg12 harg12 Cert.Lib.WholeBuffer.zero2,
      Cert.Lib.WholeBuffer.readAt_whole arg8 harg8 Cert.Lib.WholeBuffer.zero2,
      Cert.Lib.WholeBuffer.readAt_whole arg9 harg9 Cert.Lib.WholeBuffer.zero2,
      Cert.Lib.WholeBuffer.readAt_whole arg10 harg10 Cert.Lib.WholeBuffer.zero2,
      Cert.Lib.WholeBuffer.readAt_whole arg20 harg20 Cert.Lib.WholeBuffer.zero2,
      Cert.Lib.WholeBuffer.readAt_whole arg15 harg15 Cert.Lib.WholeBuffer.zero2,
      Cert.Lib.WholeBuffer.readAt_whole arg16 harg16 Cert.Lib.WholeBuffer.zero2,
      Cert.Lib.NewestStore.readCov_cons_whole arg20.view Cert.Lib.WholeBuffer.zero2,
      Cert.Lib.NewestStore.read_writes_cons_whole arg20.view _ Cert.Lib.WholeBuffer.zero2,
      Cert.Lib.NewestStore.readCov_cons_whole arg15.view Cert.Lib.WholeBuffer.zero2,
      Cert.Lib.NewestStore.read_writes_cons_whole arg15.view _ Cert.Lib.WholeBuffer.zero2,
      Cert.Lib.NewestStore.readCov_cons_whole arg16.view Cert.Lib.WholeBuffer.zero2,
      Cert.Lib.NewestStore.read_writes_cons_whole arg16.view _ Cert.Lib.WholeBuffer.zero2]
  isplitl [H15]
  · iexists _; isplitr
    swap; · iexact H15
    ipureintro
    sl_unfold_words
    simp only [Cert.Lib.WholeBuffer.readAt_whole arg2 harg2 Cert.Lib.WholeBuffer.zero2,
      Cert.Lib.WholeBuffer.readAt_whole arg7 harg7 Cert.Lib.WholeBuffer.zero2,
      Cert.Lib.WholeBuffer.readAt_whole arg19 harg19 Cert.Lib.WholeBuffer.zero2,
      Cert.Lib.WholeBuffer.readAt_whole arg3 harg3 Cert.Lib.WholeBuffer.zero2,
      Cert.Lib.WholeBuffer.readAt_whole arg13 harg13 Cert.Lib.WholeBuffer.zero2,
      Cert.Lib.WholeBuffer.readAt_whole arg14 harg14 Cert.Lib.WholeBuffer.zero2,
      Cert.Lib.WholeBuffer.readAt_whole arg11 harg11 Cert.Lib.WholeBuffer.zero2,
      Cert.Lib.WholeBuffer.readAt_whole arg12 harg12 Cert.Lib.WholeBuffer.zero2,
      Cert.Lib.WholeBuffer.readAt_whole arg8 harg8 Cert.Lib.WholeBuffer.zero2,
      Cert.Lib.WholeBuffer.readAt_whole arg9 harg9 Cert.Lib.WholeBuffer.zero2,
      Cert.Lib.WholeBuffer.readAt_whole arg10 harg10 Cert.Lib.WholeBuffer.zero2,
      Cert.Lib.WholeBuffer.readAt_whole arg20 harg20 Cert.Lib.WholeBuffer.zero2,
      Cert.Lib.WholeBuffer.readAt_whole arg15 harg15 Cert.Lib.WholeBuffer.zero2,
      Cert.Lib.WholeBuffer.readAt_whole arg16 harg16 Cert.Lib.WholeBuffer.zero2,
      Cert.Lib.NewestStore.readCov_cons_whole arg20.view Cert.Lib.WholeBuffer.zero2,
      Cert.Lib.NewestStore.read_writes_cons_whole arg20.view _ Cert.Lib.WholeBuffer.zero2,
      Cert.Lib.NewestStore.readCov_cons_whole arg15.view Cert.Lib.WholeBuffer.zero2,
      Cert.Lib.NewestStore.read_writes_cons_whole arg15.view _ Cert.Lib.WholeBuffer.zero2,
      Cert.Lib.NewestStore.readCov_cons_whole arg16.view Cert.Lib.WholeBuffer.zero2,
      Cert.Lib.NewestStore.read_writes_cons_whole arg16.view _ Cert.Lib.WholeBuffer.zero2]
  · iexists _; isplitr
    swap; · iexact H16
    ipureintro
    sl_unfold_words
    simp only [Cert.Lib.WholeBuffer.readAt_whole arg2 harg2 Cert.Lib.WholeBuffer.zero2,
      Cert.Lib.WholeBuffer.readAt_whole arg7 harg7 Cert.Lib.WholeBuffer.zero2,
      Cert.Lib.WholeBuffer.readAt_whole arg19 harg19 Cert.Lib.WholeBuffer.zero2,
      Cert.Lib.WholeBuffer.readAt_whole arg3 harg3 Cert.Lib.WholeBuffer.zero2,
      Cert.Lib.WholeBuffer.readAt_whole arg13 harg13 Cert.Lib.WholeBuffer.zero2,
      Cert.Lib.WholeBuffer.readAt_whole arg14 harg14 Cert.Lib.WholeBuffer.zero2,
      Cert.Lib.WholeBuffer.readAt_whole arg11 harg11 Cert.Lib.WholeBuffer.zero2,
      Cert.Lib.WholeBuffer.readAt_whole arg12 harg12 Cert.Lib.WholeBuffer.zero2,
      Cert.Lib.WholeBuffer.readAt_whole arg8 harg8 Cert.Lib.WholeBuffer.zero2,
      Cert.Lib.WholeBuffer.readAt_whole arg9 harg9 Cert.Lib.WholeBuffer.zero2,
      Cert.Lib.WholeBuffer.readAt_whole arg10 harg10 Cert.Lib.WholeBuffer.zero2,
      Cert.Lib.WholeBuffer.readAt_whole arg20 harg20 Cert.Lib.WholeBuffer.zero2,
      Cert.Lib.WholeBuffer.readAt_whole arg15 harg15 Cert.Lib.WholeBuffer.zero2,
      Cert.Lib.WholeBuffer.readAt_whole arg16 harg16 Cert.Lib.WholeBuffer.zero2,
      Cert.Lib.NewestStore.readCov_cons_whole arg20.view Cert.Lib.WholeBuffer.zero2,
      Cert.Lib.NewestStore.read_writes_cons_whole arg20.view _ Cert.Lib.WholeBuffer.zero2,
      Cert.Lib.NewestStore.readCov_cons_whole arg15.view Cert.Lib.WholeBuffer.zero2,
      Cert.Lib.NewestStore.read_writes_cons_whole arg15.view _ Cert.Lib.WholeBuffer.zero2,
      Cert.Lib.NewestStore.readCov_cons_whole arg16.view Cert.Lib.WholeBuffer.zero2,
      Cert.Lib.NewestStore.read_writes_cons_whole arg16.view _ Cert.Lib.WholeBuffer.zero2]

end Cert.Kernel.Hand

end
-- ==== Proof.BitsBody.lean ====
import proofs.«177514_g91036126806361_cont_sun_m_26_3_alg».proof.Proof.Gen.Kernel.Frame
import proofs.«177514_g91036126806361_cont_sun_m_26_3_alg».proof.Proof.Gen.Kernel.Skeleton
import proofs.«177514_g91036126806361_cont_sun_m_26_3_alg».proof.Proof.BitsConds
import proofs.«177514_g91036126806361_cont_sun_m_26_3_alg».proof.Proof.BitsIdle
import proofs.«177514_g91036126806361_cont_sun_m_26_3_alg».proof.Proof.BitsData
import proofs.«177514_g91036126806361_cont_sun_m_26_3_alg».proof.Proof.BitsSteps
import proofs.«177514_g91036126806361_cont_sun_m_26_3_alg».proof.Proof.BitsRunA
import proofs.«177514_g91036126806361_cont_sun_m_26_3_alg».proof.Proof.BitsRunB
import proofs.«177514_g91036126806361_cont_sun_m_26_3_alg».proof.Proof.BitsRunC
import proofs.«177514_g91036126806361_cont_sun_m_26_3_alg».proof.Proof.BitsRunD
import proofs.«177514_g91036126806361_cont_sun_m_26_3_alg».proof.Proof.BitsRunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body obligation

At each of the fifty points the body runs from the invariant and the sixteen windows' current buffers to the invariant
of the next point, the inputs' buffers as found, and — at the last point — the two outputs' buffers at the log-softmax
row and the mean absolute weight. -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x32 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x64 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x64 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x64 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x32 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x1 .f32 := win0_15.stage (cfg0.slots t 15)
abbrev hs15 (t : Fin cfg0.N) : (ms15 t).IsWhole := hstage0_15 ((cfg0.slots t 15).cast nbuf0_15)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 8000000 in
/-- The first point. -/
theorem sound_A (c : Dev nD) (t : Fin cfg0.N) (h0 : t.val = 0) :
    bodyPre m c t ⊢ wp frame (wpE (defs₀ (F := F)) Variants.none c none) Set.univ (bodyAt0 t) (fun _ => bodyPost m c t) := by
  have hN : t.val < 50 := lt_of_lt_of_eq t.isLt N_50
  have k1 : cond1 (grid0.coords t) := (hcond1 t).mpr (by omega)
  have k2 : cond2 (grid0.coords t) := (hcond2 t).mpr (by omega)
  have k3 : ¬cond3 (grid0.coords t) := fun h => by have := (hcond3 t).mp h; omega
  have k4 : ¬cond4 (grid0.coords t) := fun h => by have := (hcond4 t).mp h; omega
  have k5 : ¬cond5 (grid0.coords t) := fun h => by have := (hcond5 t).mp h; omega
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).leavesExact 0 t = owns (c : Thread nD τ) (ms0 t) fullShare (iblk m c 0 t) from by
    unfold Dat.leavesExact; rw [liveAt0_0 t, after0_0]]
  rw [show (dats m 0 c).leavesExact 1 t = owns (c : Thread nD τ) (ms1 t) fullShare (iblk m c 1 t) from by
    unfold Dat.leavesExact; rw [liveAt0_1 t, after0_1]]
  rw [show (dats m 0 c).leavesExact 2 t = owns (c : Thread nD τ) (ms2 t) fullShare (iblk m c 2 t) from by
    unfold Dat.leavesExact; rw [liveAt0_2 t, after0_2]]
  rw [show (dats m 0 c).leavesExact 3 t = owns (c : Thread nD τ) (ms3 t) fullShare (iblk m c 3 t) from by
    unfold Dat.leavesExact; rw [liveAt0_3 t, after0_3]]
  rw [show (dats m 0 c).leavesExact 4 t = owns (c : Thread nD τ) (ms4 t) fullShare (iblk m c 4 t) from by
    unfold Dat.leavesExact; rw [liveAt0_4 t, after0_4]]
  rw [show (dats m 0 c).leavesExact 5 t = owns (c : Thread nD τ) (ms5 t) fullShare (iblk m c 5 t) from by
    unfold Dat.leavesExact; rw [liveAt0_5 t, after0_5]]
  rw [show (dats m 0 c).leavesExact 6 t = owns (c : Thread nD τ) (ms6 t) fullShare (iblk m c 6 t) from by
    unfold Dat.leavesExact; rw [liveAt0_6 t, after0_6]]
  rw [show (dats m 0 c).leavesExact 7 t = owns (c : Thread nD τ) (ms7 t) fullShare (iblk m c 7 t) from by
    unfold Dat.leavesExact; rw [liveAt0_7 t, after0_7]]
  rw [show (dats m 0 c).leavesExact 8 t = owns (c : Thread nD τ) (ms8 t) fullShare (iblk m c 8 t) from by
    unfold Dat.leavesExact; rw [liveAt0_8 t, after0_8]]
  rw [show (dats m 0 c).leavesExact 9 t = owns (c : Thread nD τ) (ms9 t) fullShare (iblk m c 9 t) from by
    unfold Dat.leavesExact; rw [liveAt0_9 t, after0_9]]
  rw [show (dats m 0 c).leavesExact 10 t = owns (c : Thread nD τ) (ms10 t) fullShare (iblk m c 10 t) from by
    unfold Dat.leavesExact; rw [liveAt0_10 t, after0_10]]
  rw [show (dats m 0 c).leavesExact 11 t = owns (c : Thread nD τ) (ms11 t) fullShare (iblk m c 11 t) from by
    unfold Dat.leavesExact; rw [liveAt0_11 t, after0_11]]
  rw [show (dats m 0 c).leavesExact 12 t = owns (c : Thread nD τ) (ms12 t) fullShare (iblk m c 12 t) from by
    unfold Dat.leavesExact; rw [liveAt0_12 t, after0_12]]
  rw [show (dats m 0 c).leavesExact 13 t = owns (c : Thread nD τ) (ms13 t) fullShare (iblk m c 13 t) from by
    unfold Dat.leavesExact; rw [liveAt0_13 t, after0_13]]
  rw [Dat.leavesExact_idle (dats m 0 c) 14 t (idleAt0_14 t k5) (noFlush0_14 t k5)]
  rw [Dat.leavesExact_idle (dats m 0 c) 15 t (idleAt0_15 t k5) (noFlush0_15 t k5)]
  rw [show (dats m 0 c).Φ t.succ = PhiS m c (t.val + 1) t.isLt from rfl, PhiS_low m c (t.val + 1) _ (by omega) (by omega)]
  rw [PhiS_castSucc m c t, PhiS_zero m c _ _ h0, PhiA0_eq]
  have et : t = pt 0 (by omega) := Fin.ext h0
  iintro ⟨⟨⟨⟨%d17, HS17⟩, ⟨%d18, HS18⟩, HS19, HS20⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc17 (Memref.isWhole_whole _) sc18 (Memref.isWhole_whole _) sc19 (Memref.isWhole_whole _) sc20 (Memref.isWhole_whole _) k1 k2 k3 k4 k5 (iblk m c 0 t) (iblk m c 3 t) (iblk m c 1 t) (iblk m c 4 t) d17 d18 Set.univ _)
  isplitl [H0]; · iexact H0
  isplitl [H3]; · iexact H3
  isplitl [H1]; · iexact H1
  isplitl [H4]; · iexact H4
  isplitl [HS17]; · iexact HS17
  isplitl [HS18]; · iexact HS18
  iintro ⟨H0, H3, H1, H4, HS17, HS18⟩
  isplitl [HS17 HS18 HS19 HS20 Hg]
  · isplitl [HS18]
    · iexists _; isplitr
      · ipureintro
        have hf := filled_step m c t (by omega) k2 (k0_pay1 (iblk m c 0 t) (iblk m c 3 t)) (by unfold Y1; rw [← et]) d18
          (by rw [h0]; exact filled_zero m c d18)
        exact hf
      iexact HS18
    isplitl [HS17]; · unfold Y1; rw [← et]; iexact HS17
    isplitl [HS19]; · iexact HS19
    isplitl [HS20]; · iexact HS20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  · iexists _; iexact H15

set_option maxHeartbeats 8000000 in
/-- A later point of the first layer. -/
theorem sound_B (c : Dev nD) (t : Fin cfg0.N) (h0 : t.val ≠ 0) (h25 : t.val < 25) :
    bodyPre m c t ⊢ wp frame (wpE (defs₀ (F := F)) Variants.none c none) Set.univ (bodyAt0 t) (fun _ => bodyPost m c t) := by
  have hN : t.val < 50 := lt_of_lt_of_eq t.isLt N_50
  have k1 : ¬cond1 (grid0.coords t) := fun h => by have := (hcond1 t).mp h; omega
  have k2 : cond2 (grid0.coords t) := (hcond2 t).mpr (by omega)
  have k3 : ¬cond3 (grid0.coords t) := fun h => by have := (hcond3 t).mp h; omega
  have k4 : ¬cond4 (grid0.coords t) := fun h => by have := (hcond4 t).mp h; omega
  have k5 : ¬cond5 (grid0.coords t) := fun h => by have := (hcond5 t).mp h; omega
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).leavesExact 0 t = owns (c : Thread nD τ) (ms0 t) fullShare (iblk m c 0 t) from by
    unfold Dat.leavesExact; rw [liveAt0_0 t, after0_0]]
  rw [show (dats m 0 c).leavesExact 1 t = owns (c : Thread nD τ) (ms1 t) fullShare (iblk m c 1 t) from by
    unfold Dat.leavesExact; rw [liveAt0_1 t, after0_1]]
  rw [show (dats m 0 c).leavesExact 2 t = owns (c : Thread nD τ) (ms2 t) fullShare (iblk m c 2 t) from by
    unfold Dat.leavesExact; rw [liveAt0_2 t, after0_2]]
  rw [show (dats m 0 c).leavesExact 3 t = owns (c : Thread nD τ) (ms3 t) fullShare (iblk m c 3 t) from by
    unfold Dat.leavesExact; rw [liveAt0_3 t, after0_3]]
  rw [show (dats m 0 c).leavesExact 4 t = owns (c : Thread nD τ) (ms4 t) fullShare (iblk m c 4 t) from by
    unfold Dat.leavesExact; rw [liveAt0_4 t, after0_4]]
  rw [show (dats m 0 c).leavesExact 5 t = owns (c : Thread nD τ) (ms5 t) fullShare (iblk m c 5 t) from by
    unfold Dat.leavesExact; rw [liveAt0_5 t, after0_5]]
  rw [show (dats m 0 c).leavesExact 6 t = owns (c : Thread nD τ) (ms6 t) fullShare (iblk m c 6 t) from by
    unfold Dat.leavesExact; rw [liveAt0_6 t, after0_6]]
  rw [show (dats m 0 c).leavesExact 7 t = owns (c : Thread nD τ) (ms7 t) fullShare (iblk m c 7 t) from by
    unfold Dat.leavesExact; rw [liveAt0_7 t, after0_7]]
  rw [show (dats m 0 c).leavesExact 8 t = owns (c : Thread nD τ) (ms8 t) fullShare (iblk m c 8 t) from by
    unfold Dat.leavesExact; rw [liveAt0_8 t, after0_8]]
  rw [show (dats m 0 c).leavesExact 9 t = owns (c : Thread nD τ) (ms9 t) fullShare (iblk m c 9 t) from by
    unfold Dat.leavesExact; rw [liveAt0_9 t, after0_9]]
  rw [show (dats m 0 c).leavesExact 10 t = owns (c : Thread nD τ) (ms10 t) fullShare (iblk m c 10 t) from by
    unfold Dat.leavesExact; rw [liveAt0_10 t, after0_10]]
  rw [show (dats m 0 c).leavesExact 11 t = owns (c : Thread nD τ) (ms11 t) fullShare (iblk m c 11 t) from by
    unfold Dat.leavesExact; rw [liveAt0_11 t, after0_11]]
  rw [show (dats m 0 c).leavesExact 12 t = owns (c : Thread nD τ) (ms12 t) fullShare (iblk m c 12 t) from by
    unfold Dat.leavesExact; rw [liveAt0_12 t, after0_12]]
  rw [show (dats m 0 c).leavesExact 13 t = owns (c : Thread nD τ) (ms13 t) fullShare (iblk m c 13 t) from by
    unfold Dat.leavesExact; rw [liveAt0_13 t, after0_13]]
  rw [Dat.leavesExact_idle (dats m 0 c) 14 t (idleAt0_14 t k5) (noFlush0_14 t k5)]
  rw [Dat.leavesExact_idle (dats m 0 c) 15 t (idleAt0_15 t k5) (noFlush0_15 t k5)]
  rw [show (dats m 0 c).Φ t.succ = PhiS m c (t.val + 1) t.isLt from rfl, PhiS_low m c (t.val + 1) _ (by omega) (by omega)]
  rw [PhiS_castSucc m c t, PhiS_low m c _ _ h0 (by omega)]
  iintro ⟨⟨⟨%H, %hH, HS18⟩, HS17, HS19, HS20, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc17 (Memref.isWhole_whole _) sc18 (Memref.isWhole_whole _) sc19 (Memref.isWhole_whole _) sc20 (Memref.isWhole_whole _) k1 k2 k3 k4 k5 (iblk m c 1 t) (iblk m c 4 t) (Y1 m c) H Set.univ _)
  isplitl [H1]; · iexact H1
  isplitl [H4]; · iexact H4
  isplitl [HS17]; · iexact HS17
  isplitl [HS18]; · iexact HS18
  iintro ⟨H1, H4, HS17, HS18⟩
  isplitl [HS17 HS18 HS19 HS20 Hg]
  · isplitl [HS18]
    · iexists _; isplitr
      · ipureintro; exact filled_step m c t h25 k2 (Y1 m c) rfl H hH
      iexact HS18
    isplitl [HS17]; · iexact HS17
    isplitl [HS19]; · iexact HS19
    isplitl [HS20]; · iexact HS20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  · iexists _; iexact H15

set_option maxHeartbeats 8000000 in
/-- Point 25. -/
theorem sound_C (c : Dev nD) (t : Fin cfg0.N) (h25 : t.val = 25) :
    bodyPre m c t ⊢ wp frame (wpE (defs₀ (F := F)) Variants.none c none) Set.univ (bodyAt0 t) (fun _ => bodyPost m c t) := by
  have hN : t.val < 50 := lt_of_lt_of_eq t.isLt N_50
  have k1 : ¬cond1 (grid0.coords t) := fun h => by have := (hcond1 t).mp h; omega
  have k2 : ¬cond2 (grid0.coords t) := fun h => by have := (hcond2 t).mp h; omega
  have k3 : cond3 (grid0.coords t) := (hcond3 t).mpr (by omega)
  have k4 : cond4 (grid0.coords t) := (hcond4 t).mpr (by omega)
  have k5 : ¬cond5 (grid0.coords t) := fun h => by have := (hcond5 t).mp h; omega
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).leavesExact 0 t = owns (c : Thread nD τ) (ms0 t) fullShare (iblk m c 0 t) from by
    unfold Dat.leavesExact; rw [liveAt0_0 t, after0_0]]
  rw [show (dats m 0 c).leavesExact 1 t = owns (c : Thread nD τ) (ms1 t) fullShare (iblk m c 1 t) from by
    unfold Dat.leavesExact; rw [liveAt0_1 t, after0_1]]
  rw [show (dats m 0 c).leavesExact 2 t = owns (c : Thread nD τ) (ms2 t) fullShare (iblk m c 2 t) from by
    unfold Dat.leavesExact; rw [liveAt0_2 t, after0_2]]
  rw [show (dats m 0 c).leavesExact 3 t = owns (c : Thread nD τ) (ms3 t) fullShare (iblk m c 3 t) from by
    unfold Dat.leavesExact; rw [liveAt0_3 t, after0_3]]
  rw [show (dats m 0 c).leavesExact 4 t = owns (c : Thread nD τ) (ms4 t) fullShare (iblk m c 4 t) from by
    unfold Dat.leavesExact; rw [liveAt0_4 t, after0_4]]
  rw [show (dats m 0 c).leavesExact 5 t = owns (c : Thread nD τ) (ms5 t) fullShare (iblk m c 5 t) from by
    unfold Dat.leavesExact; rw [liveAt0_5 t, after0_5]]
  rw [show (dats m 0 c).leavesExact 6 t = owns (c : Thread nD τ) (ms6 t) fullShare (iblk m c 6 t) from by
    unfold Dat.leavesExact; rw [liveAt0_6 t, after0_6]]
  rw [show (dats m 0 c).leavesExact 7 t = owns (c : Thread nD τ) (ms7 t) fullShare (iblk m c 7 t) from by
    unfold Dat.leavesExact; rw [liveAt0_7 t, after0_7]]
  rw [show (dats m 0 c).leavesExact 8 t = owns (c : Thread nD τ) (ms8 t) fullShare (iblk m c 8 t) from by
    unfold Dat.leavesExact; rw [liveAt0_8 t, after0_8]]
  rw [show (dats m 0 c).leavesExact 9 t = owns (c : Thread nD τ) (ms9 t) fullShare (iblk m c 9 t) from by
    unfold Dat.leavesExact; rw [liveAt0_9 t, after0_9]]
  rw [show (dats m 0 c).leavesExact 10 t = owns (c : Thread nD τ) (ms10 t) fullShare (iblk m c 10 t) from by
    unfold Dat.leavesExact; rw [liveAt0_10 t, after0_10]]
  rw [show (dats m 0 c).leavesExact 11 t = owns (c : Thread nD τ) (ms11 t) fullShare (iblk m c 11 t) from by
    unfold Dat.leavesExact; rw [liveAt0_11 t, after0_11]]
  rw [show (dats m 0 c).leavesExact 12 t = owns (c : Thread nD τ) (ms12 t) fullShare (iblk m c 12 t) from by
    unfold Dat.leavesExact; rw [liveAt0_12 t, after0_12]]
  rw [show (dats m 0 c).leavesExact 13 t = owns (c : Thread nD τ) (ms13 t) fullShare (iblk m c 13 t) from by
    unfold Dat.leavesExact; rw [liveAt0_13 t, after0_13]]
  rw [Dat.leavesExact_idle (dats m 0 c) 14 t (idleAt0_14 t k5) (noFlush0_14 t k5)]
  rw [Dat.leavesExact_idle (dats m 0 c) 15 t (idleAt0_15 t k5) (noFlush0_15 t k5)]
  rw [show (dats m 0 c).Φ t.succ = PhiS m c (t.val + 1) t.isLt from rfl, PhiS_high m c (t.val + 1) _ (by omega)]
  rw [PhiS_castSucc m c t, PhiS_low m c _ _ (by omega) (by omega)]
  have et : t = pt 25 (by omega) := Fin.ext h25
  iintro ⟨⟨⟨%H, %hH, HS18⟩, HS17, ⟨%d19, HS19⟩, ⟨%d20, HS20⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  obtain rfl : H = H1full m c := filled_all m c H (by rw [← h25]; exact hH)
  iapply (run_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc17 (Memref.isWhole_whole _) sc18 (Memref.isWhole_whole _) sc19 (Memref.isWhole_whole _) sc20 (Memref.isWhole_whole _) k1 k2 k3 k4 k5 (H1full m c) (iblk m c 5 t) (iblk m c 1 t) (iblk m c 6 t) d19 d20 Set.univ _)
  isplitl [HS18]; · iexact HS18
  isplitl [H5]; · iexact H5
  isplitl [H1]; · iexact H1
  isplitl [H6]; · iexact H6
  isplitl [HS19]; · iexact HS19
  isplitl [HS20]; · iexact HS20
  iintro ⟨HS18, H5, H1, H6, HS19, HS20⟩
  isplitl [HS17 HS18 HS19 HS20 Hg]
  · isplitl [HS18]; · iexact HS18
    isplitl [HS17]; · iexact HS17
    isplitl [HS19]; · unfold Y2; rw [← et]; iexact HS19
    isplitl [HS20]
    · rw [accAt_step m c t (by omega), show t.val - 25 = 0 from by omega]
      unfold Y2; rw [← et]; iexact HS20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  · iexists _; iexact H15

set_option maxHeartbeats 8000000 in
/-- A later point of the second layer but the last. -/
theorem sound_D (c : Dev nD) (t : Fin cfg0.N) (h25 : 25 < t.val) (h49 : t.val < 49) :
    bodyPre m c t ⊢ wp frame (wpE (defs₀ (F := F)) Variants.none c none) Set.univ (bodyAt0 t) (fun _ => bodyPost m c t) := by
  have hN : t.val < 50 := lt_of_lt_of_eq t.isLt N_50
  have k1 : ¬cond1 (grid0.coords t) := fun h => by have := (hcond1 t).mp h; omega
  have k2 : ¬cond2 (grid0.coords t) := fun h => by have := (hcond2 t).mp h; omega
  have k3 : ¬cond3 (grid0.coords t) := fun h => by have := (hcond3 t).mp h; omega
  have k4 : cond4 (grid0.coords t) := (hcond4 t).mpr (by omega)
  have k5 : ¬cond5 (grid0.coords t) := fun h => by have := (hcond5 t).mp h; omega
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).leavesExact 0 t = owns (c : Thread nD τ) (ms0 t) fullShare (iblk m c 0 t) from by
    unfold Dat.leavesExact; rw [liveAt0_0 t, after0_0]]
  rw [show (dats m 0 c).leavesExact 1 t = owns (c : Thread nD τ) (ms1 t) fullShare (iblk m c 1 t) from by
    unfold Dat.leavesExact; rw [liveAt0_1 t, after0_1]]
  rw [show (dats m 0 c).leavesExact 2 t = owns (c : Thread nD τ) (ms2 t) fullShare (iblk m c 2 t) from by
    unfold Dat.leavesExact; rw [liveAt0_2 t, after0_2]]
  rw [show (dats m 0 c).leavesExact 3 t = owns (c : Thread nD τ) (ms3 t) fullShare (iblk m c 3 t) from by
    unfold Dat.leavesExact; rw [liveAt0_3 t, after0_3]]
  rw [show (dats m 0 c).leavesExact 4 t = owns (c : Thread nD τ) (ms4 t) fullShare (iblk m c 4 t) from by
    unfold Dat.leavesExact; rw [liveAt0_4 t, after0_4]]
  rw [show (dats m 0 c).leavesExact 5 t = owns (c : Thread nD τ) (ms5 t) fullShare (iblk m c 5 t) from by
    unfold Dat.leavesExact; rw [liveAt0_5 t, after0_5]]
  rw [show (dats m 0 c).leavesExact 6 t = owns (c : Thread nD τ) (ms6 t) fullShare (iblk m c 6 t) from by
    unfold Dat.leavesExact; rw [liveAt0_6 t, after0_6]]
  rw [show (dats m 0 c).leavesExact 7 t = owns (c : Thread nD τ) (ms7 t) fullShare (iblk m c 7 t) from by
    unfold Dat.leavesExact; rw [liveAt0_7 t, after0_7]]
  rw [show (dats m 0 c).leavesExact 8 t = owns (c : Thread nD τ) (ms8 t) fullShare (iblk m c 8 t) from by
    unfold Dat.leavesExact; rw [liveAt0_8 t, after0_8]]
  rw [show (dats m 0 c).leavesExact 9 t = owns (c : Thread nD τ) (ms9 t) fullShare (iblk m c 9 t) from by
    unfold Dat.leavesExact; rw [liveAt0_9 t, after0_9]]
  rw [show (dats m 0 c).leavesExact 10 t = owns (c : Thread nD τ) (ms10 t) fullShare (iblk m c 10 t) from by
    unfold Dat.leavesExact; rw [liveAt0_10 t, after0_10]]
  rw [show (dats m 0 c).leavesExact 11 t = owns (c : Thread nD τ) (ms11 t) fullShare (iblk m c 11 t) from by
    unfold Dat.leavesExact; rw [liveAt0_11 t, after0_11]]
  rw [show (dats m 0 c).leavesExact 12 t = owns (c : Thread nD τ) (ms12 t) fullShare (iblk m c 12 t) from by
    unfold Dat.leavesExact; rw [liveAt0_12 t, after0_12]]
  rw [show (dats m 0 c).leavesExact 13 t = owns (c : Thread nD τ) (ms13 t) fullShare (iblk m c 13 t) from by
    unfold Dat.leavesExact; rw [liveAt0_13 t, after0_13]]
  rw [Dat.leavesExact_idle (dats m 0 c) 14 t (idleAt0_14 t k5) (noFlush0_14 t k5)]
  rw [Dat.leavesExact_idle (dats m 0 c) 15 t (idleAt0_15 t k5) (noFlush0_15 t k5)]
  rw [show (dats m 0 c).Φ t.succ = PhiS m c (t.val + 1) t.isLt from rfl, PhiS_high m c (t.val + 1) _ (by omega)]
  rw [PhiS_castSucc m c t, PhiS_high m c _ _ h25]
  iintro ⟨⟨HS18, HS17, HS19, HS20, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc17 (Memref.isWhole_whole _) sc18 (Memref.isWhole_whole _) sc19 (Memref.isWhole_whole _) sc20 (Memref.isWhole_whole _) k1 k2 k3 k4 k5 (iblk m c 1 t) (iblk m c 6 t) (Y2 m c) (accAt m c (t.val - 25)) Set.univ _)
  isplitl [H1]; · iexact H1
  isplitl [H6]; · iexact H6
  isplitl [HS19]; · iexact HS19
  isplitl [HS20]; · iexact HS20
  iintro ⟨H1, H6, HS19, HS20⟩
  isplitl [HS17 HS18 HS19 HS20 Hg]
  · isplitl [HS18]; · iexact HS18
    isplitl [HS17]; · iexact HS17
    isplitl [HS19]; · iexact HS19
    isplitl [HS20]; · rw [accAt_step m c t (by omega)]; iexact HS20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  · iexists _; iexact H15

set_option maxHeartbeats 8000000 in
/-- The last point. -/
theorem sound_E (c : Dev nD) (t : Fin cfg0.N) (h49 : t.val = 49) :
    bodyPre m c t ⊢ wp frame (wpE (defs₀ (F := F)) Variants.none c none) Set.univ (bodyAt0 t) (fun _ => bodyPost m c t) := by
  have hN : t.val < 50 := lt_of_lt_of_eq t.isLt N_50
  have k1 : ¬cond1 (grid0.coords t) := fun h => by have := (hcond1 t).mp h; omega
  have k2 : ¬cond2 (grid0.coords t) := fun h => by have := (hcond2 t).mp h; omega
  have k3 : ¬cond3 (grid0.coords t) := fun h => by have := (hcond3 t).mp h; omega
  have k4 : cond4 (grid0.coords t) := (hcond4 t).mpr (by omega)
  have k5 : cond5 (grid0.coords t) := (hcond5 t).mpr (by omega)
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).leavesExact 0 t = owns (c : Thread nD τ) (ms0 t) fullShare (iblk m c 0 t) from by
    unfold Dat.leavesExact; rw [liveAt0_0 t, after0_0]]
  rw [show (dats m 0 c).leavesExact 1 t = owns (c : Thread nD τ) (ms1 t) fullShare (iblk m c 1 t) from by
    unfold Dat.leavesExact; rw [liveAt0_1 t, after0_1]]
  rw [show (dats m 0 c).leavesExact 2 t = owns (c : Thread nD τ) (ms2 t) fullShare (iblk m c 2 t) from by
    unfold Dat.leavesExact; rw [liveAt0_2 t, after0_2]]
  rw [show (dats m 0 c).leavesExact 3 t = owns (c : Thread nD τ) (ms3 t) fullShare (iblk m c 3 t) from by
    unfold Dat.leavesExact; rw [liveAt0_3 t, after0_3]]
  rw [show (dats m 0 c).leavesExact 4 t = owns (c : Thread nD τ) (ms4 t) fullShare (iblk m c 4 t) from by
    unfold Dat.leavesExact; rw [liveAt0_4 t, after0_4]]
  rw [show (dats m 0 c).leavesExact 5 t = owns (c : Thread nD τ) (ms5 t) fullShare (iblk m c 5 t) from by
    unfold Dat.leavesExact; rw [liveAt0_5 t, after0_5]]
  rw [show (dats m 0 c).leavesExact 6 t = owns (c : Thread nD τ) (ms6 t) fullShare (iblk m c 6 t) from by
    unfold Dat.leavesExact; rw [liveAt0_6 t, after0_6]]
  rw [show (dats m 0 c).leavesExact 7 t = owns (c : Thread nD τ) (ms7 t) fullShare (iblk m c 7 t) from by
    unfold Dat.leavesExact; rw [liveAt0_7 t, after0_7]]
  rw [show (dats m 0 c).leavesExact 8 t = owns (c : Thread nD τ) (ms8 t) fullShare (iblk m c 8 t) from by
    unfold Dat.leavesExact; rw [liveAt0_8 t, after0_8]]
  rw [show (dats m 0 c).leavesExact 9 t = owns (c : Thread nD τ) (ms9 t) fullShare (iblk m c 9 t) from by
    unfold Dat.leavesExact; rw [liveAt0_9 t, after0_9]]
  rw [show (dats m 0 c).leavesExact 10 t = owns (c : Thread nD τ) (ms10 t) fullShare (iblk m c 10 t) from by
    unfold Dat.leavesExact; rw [liveAt0_10 t, after0_10]]
  rw [show (dats m 0 c).leavesExact 11 t = owns (c : Thread nD τ) (ms11 t) fullShare (iblk m c 11 t) from by
    unfold Dat.leavesExact; rw [liveAt0_11 t, after0_11]]
  rw [show (dats m 0 c).leavesExact 12 t = owns (c : Thread nD τ) (ms12 t) fullShare (iblk m c 12 t) from by
    unfold Dat.leavesExact; rw [liveAt0_12 t, after0_12]]
  rw [show (dats m 0 c).leavesExact 13 t = owns (c : Thread nD τ) (ms13 t) fullShare (iblk m c 13 t) from by
    unfold Dat.leavesExact; rw [liveAt0_13 t, after0_13]]
  rw [show (dats m 0 c).leavesExact 14 t = owns (c : Thread nD τ) (ms14 t) fullShare (out14 m c t) from by
    unfold Dat.leavesExact; rw [liveAt0_14 t k5, after0_14]]
  rw [show (dats m 0 c).leavesExact 15 t = owns (c : Thread nD τ) (ms15 t) fullShare (out15 m c t) from by
    unfold Dat.leavesExact; rw [liveAt0_15 t k5, after0_15]]
  rw [show (dats m 0 c).Φ t.succ = PhiS m c (t.val + 1) t.isLt from rfl, PhiS_high m c (t.val + 1) _ (by omega)]
  rw [PhiS_castSucc m c t, PhiS_high m c _ _ (by omega)]
  iintro ⟨⟨HS18, HS17, HS19, HS20, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_E c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc17 (Memref.isWhole_whole _) sc18 (Memref.isWhole_whole _) sc19 (Memref.isWhole_whole _) sc20 (Memref.isWhole_whole _) k1 k2 k3 k4 k5 (iblk m c 1 t) (iblk m c 6 t) (Y2 m c) (accAt m c (t.val - 25))
    (iblk m c 2 t) (iblk m c 12 t) (iblk m c 13 t) (iblk m c 10 t) (iblk m c 11 t) (iblk m c 7 t) (iblk m c 8 t) (iblk m c 9 t) ((dats m 0 c).before 14 t d14) ((dats m 0 c).before 15 t d15) Set.univ _)
  isplitl [H1]; · iexact H1
  isplitl [H6]; · iexact H6
  isplitl [HS19]; · iexact HS19
  isplitl [H2]; · iexact H2
  isplitl [H12]; · iexact H12
  isplitl [H13]; · iexact H13
  isplitl [H10]; · iexact H10
  isplitl [H11]; · iexact H11
  isplitl [H7]; · iexact H7
  isplitl [H8]; · iexact H8
  isplitl [H9]; · iexact H9
  isplitl [HS20]; · iexact HS20
  isplitl [H14]; · iexact H14
  isplitl [H15]; · iexact H15
  iintro ⟨H1, H6, HS19, H2, H12, H13, H10, H11, H7, H8, H9, HS20, H14, H15⟩
  have eacc : accAt m c 25 = k0_pay5 (iblk m c 1 t) (Y2 m c) (iblk m c 6 t) (accAt m c (t.val - 25)) := by
    rw [← accAt_step m c t (by omega), show t.val + 1 - 25 = 25 from by omega]
  isplitl [HS17 HS18 HS19 HS20 Hg]
  · isplitl [HS18]; · iexact HS18
    isplitl [HS17]; · iexact HS17
    isplitl [HS19]; · iexact HS19
    isplitl [HS20]; · rw [accAt_step m c t (by omega)]; iexact HS20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · unfold out14; rw [eacc]; iexact H14
  · unfold out15; iexact H15

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 50 := lt_of_lt_of_eq t.isLt N_50
  by_cases h0 : t.val = 0
  · exact sound_A m c t h0
  by_cases h25 : t.val < 25
  · exact sound_B m c t h0 h25
  by_cases h25' : t.val = 25
  · exact sound_C m c t h25'
  by_cases h49 : t.val < 49
  · exact sound_D m c t (by omega) h49
  · exact sound_E m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_high m c _ _ (by rw [Fin.val_last, N_50]; omega), PhiA0_eq]
  iintro ⟨HS18, HS17, HS19, HS20, Hg⟩
  isplitr [Hg]
  · isplitl [HS17]; · iexists _; iexact HS17
    isplitl [HS18]; · iexists _; iexact HS18
    isplitl [HS19]; · iexists _; iexact HS19
    iexists _; iexact HS20
  iexact Hg

end Cert.Kernel.Hand

end
-- ==== Proof.BitsFrame.lean ====
import proofs.«177514_g91036126806361_cont_sun_m_26_3_alg».proof.Proof.Gen.Kernel.Frame
import proofs.«177514_g91036126806361_cont_sun_m_26_3_alg».proof.Proof.BitsData
import proofs.«177514_g91036126806361_cont_sun_m_26_3_alg».proof.Proof.BitsBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, and every final state has each
    array of the pipeline at what the proof data computes and every other buffer as the line after the region leaves
    it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to its end, faults nowhere, and leaves its thirteen argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Hand

end
-- ==== Proof.IdealConds.lean ====
import proofs.«177514_g91036126806361_cont_sun_m_26_3_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The five branch conditions of the body, as it computes them from the grid coordinate, and where on the grid of
    fifty points each holds: the first point computes x·W1; points 0–24 are the first layer's row blocks; point 25
    computes h1·W2 and clears the pooled sum; points 25–49 are the second layer's row blocks; the last point forms
    the logits. The row block a point works on starts at row 400·(t mod 25). -/

abbrev cond1 (i : grid0.Coords) : Prop :=
  Scalar.cmpi .ne (Scalar.extui (Scalar.cmpi .eq (BitVec.ofNat 32 (i 0).val) 0#32)) 0#32 = 1#1
abbrev cond2 (i : grid0.Coords) : Prop := k0_cond2 i = 1#1
abbrev cond3 (i : grid0.Coords) : Prop :=
  Scalar.cmpi .ne (Scalar.extui (Scalar.cmpi .eq (BitVec.ofNat 32 (i 0).val) 25#32)) 0#32 = 1#1
abbrev cond4 (i : grid0.Coords) : Prop :=
  Scalar.cmpi .ne (Scalar.extui (Scalar.cmpi .sge (BitVec.ofNat 32 (i 0).val) 25#32)) 0#32 = 1#1
abbrev cond5 (i : grid0.Coords) : Prop := k0_cond5 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 25 :=
  (by decide +kernel : ∀ t : Fin grid0.N, cond3 (grid0.coords t) ↔ t.val = 25)
theorem hcond4 : ∀ t : Fin cfg0.N, cond4 (grid0.coords t) ↔ 25 ≤ t.val :=
  (by decide +kernel : ∀ t : Fin grid0.N, cond4 (grid0.coords t) ↔ 25 ≤ t.val)
theorem hcond5 : ∀ t : Fin cfg0.N, cond5 (grid0.coords t) ↔ t.val = 49 :=
  (by decide +kernel : ∀ t : Fin grid0.N, cond5 (grid0.coords t) ↔ t.val = 49)
theorem hoff1 : ∀ t : Fin cfg0.N, k0_off1 (grid0.coords t) = ![400 * (t.val % 25), 0] :=
  (by decide +kernel : ∀ t : Fin grid0.N, k0_off1 (grid0.coords t) = ![400 * (t.val % 25), 0])

end Cert.KernelIdeal.Hand

end
-- ==== Proof.IdealData.lean ====
import proofs.«177514_g91036126806361_cont_sun_m_26_3_alg».proof.Proof.Gen.KernelIdeal.Frame
import proofs.«177514_g91036126806361_cont_sun_m_26_3_alg».proof.Proof.Gen.KernelIdeal.Skeleton
import proofs.«177514_g91036126806361_cont_sun_m_26_3_alg».proof.Proof.IdealConds
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What the four scratch buffers hold between points

The first scratch holds x·W1 from the first point on. The second is filled 400 rows per point with the first layer
h1 = selu (adj·(x·W1) + b1): before point n ≤ 25 its rows below 400·n hold h1, the rest whatever the buffer held. From
point 25 on the third holds h1·W2 and the fourth the column sums of the second layer over the row blocks done. -/

theorem N_50 : cfg0.N = 50 := N_0

/-- The grid point of a number below fifty. -/
abbrev pt (n : ℕ) (h : n < 50) : Fin cfg0.N := ⟨n, lt_of_lt_of_eq h N_50.symm⟩

/-- The scratch operands: whole buffers of the kernel's own. -/
abbrev sc17 : Memref sig .tc .vmem S10000x64 .f32 := Memref.whole cc0_scratch0
abbrev sc18 : Memref sig .tc .vmem S10000x64 .f32 := Memref.whole cc0_scratch1
abbrev sc19 : Memref sig .tc .vmem S10000x32 .f32 := Memref.whole cc0_scratch2
abbrev sc20 : Memref sig .tc .vmem S1x32 .f32 := Memref.whole cc0_scratch3

/-- x·W1, from the blocks the first point reads. -/
def Y1 (c : Dev nD) : Vec F S10000x64 .f32 := k0_pay1 (iblk m c 0 (pt 0 (by omega))) (iblk m c 3 (pt 0 (by omega)))

/-- The first layer, row by row: row r is computed at point r / 400 from that point's adjacency block. -/
def H1full (c : Dev nD) : Vec F S10000x64 .f32 := fun idx =>
  k0_pay2 (iblk m c 1 (pt ((idx 0).val / 400) (by have := (idx 0).isLt; change _ < 10000 at this; omega)))
    (Y1 m c) (iblk m c 4 (pt ((idx 0).val / 400) (by have := (idx 0).isLt; change _ < 10000 at this; omega)))
    (ValueIdx.ix2 (⟨(idx 0).val % 400, Nat.mod_lt _ (by omega)⟩ : Fin 400) (⟨(idx 1).val, (idx 1).isLt⟩ : Fin 64))

/-- The rows below 400·n of a buffer hold the first layer. -/
def Filled (c : Dev nD) (n : ℕ) (H : Vec F S10000x64 .f32) : Prop :=
  ∀ idx : S10000x64.Idx, (idx 0).val < 400 * n → H idx = H1full m c idx

/-- h1·W2. -/
def Y2 (c : Dev nD) : Vec F S10000x32 .f32 := k0_pay3 (H1full m c) (iblk m c 5 (pt 25 (by omega)))

/-- The pooled column sums after k row blocks of the second layer. -/
def accAt (c : Dev nD) : ℕ → Vec F S1x32 .f32
  | 0 => k0_pay4
  | k + 1 =>
    if h : 25 + k < 50 then
      k0_pay5 (iblk m c 1 (pt (25 + k) h)) (Y2 m c) (iblk m c 6 (pt (25 + k) h)) (accAt c k)
    else accAt c k

/-- What the last point leaves in the two outputs' staging buffers. -/
def out14 (c : Dev nD) (t : Fin cfg0.N) : Vec F S1x32 .f32 :=
  k0_pay6 (k0_pay10 (accAt m c 25) (iblk m c 2 t) (iblk m c 12 t) (iblk m c 13 t) (iblk m c 10 t) (iblk m c 11 t)
    (iblk m c 7 t) (iblk m c 8 t)) (iblk m c 9 t)
def out15 (c : Dev nD) (t : Fin cfg0.N) : Vec F S1x1 .f32 :=
  k0_pay7 (k0_pay8 (iblk m c 7 t)) (k0_pay9 (iblk m c 8 t))

/-- The invariant before point n. -/
def PhiS (c : Dev nD) : (n : ℕ) → n ≤ cfg0.N → sProp 𝕄
  | 0, _ => Pipeline.ΦA spec0 c
  | n + 1, _ =>
    if n + 1 ≤ 25 then
      iprop((∃ H : Vec F S10000x64 .f32, ⌜Filled m c (n + 1) H⌝ ∗ owns (c : Thread nD τ) sc18 fullShare H)
        ∗ owns (c : Thread nD τ) sc17 fullShare (Y1 m c)
        ∗ (∃ d, owns (c : Thread nD τ) sc19 fullShare d) ∗ (∃ d, owns (c : Thread nD τ) sc20 fullShare d)
        ∗ (∃ r, prngReg c r))
    else
      iprop(owns (c : Thread nD τ) sc18 fullShare (H1full m c)
        ∗ owns (c : Thread nD τ) sc17 fullShare (Y1 m c)
        ∗ owns (c : Thread nD τ) sc19 fullShare (Y2 m c) ∗ owns (c : Thread nD τ) sc20 fullShare (accAt m c (n + 1 - 25))
        ∗ (∃ r, prngReg c r))

theorem PhiS_zero (c : Dev nD) (n : ℕ) (h : n ≤ cfg0.N) (hz : n = 0) : PhiS m c n h = Pipeline.ΦA spec0 c := by
  subst hz; rfl

theorem PhiS_low (c : Dev nD) (n : ℕ) (h : n ≤ cfg0.N) (h0 : n ≠ 0) (h25 : n ≤ 25) :
    PhiS m c n h = iprop((∃ H : Vec F S10000x64 .f32, ⌜Filled m c n H⌝ ∗ owns (c : Thread nD τ) sc18 fullShare H)
        ∗ owns (c : Thread nD τ) sc17 fullShare (Y1 m c)
        ∗ (∃ d, owns (c : Thread nD τ) sc19 fullShare d) ∗ (∃ d, owns (c : Thread nD τ) sc20 fullShare d)
        ∗ (∃ r, prngReg c r)) := by
  cases n with
  | zero => exact absurd rfl h0
  | succ n => exact if_pos h25

theorem PhiS_high (c : Dev nD) (n : ℕ) (h : n ≤ cfg0.N) (h25 : 25 < n) :
    PhiS m c n h = iprop(owns (c : Thread nD τ) sc18 fullShare (H1full m c)
        ∗ owns (c : Thread nD τ) sc17 fullShare (Y1 m c)
        ∗ owns (c : Thread nD τ) sc19 fullShare (Y2 m c) ∗ owns (c : Thread nD τ) sc20 fullShare (accAt m c (n - 25))
        ∗ (∃ r, prngReg c r)) := by
  cases n with
  | zero => omega
  | succ n => exact if_neg (by omega)

/-- The class invariant with the scratch operands as memrefs owned at some contents. -/
theorem PhiA0_eq (c : Dev nD) :
    (Pipeline.ΦA spec0 c : sProp 𝕄)
      = iprop(iprop((∃ d, owns (c : Thread nD τ) sc17 fullShare d) ∗ (∃ d, owns (c : Thread nD τ) sc18 fullShare d)
          ∗ (∃ d, owns (c : Thread nD τ) sc19 fullShare d) ∗ (∃ d, owns (c : Thread nD τ) sc20 fullShare d)) ∗ (∃ r, prngReg c r)) := by
  unfold Pipeline.ΦA; rw [scopedRest0_eq]; simp only [sc17, sc18, sc19, sc20, owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out14 m c t
    | ⟨15, _⟩ => out15 m c t
    | ⟨_ + 16, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out14 m c t := by dsimp only [dats]
theorem after0_15 (c : Dev nD) (t : Fin cfg0.N) : (dats m 0 c).after 15 t = out15 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

end Cert.KernelIdeal.Hand

end
-- ==== Proof.IdealIdle.lean ====
import proofs.«177514_g91036126806361_cont_sun_m_26_3_alg».proof.Proof.Gen.KernelIdeal.Frame
import proofs.«177514_g91036126806361_cont_sun_m_26_3_alg».proof.Proof.IdealConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! Where the windows are idle: an input never; the two outputs at every point but the last, which is also the one
    point that writes them back. -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem idleAt0_14 : ∀ t : Fin cfg0.N, ¬cond5 (grid0.coords t) → cfg0.idle 14 (grid0.coords t) = true := by decide +kernel
theorem idleAt0_15 : ∀ t : Fin cfg0.N, ¬cond5 (grid0.coords t) → cfg0.idle 15 (grid0.coords t) = true := by decide +kernel
theorem liveAt0_14 : ∀ t : Fin cfg0.N, cond5 (grid0.coords t) → cfg0.idle 14 (grid0.coords t) = false := by decide +kernel
theorem liveAt0_15 : ∀ t : Fin cfg0.N, cond5 (grid0.coords t) → cfg0.idle 15 (grid0.coords t) = false := by decide +kernel
theorem noFlush0_14 : ∀ t : Fin cfg0.N, ¬cond5 (grid0.coords t) → (cfg0.win 14).flush t = false := by decide +kernel
theorem noFlush0_15 : ∀ t : Fin cfg0.N, ¬cond5 (grid0.coords t) → (cfg0.win 15).flush t = false := by decide +kernel

end Cert.KernelIdeal.Hand

end
-- ==== Proof.IdealSteps.lean ====
import proofs.«177514_g91036126806361_cont_sun_m_26_3_alg».proof.Proof.Gen.KernelIdeal.Frame
import proofs.«177514_g91036126806361_cont_sun_m_26_3_alg».proof.Proof.Gen.KernelIdeal.Skeleton
import proofs.«177514_g91036126806361_cont_sun_m_26_3_alg».proof.Proof.IdealConds
import proofs.«177514_g91036126806361_cont_sun_m_26_3_alg».proof.Proof.IdealData
import proofs.«177514_g91036126806361_cont_sun_m_26_3_alg».proof.Proof.LibRowSlots
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

/-! How one point's stores move the invariant: a band of 400 rows of the first layer lands in the second scratch; the
    pooled sum grows by one row block's column sums. -/

/-- A grid point is the point of its number. -/
theorem pt_self (t : Fin cfg0.N) (h : t.val < 50) : pt t.val h = t := Fin.ext rfl

/-- Storing point t's 400 activated rows at row 400·t, into a buffer whose rows below 400·t hold the first layer,
    leaves one whose rows below 400·(t+1) do. -/
theorem filled_step (c : Dev nD) (t : Fin cfg0.N) (h25 : t.val < 25) (hc2 : cond2 (grid0.coords t))
    (y1 : Vec F S10000x64 .f32) (hy : y1 = Y1 m c)
    (H : Vec F S10000x64 .f32) (hH : Filled m c t.val H) :
    Filled m c (t.val + 1) (sc18.view.read (Elt F) (sc18.view.writes (Elt F) ((Memref.isWhole_whole _).unread H)
      [(⟨Rect.unit (s := S10000x64) (k0_off1 (grid0.coords t)) S400x64.size (k0_off1_inb (grid0.coords t) hc2),
          k0_pay2 (iblk m c 1 t) y1 (iblk m c 4 t)⟩ : View.Piece (Elt F) S10000x64 .f32)])) := by
  subst hy
  have hoff : k0_off1 (grid0.coords t) = ![400 * t.val, 0] := by rw [hoff1 t, Nat.mod_eq_of_lt h25]
  have S := Cert.Lib.RowSlots.slot_store (Val := Elt F) sc18 (Memref.isWhole_whole _)
    (k0_off1_inb (grid0.coords t) hc2) (400 * t.val) 400 hoff rfl H (k0_pay2 (iblk m c 1 t) (Y1 m c) (iblk m c 4 t))
  intro idx hidx
  have hlt : (idx 0).val < 10000 := (idx 0).isLt
  by_cases hb : (idx 0).val < 400 * t.val
  · rw [S.2 idx (Or.inl hb)]; exact hH idx hb
  · have hq : (idx 0).val / 400 = t.val := by omega
    have hr : (idx 0).val % 400 = (idx 0).val - 400 * t.val := by omega
    rw [S.1 idx (ValueIdx.ix2 (⟨(idx 0).val % 400, Nat.mod_lt _ (by omega)⟩ : Fin 400) (⟨(idx 1).val, (idx 1).isLt⟩ : Fin 64))
      (by show (idx 0).val = 400 * t.val + (idx 0).val % 400; omega) rfl]
    unfold H1full
    have e : pt ((idx 0).val / 400) (by omega) = t := Fin.ext hq
    rw [e]

/-- Once all 25 bands are in, the buffer holds the first layer. -/
theorem filled_all (c : Dev nD) (H : Vec F S10000x64 .f32) (hH : Filled m c 25 H) : H = H1full m c := by
  funext idx
  exact hH idx (by have : (idx 0).val < 10000 := (idx 0).isLt; omega)

/-- Nothing is asked of a buffer before the first band. -/
theorem filled_zero (c : Dev nD) (H : Vec F S10000x64 .f32) : Filled m c 0 H := by
  intro idx h; omega

/-- The pooled sum after the row block of point t ≥ 25 is the sum before it plus that block's column sums. -/
theorem accAt_step (c : Dev nD) (t : Fin cfg0.N) (h25 : 25 ≤ t.val) :
    accAt m c (t.val + 1 - 25) = k0_pay5 (iblk m c 1 t) (Y2 m c) (iblk m c 6 t) (accAt m c (t.val - 25)) := by
  have hN : t.val < 50 := lt_of_lt_of_eq t.isLt N_50
  obtain ⟨k, hk⟩ : ∃ k, t.val = 25 + k := ⟨t.val - 25, by omega⟩
  have e1 : t.val + 1 - 25 = k + 1 := by omega
  have e2 : t.val - 25 = k := by omega
  rw [e1, e2]
  have e : pt (25 + k) (by omega) = t := Fin.ext hk.symm
  show (if h : 25 + k < 50 then
      k0_pay5 (iblk m c 1 (pt (25 + k) h)) (Y2 m c) (iblk m c 6 (pt (25 + k) h)) (accAt m c k) else accAt m c k) = _
  rw [dif_pos (by omega), e]

end Cert.KernelIdeal.Hand

end
-- ==== Proof.IdealRunA.lean ====
import proofs.«177514_g91036126806361_cont_sun_m_26_3_alg».proof.Proof.Gen.KernelIdeal.Frame
import proofs.«177514_g91036126806361_cont_sun_m_26_3_alg».proof.Proof.Gen.KernelIdeal.Skeleton
import proofs.«177514_g91036126806361_cont_sun_m_26_3_alg».proof.Proof.IdealConds
import proofs.«177514_g91036126806361_cont_sun_m_26_3_alg».proof.Proof.LibWholeBuffer
import proofs.«177514_g91036126806361_cont_sun_m_26_3_alg».proof.Proof.LibNewestStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The first point: the body forms x·W1 into the first scratch (over whatever it held), then does the first layer's
    first row block from it, stored into rows 0–399 of the second scratch. -/
theorem run_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x32 .f32) (harg15 : arg15.IsWhole) (arg16 : Memref sig .tc .vmem S1x1 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x32 .f32) (harg19 : arg19.IsWhole) (arg20 : Memref sig .tc .vmem S1x32 .f32) (harg20 : arg20.IsWhole)
    (hc1 : cond1 i) (hc2 : cond2 i) (hc3 : ¬cond3 i) (hc4 : ¬cond4 i) (hc5 : ¬cond5 i)
    (x1 : Vec F S10000x128 .f32) (x4 : Vec F S128x64 .f32) (x2 : Vec F S400x10000 .f32) (x5 : Vec F S1x64 .f32) (d17 : Vec F S10000x64 .f32) (h1 : Vec F S10000x64 .f32)
    (E : Set ℕ) (K : PUnit → sProp 𝕄) :
    iprop(owns (c : Thread nD τ) arg1 fullShare x1
        ∗ owns (c : Thread nD τ) arg4 fullShare x4
        ∗ owns (c : Thread nD τ) arg2 fullShare x2
        ∗ owns (c : Thread nD τ) arg5 fullShare x5
        ∗ owns (c : Thread nD τ) arg17 fullShare d17
        ∗ owns (c : Thread nD τ) arg18 fullShare h1
        ∗ (iprop(owns (c : Thread nD τ) arg1 fullShare x1
            ∗ owns (c : Thread nD τ) arg4 fullShare x4
            ∗ owns (c : Thread nD τ) arg2 fullShare x2
            ∗ owns (c : Thread nD τ) arg5 fullShare x5
            ∗ owns (c : Thread nD τ) arg17 fullShare (k0_pay1 x1 x4)
            ∗ owns (c : Thread nD τ) arg18 fullShare (arg18.view.read (Elt F) (arg18.view.writes (Elt F) (harg18.unread h1)
                [(⟨Rect.unit (s := S10000x64) (k0_off1 i) S400x64.size (k0_off1_inb i hc2), k0_pay2 x2 (k0_pay1 x1 x4) x5⟩ : View.Piece (Elt F) S10000x64 .f32)]))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_body_eq_skeleton]; unfold cc0__gcn_body_skel
  unfold owns
  iintro ⟨⟨%f1, %hf1, H1⟩, ⟨%f4, %hf4, H4⟩, ⟨%f2, %hf2, H2⟩, ⟨%f5, %hf5, H5⟩, ⟨%f17, %hf17, H17⟩, ⟨%f18, %hf18, H18⟩, Hk⟩
  obtain rfl := harg1.eq_unread hf1
  obtain rfl := harg4.eq_unread hf4
  obtain rfl := harg2.eq_unread hf2
  obtain rfl := harg5.eq_unread hf5
  obtain rfl := harg17.eq_unread hf17
  obtain rfl := harg18.eq_unread hf18
  sl_exec (disch := first | exact hc1 | exact hc2 | exact hc3 | exact hc4 | exact hc5)
  sl_step
  iapply Hk
  isplitl [H1]
  · iexists _; isplitr; · ipureintro; exact harg1.read_unread _
    iexact H1
  isplitl [H4]
  · iexists _; isplitr; · ipureintro; exact harg4.read_unread _
    iexact H4
  isplitl [H2]
  · iexists _; isplitr; · ipureintro; exact harg2.read_unread _
    iexact H2
  isplitl [H5]
  · iexists _; isplitr; · ipureintro; exact harg5.read_unread _
    iexact H5
  isplitl [H17]
  · iexists _; isplitr
    swap; · iexact H17
    ipureintro
    sl_unfold_words
    simp only [Cert.Lib.WholeBuffer.readAt_whole arg1 harg1 Cert.Lib.WholeBuffer.zero2,
      Cert.Lib.WholeBuffer.readAt_whole arg4 harg4 Cert.Lib.WholeBuffer.zero2,
      Cert.Lib.WholeBuffer.readAt_whole arg2 harg2 Cert.Lib.WholeBuffer.zero2,
      Cert.Lib.WholeBuffer.readAt_whole arg5 harg5 Cert.Lib.WholeBuffer.zero2,
      Cert.Lib.WholeBuffer.readAt_whole arg17 harg17 Cert.Lib.WholeBuffer.zero2,
      Cert.Lib.WholeBuffer.readAt_whole arg18 harg18 Cert.Lib.WholeBuffer.zero2,
      Cert.Lib.NewestStore.readCov_cons_whole arg17.view Cert.Lib.WholeBuffer.zero2,
      Cert.Lib.NewestStore.read_writes_cons_whole arg17.view _ Cert.Lib.WholeBuffer.zero2,
      Cert.Lib.NewestStore.readCov_cons_whole arg18.view Cert.Lib.WholeBuffer.zero2,
      Cert.Lib.NewestStore.read_writes_cons_whole arg18.view _ Cert.Lib.WholeBuffer.zero2]
  · iexists _; isplitr
    swap; · iexact H18
    ipureintro
    sl_unfold_words
    simp only [Cert.Lib.WholeBuffer.readAt_whole arg1 harg1 Cert.Lib.WholeBuffer.zero2,
      Cert.Lib.WholeBuffer.readAt_whole arg4 harg4 Cert.Lib.WholeBuffer.zero2,
      Cert.Lib.WholeBuffer.readAt_whole arg2 harg2 Cert.Lib.WholeBuffer.zero2,
      Cert.Lib.WholeBuffer.readAt_whole arg5 harg5 Cert.Lib.WholeBuffer.zero2,
      Cert.Lib.WholeBuffer.readAt_whole arg17 harg17 Cert.Lib.WholeBuffer.zero2,
      Cert.Lib.WholeBuffer.readAt_whole arg18 harg18 Cert.Lib.WholeBuffer.zero2,
      Cert.Lib.NewestStore.readCov_cons_whole arg17.view Cert.Lib.WholeBuffer.zero2,
      Cert.Lib.NewestStore.read_writes_cons_whole arg17.view _ Cert.Lib.WholeBuffer.zero2,
      Cert.Lib.NewestStore.readCov_cons_whole arg18.view Cert.Lib.WholeBuffer.zero2,
      Cert.Lib.NewestStore.read_writes_cons_whole arg18.view _ Cert.Lib.WholeBuffer.zero2]

end Cert.KernelIdeal.Hand

end
-- ==== Proof.IdealRunB.lean ====
import proofs.«177514_g91036126806361_cont_sun_m_26_3_alg».proof.Proof.Gen.KernelIdeal.Frame
import proofs.«177514_g91036126806361_cont_sun_m_26_3_alg».proof.Proof.Gen.KernelIdeal.Skeleton
import proofs.«177514_g91036126806361_cont_sun_m_26_3_alg».proof.Proof.IdealConds
import proofs.«177514_g91036126806361_cont_sun_m_26_3_alg».proof.Proof.LibWholeBuffer
import proofs.«177514_g91036126806361_cont_sun_m_26_3_alg».proof.Proof.LibNewestStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- A point of the first layer other than the first (1 ≤ t < 25): the body multiplies the adjacency row block by the
    projected features it finds in the first scratch, adds the bias, activates, and stores the 400 rows into the
    second scratch at the block's offset; nothing else is touched. -/
theorem run_B (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x32 .f32) (harg15 : arg15.IsWhole) (arg16 : Memref sig .tc .vmem S1x1 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x32 .f32) (harg19 : arg19.IsWhole) (arg20 : Memref sig .tc .vmem S1x32 .f32) (harg20 : arg20.IsWhole)
    (hc1 : ¬cond1 i) (hc2 : cond2 i) (hc3 : ¬cond3 i) (hc4 : ¬cond4 i) (hc5 : ¬cond5 i)
    (x2 : Vec F S400x10000 .f32) (x5 : Vec F S1x64 .f32) (y1 : Vec F S10000x64 .f32) (h1 : Vec F S10000x64 .f32)
    (E : Set ℕ) (K : PUnit → sProp 𝕄) :
    iprop(owns (c : Thread nD τ) arg2 fullShare x2
        ∗ owns (c : Thread nD τ) arg5 fullShare x5
        ∗ owns (c : Thread nD τ) arg17 fullShare y1
        ∗ owns (c : Thread nD τ) arg18 fullShare h1
        ∗ (iprop(owns (c : Thread nD τ) arg2 fullShare x2
            ∗ owns (c : Thread nD τ) arg5 fullShare x5
            ∗ owns (c : Thread nD τ) arg17 fullShare y1
            ∗ owns (c : Thread nD τ) arg18 fullShare (arg18.view.read (Elt F) (arg18.view.writes (Elt F) (harg18.unread h1)
                [(⟨Rect.unit (s := S10000x64) (k0_off1 i) S400x64.size (k0_off1_inb i hc2), k0_pay2 x2 y1 x5⟩ : View.Piece (Elt F) S10000x64 .f32)]))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_body_eq_skeleton]; unfold cc0__gcn_body_skel
  unfold owns
  iintro ⟨⟨%f2, %hf2, H2⟩, ⟨%f5, %hf5, H5⟩, ⟨%f17, %hf17, H17⟩, ⟨%f18, %hf18, H18⟩, Hk⟩
  obtain rfl := harg2.eq_unread hf2
  obtain rfl := harg5.eq_unread hf5
  obtain rfl := harg17.eq_unread hf17
  obtain rfl := harg18.eq_unread hf18
  sl_exec (disch := first | exact hc1 | exact hc2 | exact hc3 | exact hc4 | exact hc5)
  sl_step
  iapply Hk
  isplitl [H2]
  · iexists _; isplitr; · ipureintro; exact harg2.read_unread _
    iexact H2
  isplitl [H5]
  · iexists _; isplitr; · ipureintro; exact harg5.read_unread _
    iexact H5
  isplitl [H17]
  · iexists _; isplitr; · ipureintro; exact harg17.read_unread _
    iexact H17
  · iexists _; isplitr
    swap; · iexact H18
    ipureintro
    sl_unfold_words
    simp only [Cert.Lib.WholeBuffer.readAt_whole arg2 harg2 Cert.Lib.WholeBuffer.zero2,
      Cert.Lib.WholeBuffer.readAt_whole arg5 harg5 Cert.Lib.WholeBuffer.zero2,
      Cert.Lib.WholeBuffer.readAt_whole arg17 harg17 Cert.Lib.WholeBuffer.zero2,
      Cert.Lib.WholeBuffer.readAt_whole arg18 harg18 Cert.Lib.WholeBuffer.zero2,
      Cert.Lib.NewestStore.readCov_cons_whole arg18.view Cert.Lib.WholeBuffer.zero2,
      Cert.Lib.NewestStore.read_writes_cons_whole arg18.view _ Cert.Lib.WholeBuffer.zero2]

end Cert.KernelIdeal.Hand

end
-- ==== Proof.IdealRunC.lean ====
import proofs.«177514_g91036126806361_cont_sun_m_26_3_alg».proof.Proof.Gen.KernelIdeal.Frame
import proofs.«177514_g91036126806361_cont_sun_m_26_3_alg».proof.Proof.Gen.KernelIdeal.Skeleton
import proofs.«177514_g91036126806361_cont_sun_m_26_3_alg».proof.Proof.IdealConds
import proofs.«177514_g91036126806361_cont_sun_m_26_3_alg».proof.Proof.LibWholeBuffer
import proofs.«177514_g91036126806361_cont_sun_m_26_3_alg».proof.Proof.LibNewestStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- Point 25: the body forms h1·W2 into the third scratch and clears the pooled sum (both over whatever they held),
    then adds the second layer's first row block's column sums to it. -/
theorem run_C (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x32 .f32) (harg15 : arg15.IsWhole) (arg16 : Memref sig .tc .vmem S1x1 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x32 .f32) (harg19 : arg19.IsWhole) (arg20 : Memref sig .tc .vmem S1x32 .f32) (harg20 : arg20.IsWhole)
    (hc1 : ¬cond1 i) (hc2 : ¬cond2 i) (hc3 : cond3 i) (hc4 : cond4 i) (hc5 : ¬cond5 i)
    (h1 : Vec F S10000x64 .f32) (x6 : Vec F S64x32 .f32) (x2 : Vec F S400x10000 .f32) (x7 : Vec F S1x32 .f32) (d19 : Vec F S10000x32 .f32) (d20 : Vec F S1x32 .f32)
    (E : Set ℕ) (K : PUnit → sProp 𝕄) :
    iprop(owns (c : Thread nD τ) arg18 fullShare h1
        ∗ owns (c : Thread nD τ) arg6 fullShare x6
        ∗ owns (c : Thread nD τ) arg2 fullShare x2
        ∗ owns (c : Thread nD τ) arg7 fullShare x7
        ∗ owns (c : Thread nD τ) arg19 fullShare d19
        ∗ owns (c : Thread nD τ) arg20 fullShare d20
        ∗ (iprop(owns (c : Thread nD τ) arg18 fullShare h1
            ∗ owns (c : Thread nD τ) arg6 fullShare x6
            ∗ owns (c : Thread nD τ) arg2 fullShare x2
            ∗ owns (c : Thread nD τ) arg7 fullShare x7
            ∗ owns (c : Thread nD τ) arg19 fullShare (k0_pay3 h1 x6)
            ∗ owns (c : Thread nD τ) arg20 fullShare (k0_pay5 x2 (k0_pay3 h1 x6) x7 (k0_pay4 (F := F)))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_body_eq_skeleton]; unfold cc0__gcn_body_skel
  unfold owns
  iintro ⟨⟨%f18, %hf18, H18⟩, ⟨%f6, %hf6, H6⟩, ⟨%f2, %hf2, H2⟩, ⟨%f7, %hf7, H7⟩, ⟨%f19, %hf19, H19⟩, ⟨%f20, %hf20, H20⟩, Hk⟩
  obtain rfl := harg18.eq_unread hf18
  obtain rfl := harg6.eq_unread hf6
  obtain rfl := harg2.eq_unread hf2
  obtain rfl := harg7.eq_unread hf7
  obtain rfl := harg19.eq_unread hf19
  obtain rfl := harg20.eq_unread hf20
  sl_exec (disch := first | exact hc1 | exact hc2 | exact hc3 | exact hc4 | exact hc5)
  sl_step
  iapply Hk
  isplitl [H18]
  · iexists _; isplitr; · ipureintro; exact harg18.read_unread _
    iexact H18
  isplitl [H6]
  · iexists _; isplitr; · ipureintro; exact harg6.read_unread _
    iexact H6
  isplitl [H2]
  · iexists _; isplitr; · ipureintro; exact harg2.read_unread _
    iexact H2
  isplitl [H7]
  · iexists _; isplitr; · ipureintro; exact harg7.read_unread _
    iexact H7
  isplitl [H19]
  · iexists _; isplitr
    swap; · iexact H19
    ipureintro
    sl_unfold_words
    simp only [Cert.Lib.WholeBuffer.readAt_whole arg18 harg18 Cert.Lib.WholeBuffer.zero2,
      Cert.Lib.WholeBuffer.readAt_whole arg6 harg6 Cert.Lib.WholeBuffer.zero2,
      Cert.Lib.WholeBuffer.readAt_whole arg2 harg2 Cert.Lib.WholeBuffer.zero2,
      Cert.Lib.WholeBuffer.readAt_whole arg7 harg7 Cert.Lib.WholeBuffer.zero2,
      Cert.Lib.WholeBuffer.readAt_whole arg19 harg19 Cert.Lib.WholeBuffer.zero2,
      Cert.Lib.WholeBuffer.readAt_whole arg20 harg20 Cert.Lib.WholeBuffer.zero2,
      Cert.Lib.NewestStore.readCov_cons_whole arg19.view Cert.Lib.WholeBuffer.zero2,
      Cert.Lib.NewestStore.read_writes_cons_whole arg19.view _ Cert.Lib.WholeBuffer.zero2,
      Cert.Lib.NewestStore.readCov_cons_whole arg20.view Cert.Lib.WholeBuffer.zero2,
      Cert.Lib.NewestStore.read_writes_cons_whole arg20.view _ Cert.Lib.WholeBuffer.zero2]
  · iexists _; isplitr
    swap; · iexact H20
    ipureintro
    sl_unfold_words
    simp only [Cert.Lib.WholeBuffer.readAt_whole arg18 harg18 Cert.Lib.WholeBuffer.zero2,
      Cert.Lib.WholeBuffer.readAt_whole arg6 harg6 Cert.Lib.WholeBuffer.zero2,
      Cert.Lib.WholeBuffer.readAt_whole arg2 harg2 Cert.Lib.WholeBuffer.zero2,
      Cert.Lib.WholeBuffer.readAt_whole arg7 harg7 Cert.Lib.WholeBuffer.zero2,
      Cert.Lib.WholeBuffer.readAt_whole arg19 harg19 Cert.Lib.WholeBuffer.zero2,
      Cert.Lib.WholeBuffer.readAt_whole arg20 harg20 Cert.Lib.WholeBuffer.zero2,
      Cert.Lib.NewestStore.readCov_cons_whole arg19.view Cert.Lib.WholeBuffer.zero2,
      Cert.Lib.NewestStore.read_writes_cons_whole arg19.view _ Cert.Lib.WholeBuffer.zero2,
      Cert.Lib.NewestStore.readCov_cons_whole arg20.view Cert.Lib.WholeBuffer.zero2,
      Cert.Lib.NewestStore.read_writes_cons_whole arg20.view _ Cert.Lib.WholeBuffer.zero2]

end Cert.KernelIdeal.Hand

end
-- ==== Proof.IdealRunD.lean ====
import proofs.«177514_g91036126806361_cont_sun_m_26_3_alg».proof.Proof.Gen.KernelIdeal.Frame
import proofs.«177514_g91036126806361_cont_sun_m_26_3_alg».proof.Proof.Gen.KernelIdeal.Skeleton
import proofs.«177514_g91036126806361_cont_sun_m_26_3_alg».proof.Proof.IdealConds
import proofs.«177514_g91036126806361_cont_sun_m_26_3_alg».proof.Proof.LibWholeBuffer
import proofs.«177514_g91036126806361_cont_sun_m_26_3_alg».proof.Proof.LibNewestStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- A point of the second layer other than its first and last (25 < t < 49): the column sums of the row block's
    activated rows are added to the pooled sum. -/
theorem run_D (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x32 .f32) (harg15 : arg15.IsWhole) (arg16 : Memref sig .tc .vmem S1x1 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x32 .f32) (harg19 : arg19.IsWhole) (arg20 : Memref sig .tc .vmem S1x32 .f32) (harg20 : arg20.IsWhole)
    (hc1 : ¬cond1 i) (hc2 : ¬cond2 i) (hc3 : ¬cond3 i) (hc4 : cond4 i) (hc5 : ¬cond5 i)
    (x2 : Vec F S400x10000 .f32) (x7 : Vec F S1x32 .f32) (y2 : Vec F S10000x32 .f32) (a : Vec F S1x32 .f32)
    (E : Set ℕ) (K : PUnit → sProp 𝕄) :
    iprop(owns (c : Thread nD τ) arg2 fullShare x2
        ∗ owns (c : Thread nD τ) arg7 fullShare x7
        ∗ owns (c : Thread nD τ) arg19 fullShare y2
        ∗ owns (c : Thread nD τ) arg20 fullShare a
        ∗ (iprop(owns (c : Thread nD τ) arg2 fullShare x2
            ∗ owns (c : Thread nD τ) arg7 fullShare x7
            ∗ owns (c : Thread nD τ) arg19 fullShare y2
            ∗ owns (c : Thread nD τ) arg20 fullShare (k0_pay5 x2 y2 x7 a)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_body_eq_skeleton]; unfold cc0__gcn_body_skel
  unfold owns
  iintro ⟨⟨%f2, %hf2, H2⟩, ⟨%f7, %hf7, H7⟩, ⟨%f19, %hf19, H19⟩, ⟨%f20, %hf20, H20⟩, Hk⟩
  obtain rfl := harg2.eq_unread hf2
  obtain rfl := harg7.eq_unread hf7
  obtain rfl := harg19.eq_unread hf19
  obtain rfl := harg20.eq_unread hf20
  sl_exec (disch := first | exact hc1 | exact hc2 | exact hc3 | exact hc4 | exact hc5)
  sl_step
  iapply Hk
  isplitl [H2]
  · iexists _; isplitr; · ipureintro; exact harg2.read_unread _
    iexact H2
  isplitl [H7]
  · iexists _; isplitr; · ipureintro; exact harg7.read_unread _
    iexact H7
  isplitl [H19]
  · iexists _; isplitr; · ipureintro; exact harg19.read_unread _
    iexact H19
  · iexists _; isplitr
    swap; · iexact H20
    ipureintro
    sl_unfold_words
    simp only [Cert.Lib.WholeBuffer.readAt_whole arg2 harg2 Cert.Lib.WholeBuffer.zero2,
      Cert.Lib.WholeBuffer.readAt_whole arg7 harg7 Cert.Lib.WholeBuffer.zero2,
      Cert.Lib.WholeBuffer.readAt_whole arg19 harg19 Cert.Lib.WholeBuffer.zero2,
      Cert.Lib.WholeBuffer.readAt_whole arg20 harg20 Cert.Lib.WholeBuffer.zero2,
      Cert.Lib.NewestStore.readCov_cons_whole arg20.view Cert.Lib.WholeBuffer.zero2,
      Cert.Lib.NewestStore.read_writes_cons_whole arg20.view _ Cert.Lib.WholeBuffer.zero2]

end Cert.KernelIdeal.Hand

end
-- ==== Proof.IdealRunE.lean ====
import proofs.«177514_g91036126806361_cont_sun_m_26_3_alg».proof.Proof.Gen.KernelIdeal.Frame
import proofs.«177514_g91036126806361_cont_sun_m_26_3_alg».proof.Proof.Gen.KernelIdeal.Skeleton
import proofs.«177514_g91036126806361_cont_sun_m_26_3_alg».proof.Proof.IdealConds
import proofs.«177514_g91036126806361_cont_sun_m_26_3_alg».proof.Proof.LibWholeBuffer
import proofs.«177514_g91036126806361_cont_sun_m_26_3_alg».proof.Proof.LibNewestStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The last point: the last row block's column sums are added to the pooled sum, and from the pooled sum and the small
    operands the body forms the log-softmax of the logits and the mean absolute weight into the two outputs' buffers. -/
theorem run_E (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x32 .f32) (harg15 : arg15.IsWhole) (arg16 : Memref sig .tc .vmem S1x1 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x32 .f32) (harg19 : arg19.IsWhole) (arg20 : Memref sig .tc .vmem S1x32 .f32) (harg20 : arg20.IsWhole)
    (hc1 : ¬cond1 i) (hc2 : ¬cond2 i) (hc3 : ¬cond3 i) (hc4 : cond4 i) (hc5 : cond5 i)
    (x2 : Vec F S400x10000 .f32) (x7 : Vec F S1x32 .f32) (y2 : Vec F S10000x32 .f32) (a : Vec F S1x32 .f32) (x3 x13 x14 x11 x12 : Vec F S1x64 .f32) (x8 : Vec F S32x32 .f32) (x9 : Vec F S32x64 .f32) (x10 : Vec F S1x32 .f32) (d15 : Vec F S1x32 .f32) (d16 : Vec F S1x1 .f32)
    (E : Set ℕ) (K : PUnit → sProp 𝕄) :
    iprop(owns (c : Thread nD τ) arg2 fullShare x2
        ∗ owns (c : Thread nD τ) arg7 fullShare x7
        ∗ owns (c : Thread nD τ) arg19 fullShare y2
        ∗ owns (c : Thread nD τ) arg3 fullShare x3
        ∗ owns (c : Thread nD τ) arg13 fullShare x13
        ∗ owns (c : Thread nD τ) arg14 fullShare x14
        ∗ owns (c : Thread nD τ) arg11 fullShare x11
        ∗ owns (c : Thread nD τ) arg12 fullShare x12
        ∗ owns (c : Thread nD τ) arg8 fullShare x8
        ∗ owns (c : Thread nD τ) arg9 fullShare x9
        ∗ owns (c : Thread nD τ) arg10 fullShare x10
        ∗ owns (c : Thread nD τ) arg20 fullShare a
        ∗ owns (c : Thread nD τ) arg15 fullShare d15
        ∗ owns (c : Thread nD τ) arg16 fullShare d16
        ∗ (iprop(owns (c : Thread nD τ) arg2 fullShare x2
            ∗ owns (c : Thread nD τ) arg7 fullShare x7
            ∗ owns (c : Thread nD τ) arg19 fullShare y2
            ∗ owns (c : Thread nD τ) arg3 fullShare x3
            ∗ owns (c : Thread nD τ) arg13 fullShare x13
            ∗ owns (c : Thread nD τ) arg14 fullShare x14
            ∗ owns (c : Thread nD τ) arg11 fullShare x11
            ∗ owns (c : Thread nD τ) arg12 fullShare x12
            ∗ owns (c : Thread nD τ) arg8 fullShare x8
            ∗ owns (c : Thread nD τ) arg9 fullShare x9
            ∗ owns (c : Thread nD τ) arg10 fullShare x10
            ∗ owns (c : Thread nD τ) arg20 fullShare (k0_pay5 x2 y2 x7 a)
            ∗ owns (c : Thread nD τ) arg15 fullShare (k0_pay6 (k0_pay10 (k0_pay5 x2 y2 x7 a) x3 x13 x14 x11 x12 x8 x9) x10)
            ∗ owns (c : Thread nD τ) arg16 fullShare (k0_pay7 (k0_pay8 x8) (k0_pay9 x9))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_body_eq_skeleton]; unfold cc0__gcn_body_skel
  simp only [k0_part1_eq_skeleton]; unfold k0_part1_skel
  unfold owns
  iintro ⟨⟨%f2, %hf2, H2⟩, ⟨%f7, %hf7, H7⟩, ⟨%f19, %hf19, H19⟩, ⟨%f3, %hf3, H3⟩, ⟨%f13, %hf13, H13⟩, ⟨%f14, %hf14, H14⟩, ⟨%f11, %hf11, H11⟩, ⟨%f12, %hf12, H12⟩, ⟨%f8, %hf8, H8⟩, ⟨%f9, %hf9, H9⟩, ⟨%f10, %hf10, H10⟩, ⟨%f20, %hf20, H20⟩, ⟨%f15, %hf15, H15⟩, ⟨%f16, %hf16, H16⟩, Hk⟩
  obtain rfl := harg2.eq_unread hf2
  obtain rfl := harg7.eq_unread hf7
  obtain rfl := harg19.eq_unread hf19
  obtain rfl := harg3.eq_unread hf3
  obtain rfl := harg13.eq_unread hf13
  obtain rfl := harg14.eq_unread hf14
  obtain rfl := harg11.eq_unread hf11
  obtain rfl := harg12.eq_unread hf12
  obtain rfl := harg8.eq_unread hf8
  obtain rfl := harg9.eq_unread hf9
  obtain rfl := harg10.eq_unread hf10
  obtain rfl := harg20.eq_unread hf20
  obtain rfl := harg15.eq_unread hf15
  obtain rfl := harg16.eq_unread hf16
  sl_exec (disch := first | exact hc1 | exact hc2 | exact hc3 | exact hc4 | exact hc5)
  sl_step
  iapply Hk
  isplitl [H2]
  · iexists _; isplitr; · ipureintro; exact harg2.read_unread _
    iexact H2
  isplitl [H7]
  · iexists _; isplitr; · ipureintro; exact harg7.read_unread _
    iexact H7
  isplitl [H19]
  · iexists _; isplitr; · ipureintro; exact harg19.read_unread _
    iexact H19
  isplitl [H3]
  · iexists _; isplitr; · ipureintro; exact harg3.read_unread _
    iexact H3
  isplitl [H13]
  · iexists _; isplitr; · ipureintro; exact harg13.read_unread _
    iexact H13
  isplitl [H14]
  · iexists _; isplitr; · ipureintro; exact harg14.read_unread _
    iexact H14
  isplitl [H11]
  · iexists _; isplitr; · ipureintro; exact harg11.read_unread _
    iexact H11
  isplitl [H12]
  · iexists _; isplitr; · ipureintro; exact harg12.read_unread _
    iexact H12
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H20]
  · iexists _; isplitr
    swap; · iexact H20
    ipureintro
    sl_unfold_words
    simp only [Cert.Lib.WholeBuffer.readAt_whole arg2 harg2 Cert.Lib.WholeBuffer.zero2,
      Cert.Lib.WholeBuffer.readAt_whole arg7 harg7 Cert.Lib.WholeBuffer.zero2,
      Cert.Lib.WholeBuffer.readAt_whole arg19 harg19 Cert.Lib.WholeBuffer.zero2,
      Cert.Lib.WholeBuffer.readAt_whole arg3 harg3 Cert.Lib.WholeBuffer.zero2,
      Cert.Lib.WholeBuffer.readAt_whole arg13 harg13 Cert.Lib.WholeBuffer.zero2,
      Cert.Lib.WholeBuffer.readAt_whole arg14 harg14 Cert.Lib.WholeBuffer.zero2,
      Cert.Lib.WholeBuffer.readAt_whole arg11 harg11 Cert.Lib.WholeBuffer.zero2,
      Cert.Lib.WholeBuffer.readAt_whole arg12 harg12 Cert.Lib.WholeBuffer.zero2,
      Cert.Lib.WholeBuffer.readAt_whole arg8 harg8 Cert.Lib.WholeBuffer.zero2,
      Cert.Lib.WholeBuffer.readAt_whole arg9 harg9 Cert.Lib.WholeBuffer.zero2,
      Cert.Lib.WholeBuffer.readAt_whole arg10 harg10 Cert.Lib.WholeBuffer.zero2,
      Cert.Lib.WholeBuffer.readAt_whole arg20 harg20 Cert.Lib.WholeBuffer.zero2,
      Cert.Lib.WholeBuffer.readAt_whole arg15 harg15 Cert.Lib.WholeBuffer.zero2,
      Cert.Lib.WholeBuffer.readAt_whole arg16 harg16 Cert.Lib.WholeBuffer.zero2,
      Cert.Lib.NewestStore.readCov_cons_whole arg20.view Cert.Lib.WholeBuffer.zero2,
      Cert.Lib.NewestStore.read_writes_cons_whole arg20.view _ Cert.Lib.WholeBuffer.zero2,
      Cert.Lib.NewestStore.readCov_cons_whole arg15.view Cert.Lib.WholeBuffer.zero2,
      Cert.Lib.NewestStore.read_writes_cons_whole arg15.view _ Cert.Lib.WholeBuffer.zero2,
      Cert.Lib.NewestStore.readCov_cons_whole arg16.view Cert.Lib.WholeBuffer.zero2,
      Cert.Lib.NewestStore.read_writes_cons_whole arg16.view _ Cert.Lib.WholeBuffer.zero2]
  isplitl [H15]
  · iexists _; isplitr
    swap; · iexact H15
    ipureintro
    sl_unfold_words
    simp only [Cert.Lib.WholeBuffer.readAt_whole arg2 harg2 Cert.Lib.WholeBuffer.zero2,
      Cert.Lib.WholeBuffer.readAt_whole arg7 harg7 Cert.Lib.WholeBuffer.zero2,
      Cert.Lib.WholeBuffer.readAt_whole arg19 harg19 Cert.Lib.WholeBuffer.zero2,
      Cert.Lib.WholeBuffer.readAt_whole arg3 harg3 Cert.Lib.WholeBuffer.zero2,
      Cert.Lib.WholeBuffer.readAt_whole arg13 harg13 Cert.Lib.WholeBuffer.zero2,
      Cert.Lib.WholeBuffer.readAt_whole arg14 harg14 Cert.Lib.WholeBuffer.zero2,
      Cert.Lib.WholeBuffer.readAt_whole arg11 harg11 Cert.Lib.WholeBuffer.zero2,
      Cert.Lib.WholeBuffer.readAt_whole arg12 harg12 Cert.Lib.WholeBuffer.zero2,
      Cert.Lib.WholeBuffer.readAt_whole arg8 harg8 Cert.Lib.WholeBuffer.zero2,
      Cert.Lib.WholeBuffer.readAt_whole arg9 harg9 Cert.Lib.WholeBuffer.zero2,
      Cert.Lib.WholeBuffer.readAt_whole arg10 harg10 Cert.Lib.WholeBuffer.zero2,
      Cert.Lib.WholeBuffer.readAt_whole arg20 harg20 Cert.Lib.WholeBuffer.zero2,
      Cert.Lib.WholeBuffer.readAt_whole arg15 harg15 Cert.Lib.WholeBuffer.zero2,
      Cert.Lib.WholeBuffer.readAt_whole arg16 harg16 Cert.Lib.WholeBuffer.zero2,
      Cert.Lib.NewestStore.readCov_cons_whole arg20.view Cert.Lib.WholeBuffer.zero2,
      Cert.Lib.NewestStore.read_writes_cons_whole arg20.view _ Cert.Lib.WholeBuffer.zero2,
      Cert.Lib.NewestStore.readCov_cons_whole arg15.view Cert.Lib.WholeBuffer.zero2,
      Cert.Lib.NewestStore.read_writes_cons_whole arg15.view _ Cert.Lib.WholeBuffer.zero2,
      Cert.Lib.NewestStore.readCov_cons_whole arg16.view Cert.Lib.WholeBuffer.zero2,
      Cert.Lib.NewestStore.read_writes_cons_whole arg16.view _ Cert.Lib.WholeBuffer.zero2]
  · iexists _; isplitr
    swap; · iexact H16
    ipureintro
    sl_unfold_words
    simp only [Cert.Lib.WholeBuffer.readAt_whole arg2 harg2 Cert.Lib.WholeBuffer.zero2,
      Cert.Lib.WholeBuffer.readAt_whole arg7 harg7 Cert.Lib.WholeBuffer.zero2,
      Cert.Lib.WholeBuffer.readAt_whole arg19 harg19 Cert.Lib.WholeBuffer.zero2,
      Cert.Lib.WholeBuffer.readAt_whole arg3 harg3 Cert.Lib.WholeBuffer.zero2,
      Cert.Lib.WholeBuffer.readAt_whole arg13 harg13 Cert.Lib.WholeBuffer.zero2,
      Cert.Lib.WholeBuffer.readAt_whole arg14 harg14 Cert.Lib.WholeBuffer.zero2,
      Cert.Lib.WholeBuffer.readAt_whole arg11 harg11 Cert.Lib.WholeBuffer.zero2,
      Cert.Lib.WholeBuffer.readAt_whole arg12 harg12 Cert.Lib.WholeBuffer.zero2,
      Cert.Lib.WholeBuffer.readAt_whole arg8 harg8 Cert.Lib.WholeBuffer.zero2,
      Cert.Lib.WholeBuffer.readAt_whole arg9 harg9 Cert.Lib.WholeBuffer.zero2,
      Cert.Lib.WholeBuffer.readAt_whole arg10 harg10 Cert.Lib.WholeBuffer.zero2,
      Cert.Lib.WholeBuffer.readAt_whole arg20 harg20 Cert.Lib.WholeBuffer.zero2,
      Cert.Lib.WholeBuffer.readAt_whole arg15 harg15 Cert.Lib.WholeBuffer.zero2,
      Cert.Lib.WholeBuffer.readAt_whole arg16 harg16 Cert.Lib.WholeBuffer.zero2,
      Cert.Lib.NewestStore.readCov_cons_whole arg20.view Cert.Lib.WholeBuffer.zero2,
      Cert.Lib.NewestStore.read_writes_cons_whole arg20.view _ Cert.Lib.WholeBuffer.zero2,
      Cert.Lib.NewestStore.readCov_cons_whole arg15.view Cert.Lib.WholeBuffer.zero2,
      Cert.Lib.NewestStore.read_writes_cons_whole arg15.view _ Cert.Lib.WholeBuffer.zero2,
      Cert.Lib.NewestStore.readCov_cons_whole arg16.view Cert.Lib.WholeBuffer.zero2,
      Cert.Lib.NewestStore.read_writes_cons_whole arg16.view _ Cert.Lib.WholeBuffer.zero2]

end Cert.KernelIdeal.Hand

end
-- ==== Proof.IdealBody.lean ====
import proofs.«177514_g91036126806361_cont_sun_m_26_3_alg».proof.Proof.Gen.KernelIdeal.Frame
import proofs.«177514_g91036126806361_cont_sun_m_26_3_alg».proof.Proof.Gen.KernelIdeal.Skeleton
import proofs.«177514_g91036126806361_cont_sun_m_26_3_alg».proof.Proof.IdealConds
import proofs.«177514_g91036126806361_cont_sun_m_26_3_alg».proof.Proof.IdealIdle
import proofs.«177514_g91036126806361_cont_sun_m_26_3_alg».proof.Proof.IdealData
import proofs.«177514_g91036126806361_cont_sun_m_26_3_alg».proof.Proof.IdealSteps
import proofs.«177514_g91036126806361_cont_sun_m_26_3_alg».proof.Proof.IdealRunA
import proofs.«177514_g91036126806361_cont_sun_m_26_3_alg».proof.Proof.IdealRunB
import proofs.«177514_g91036126806361_cont_sun_m_26_3_alg».proof.Proof.IdealRunC
import proofs.«177514_g91036126806361_cont_sun_m_26_3_alg».proof.Proof.IdealRunD
import proofs.«177514_g91036126806361_cont_sun_m_26_3_alg».proof.Proof.IdealRunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The body obligation

At each of the fifty points the body runs from the invariant and the sixteen windows' current buffers to the invariant
of the next point, the inputs' buffers as found, and — at the last point — the two outputs' buffers at the log-softmax
row and the mean absolute weight. -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x32 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x64 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x64 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x64 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x32 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x1 .f32 := win0_15.stage (cfg0.slots t 15)
abbrev hs15 (t : Fin cfg0.N) : (ms15 t).IsWhole := hstage0_15 ((cfg0.slots t 15).cast nbuf0_15)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 8000000 in
/-- The first point. -/
theorem sound_A (c : Dev nD) (t : Fin cfg0.N) (h0 : t.val = 0) :
    bodyPre m c t ⊢ wp frame (wpE (defs₀ (F := F)) Variants.none c none) Set.univ (bodyAt0 t) (fun _ => bodyPost m c t) := by
  have hN : t.val < 50 := lt_of_lt_of_eq t.isLt N_50
  have k1 : cond1 (grid0.coords t) := (hcond1 t).mpr (by omega)
  have k2 : cond2 (grid0.coords t) := (hcond2 t).mpr (by omega)
  have k3 : ¬cond3 (grid0.coords t) := fun h => by have := (hcond3 t).mp h; omega
  have k4 : ¬cond4 (grid0.coords t) := fun h => by have := (hcond4 t).mp h; omega
  have k5 : ¬cond5 (grid0.coords t) := fun h => by have := (hcond5 t).mp h; omega
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).leavesExact 0 t = owns (c : Thread nD τ) (ms0 t) fullShare (iblk m c 0 t) from by
    unfold Dat.leavesExact; rw [liveAt0_0 t, after0_0]]
  rw [show (dats m 0 c).leavesExact 1 t = owns (c : Thread nD τ) (ms1 t) fullShare (iblk m c 1 t) from by
    unfold Dat.leavesExact; rw [liveAt0_1 t, after0_1]]
  rw [show (dats m 0 c).leavesExact 2 t = owns (c : Thread nD τ) (ms2 t) fullShare (iblk m c 2 t) from by
    unfold Dat.leavesExact; rw [liveAt0_2 t, after0_2]]
  rw [show (dats m 0 c).leavesExact 3 t = owns (c : Thread nD τ) (ms3 t) fullShare (iblk m c 3 t) from by
    unfold Dat.leavesExact; rw [liveAt0_3 t, after0_3]]
  rw [show (dats m 0 c).leavesExact 4 t = owns (c : Thread nD τ) (ms4 t) fullShare (iblk m c 4 t) from by
    unfold Dat.leavesExact; rw [liveAt0_4 t, after0_4]]
  rw [show (dats m 0 c).leavesExact 5 t = owns (c : Thread nD τ) (ms5 t) fullShare (iblk m c 5 t) from by
    unfold Dat.leavesExact; rw [liveAt0_5 t, after0_5]]
  rw [show (dats m 0 c).leavesExact 6 t = owns (c : Thread nD τ) (ms6 t) fullShare (iblk m c 6 t) from by
    unfold Dat.leavesExact; rw [liveAt0_6 t, after0_6]]
  rw [show (dats m 0 c).leavesExact 7 t = owns (c : Thread nD τ) (ms7 t) fullShare (iblk m c 7 t) from by
    unfold Dat.leavesExact; rw [liveAt0_7 t, after0_7]]
  rw [show (dats m 0 c).leavesExact 8 t = owns (c : Thread nD τ) (ms8 t) fullShare (iblk m c 8 t) from by
    unfold Dat.leavesExact; rw [liveAt0_8 t, after0_8]]
  rw [show (dats m 0 c).leavesExact 9 t = owns (c : Thread nD τ) (ms9 t) fullShare (iblk m c 9 t) from by
    unfold Dat.leavesExact; rw [liveAt0_9 t, after0_9]]
  rw [show (dats m 0 c).leavesExact 10 t = owns (c : Thread nD τ) (ms10 t) fullShare (iblk m c 10 t) from by
    unfold Dat.leavesExact; rw [liveAt0_10 t, after0_10]]
  rw [show (dats m 0 c).leavesExact 11 t = owns (c : Thread nD τ) (ms11 t) fullShare (iblk m c 11 t) from by
    unfold Dat.leavesExact; rw [liveAt0_11 t, after0_11]]
  rw [show (dats m 0 c).leavesExact 12 t = owns (c : Thread nD τ) (ms12 t) fullShare (iblk m c 12 t) from by
    unfold Dat.leavesExact; rw [liveAt0_12 t, after0_12]]
  rw [show (dats m 0 c).leavesExact 13 t = owns (c : Thread nD τ) (ms13 t) fullShare (iblk m c 13 t) from by
    unfold Dat.leavesExact; rw [liveAt0_13 t, after0_13]]
  rw [Dat.leavesExact_idle (dats m 0 c) 14 t (idleAt0_14 t k5) (noFlush0_14 t k5)]
  rw [Dat.leavesExact_idle (dats m 0 c) 15 t (idleAt0_15 t k5) (noFlush0_15 t k5)]
  rw [show (dats m 0 c).Φ t.succ = PhiS m c (t.val + 1) t.isLt from rfl, PhiS_low m c (t.val + 1) _ (by omega) (by omega)]
  rw [PhiS_castSucc m c t, PhiS_zero m c _ _ h0, PhiA0_eq]
  have et : t = pt 0 (by omega) := Fin.ext h0
  iintro ⟨⟨⟨⟨%d17, HS17⟩, ⟨%d18, HS18⟩, HS19, HS20⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc17 (Memref.isWhole_whole _) sc18 (Memref.isWhole_whole _) sc19 (Memref.isWhole_whole _) sc20 (Memref.isWhole_whole _) k1 k2 k3 k4 k5 (iblk m c 0 t) (iblk m c 3 t) (iblk m c 1 t) (iblk m c 4 t) d17 d18 Set.univ _)
  isplitl [H0]; · iexact H0
  isplitl [H3]; · iexact H3
  isplitl [H1]; · iexact H1
  isplitl [H4]; · iexact H4
  isplitl [HS17]; · iexact HS17
  isplitl [HS18]; · iexact HS18
  iintro ⟨H0, H3, H1, H4, HS17, HS18⟩
  isplitl [HS17 HS18 HS19 HS20 Hg]
  · isplitl [HS18]
    · iexists _; isplitr
      · ipureintro
        have hf := filled_step m c t (by omega) k2 (k0_pay1 (iblk m c 0 t) (iblk m c 3 t)) (by unfold Y1; rw [← et]) d18
          (by rw [h0]; exact filled_zero m c d18)
        exact hf
      iexact HS18
    isplitl [HS17]; · unfold Y1; rw [← et]; iexact HS17
    isplitl [HS19]; · iexact HS19
    isplitl [HS20]; · iexact HS20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  · iexists _; iexact H15

set_option maxHeartbeats 8000000 in
/-- A later point of the first layer. -/
theorem sound_B (c : Dev nD) (t : Fin cfg0.N) (h0 : t.val ≠ 0) (h25 : t.val < 25) :
    bodyPre m c t ⊢ wp frame (wpE (defs₀ (F := F)) Variants.none c none) Set.univ (bodyAt0 t) (fun _ => bodyPost m c t) := by
  have hN : t.val < 50 := lt_of_lt_of_eq t.isLt N_50
  have k1 : ¬cond1 (grid0.coords t) := fun h => by have := (hcond1 t).mp h; omega
  have k2 : cond2 (grid0.coords t) := (hcond2 t).mpr (by omega)
  have k3 : ¬cond3 (grid0.coords t) := fun h => by have := (hcond3 t).mp h; omega
  have k4 : ¬cond4 (grid0.coords t) := fun h => by have := (hcond4 t).mp h; omega
  have k5 : ¬cond5 (grid0.coords t) := fun h => by have := (hcond5 t).mp h; omega
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).leavesExact 0 t = owns (c : Thread nD τ) (ms0 t) fullShare (iblk m c 0 t) from by
    unfold Dat.leavesExact; rw [liveAt0_0 t, after0_0]]
  rw [show (dats m 0 c).leavesExact 1 t = owns (c : Thread nD τ) (ms1 t) fullShare (iblk m c 1 t) from by
    unfold Dat.leavesExact; rw [liveAt0_1 t, after0_1]]
  rw [show (dats m 0 c).leavesExact 2 t = owns (c : Thread nD τ) (ms2 t) fullShare (iblk m c 2 t) from by
    unfold Dat.leavesExact; rw [liveAt0_2 t, after0_2]]
  rw [show (dats m 0 c).leavesExact 3 t = owns (c : Thread nD τ) (ms3 t) fullShare (iblk m c 3 t) from by
    unfold Dat.leavesExact; rw [liveAt0_3 t, after0_3]]
  rw [show (dats m 0 c).leavesExact 4 t = owns (c : Thread nD τ) (ms4 t) fullShare (iblk m c 4 t) from by
    unfold Dat.leavesExact; rw [liveAt0_4 t, after0_4]]
  rw [show (dats m 0 c).leavesExact 5 t = owns (c : Thread nD τ) (ms5 t) fullShare (iblk m c 5 t) from by
    unfold Dat.leavesExact; rw [liveAt0_5 t, after0_5]]
  rw [show (dats m 0 c).leavesExact 6 t = owns (c : Thread nD τ) (ms6 t) fullShare (iblk m c 6 t) from by
    unfold Dat.leavesExact; rw [liveAt0_6 t, after0_6]]
  rw [show (dats m 0 c).leavesExact 7 t = owns (c : Thread nD τ) (ms7 t) fullShare (iblk m c 7 t) from by
    unfold Dat.leavesExact; rw [liveAt0_7 t, after0_7]]
  rw [show (dats m 0 c).leavesExact 8 t = owns (c : Thread nD τ) (ms8 t) fullShare (iblk m c 8 t) from by
    unfold Dat.leavesExact; rw [liveAt0_8 t, after0_8]]
  rw [show (dats m 0 c).leavesExact 9 t = owns (c : Thread nD τ) (ms9 t) fullShare (iblk m c 9 t) from by
    unfold Dat.leavesExact; rw [liveAt0_9 t, after0_9]]
  rw [show (dats m 0 c).leavesExact 10 t = owns (c : Thread nD τ) (ms10 t) fullShare (iblk m c 10 t) from by
    unfold Dat.leavesExact; rw [liveAt0_10 t, after0_10]]
  rw [show (dats m 0 c).leavesExact 11 t = owns (c : Thread nD τ) (ms11 t) fullShare (iblk m c 11 t) from by
    unfold Dat.leavesExact; rw [liveAt0_11 t, after0_11]]
  rw [show (dats m 0 c).leavesExact 12 t = owns (c : Thread nD τ) (ms12 t) fullShare (iblk m c 12 t) from by
    unfold Dat.leavesExact; rw [liveAt0_12 t, after0_12]]
  rw [show (dats m 0 c).leavesExact 13 t = owns (c : Thread nD τ) (ms13 t) fullShare (iblk m c 13 t) from by
    unfold Dat.leavesExact; rw [liveAt0_13 t, after0_13]]
  rw [Dat.leavesExact_idle (dats m 0 c) 14 t (idleAt0_14 t k5) (noFlush0_14 t k5)]
  rw [Dat.leavesExact_idle (dats m 0 c) 15 t (idleAt0_15 t k5) (noFlush0_15 t k5)]
  rw [show (dats m 0 c).Φ t.succ = PhiS m c (t.val + 1) t.isLt from rfl, PhiS_low m c (t.val + 1) _ (by omega) (by omega)]
  rw [PhiS_castSucc m c t, PhiS_low m c _ _ h0 (by omega)]
  iintro ⟨⟨⟨%H, %hH, HS18⟩, HS17, HS19, HS20, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc17 (Memref.isWhole_whole _) sc18 (Memref.isWhole_whole _) sc19 (Memref.isWhole_whole _) sc20 (Memref.isWhole_whole _) k1 k2 k3 k4 k5 (iblk m c 1 t) (iblk m c 4 t) (Y1 m c) H Set.univ _)
  isplitl [H1]; · iexact H1
  isplitl [H4]; · iexact H4
  isplitl [HS17]; · iexact HS17
  isplitl [HS18]; · iexact HS18
  iintro ⟨H1, H4, HS17, HS18⟩
  isplitl [HS17 HS18 HS19 HS20 Hg]
  · isplitl [HS18]
    · iexists _; isplitr
      · ipureintro; exact filled_step m c t h25 k2 (Y1 m c) rfl H hH
      iexact HS18
    isplitl [HS17]; · iexact HS17
    isplitl [HS19]; · iexact HS19
    isplitl [HS20]; · iexact HS20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  · iexists _; iexact H15

set_option maxHeartbeats 8000000 in
/-- Point 25. -/
theorem sound_C (c : Dev nD) (t : Fin cfg0.N) (h25 : t.val = 25) :
    bodyPre m c t ⊢ wp frame (wpE (defs₀ (F := F)) Variants.none c none) Set.univ (bodyAt0 t) (fun _ => bodyPost m c t) := by
  have hN : t.val < 50 := lt_of_lt_of_eq t.isLt N_50
  have k1 : ¬cond1 (grid0.coords t) := fun h => by have := (hcond1 t).mp h; omega
  have k2 : ¬cond2 (grid0.coords t) := fun h => by have := (hcond2 t).mp h; omega
  have k3 : cond3 (grid0.coords t) := (hcond3 t).mpr (by omega)
  have k4 : cond4 (grid0.coords t) := (hcond4 t).mpr (by omega)
  have k5 : ¬cond5 (grid0.coords t) := fun h => by have := (hcond5 t).mp h; omega
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).leavesExact 0 t = owns (c : Thread nD τ) (ms0 t) fullShare (iblk m c 0 t) from by
    unfold Dat.leavesExact; rw [liveAt0_0 t, after0_0]]
  rw [show (dats m 0 c).leavesExact 1 t = owns (c : Thread nD τ) (ms1 t) fullShare (iblk m c 1 t) from by
    unfold Dat.leavesExact; rw [liveAt0_1 t, after0_1]]
  rw [show (dats m 0 c).leavesExact 2 t = owns (c : Thread nD τ) (ms2 t) fullShare (iblk m c 2 t) from by
    unfold Dat.leavesExact; rw [liveAt0_2 t, after0_2]]
  rw [show (dats m 0 c).leavesExact 3 t = owns (c : Thread nD τ) (ms3 t) fullShare (iblk m c 3 t) from by
    unfold Dat.leavesExact; rw [liveAt0_3 t, after0_3]]
  rw [show (dats m 0 c).leavesExact 4 t = owns (c : Thread nD τ) (ms4 t) fullShare (iblk m c 4 t) from by
    unfold Dat.leavesExact; rw [liveAt0_4 t, after0_4]]
  rw [show (dats m 0 c).leavesExact 5 t = owns (c : Thread nD τ) (ms5 t) fullShare (iblk m c 5 t) from by
    unfold Dat.leavesExact; rw [liveAt0_5 t, after0_5]]
  rw [show (dats m 0 c).leavesExact 6 t = owns (c : Thread nD τ) (ms6 t) fullShare (iblk m c 6 t) from by
    unfold Dat.leavesExact; rw [liveAt0_6 t, after0_6]]
  rw [show (dats m 0 c).leavesExact 7 t = owns (c : Thread nD τ) (ms7 t) fullShare (iblk m c 7 t) from by
    unfold Dat.leavesExact; rw [liveAt0_7 t, after0_7]]
  rw [show (dats m 0 c).leavesExact 8 t = owns (c : Thread nD τ) (ms8 t) fullShare (iblk m c 8 t) from by
    unfold Dat.leavesExact; rw [liveAt0_8 t, after0_8]]
  rw [show (dats m 0 c).leavesExact 9 t = owns (c : Thread nD τ) (ms9 t) fullShare (iblk m c 9 t) from by
    unfold Dat.leavesExact; rw [liveAt0_9 t, after0_9]]
  rw [show (dats m 0 c).leavesExact 10 t = owns (c : Thread nD τ) (ms10 t) fullShare (iblk m c 10 t) from by
    unfold Dat.leavesExact; rw [liveAt0_10 t, after0_10]]
  rw [show (dats m 0 c).leavesExact 11 t = owns (c : Thread nD τ) (ms11 t) fullShare (iblk m c 11 t) from by
    unfold Dat.leavesExact; rw [liveAt0_11 t, after0_11]]
  rw [show (dats m 0 c).leavesExact 12 t = owns (c : Thread nD τ) (ms12 t) fullShare (iblk m c 12 t) from by
    unfold Dat.leavesExact; rw [liveAt0_12 t, after0_12]]
  rw [show (dats m 0 c).leavesExact 13 t = owns (c : Thread nD τ) (ms13 t) fullShare (iblk m c 13 t) from by
    unfold Dat.leavesExact; rw [liveAt0_13 t, after0_13]]
  rw [Dat.leavesExact_idle (dats m 0 c) 14 t (idleAt0_14 t k5) (noFlush0_14 t k5)]
  rw [Dat.leavesExact_idle (dats m 0 c) 15 t (idleAt0_15 t k5) (noFlush0_15 t k5)]
  rw [show (dats m 0 c).Φ t.succ = PhiS m c (t.val + 1) t.isLt from rfl, PhiS_high m c (t.val + 1) _ (by omega)]
  rw [PhiS_castSucc m c t, PhiS_low m c _ _ (by omega) (by omega)]
  have et : t = pt 25 (by omega) := Fin.ext h25
  iintro ⟨⟨⟨%H, %hH, HS18⟩, HS17, ⟨%d19, HS19⟩, ⟨%d20, HS20⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  obtain rfl : H = H1full m c := filled_all m c H (by rw [← h25]; exact hH)
  iapply (run_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc17 (Memref.isWhole_whole _) sc18 (Memref.isWhole_whole _) sc19 (Memref.isWhole_whole _) sc20 (Memref.isWhole_whole _) k1 k2 k3 k4 k5 (H1full m c) (iblk m c 5 t) (iblk m c 1 t) (iblk m c 6 t) d19 d20 Set.univ _)
  isplitl [HS18]; · iexact HS18
  isplitl [H5]; · iexact H5
  isplitl [H1]; · iexact H1
  isplitl [H6]; · iexact H6
  isplitl [HS19]; · iexact HS19
  isplitl [HS20]; · iexact HS20
  iintro ⟨HS18, H5, H1, H6, HS19, HS20⟩
  isplitl [HS17 HS18 HS19 HS20 Hg]
  · isplitl [HS18]; · iexact HS18
    isplitl [HS17]; · iexact HS17
    isplitl [HS19]; · unfold Y2; rw [← et]; iexact HS19
    isplitl [HS20]
    · rw [accAt_step m c t (by omega), show t.val - 25 = 0 from by omega]
      unfold Y2; rw [← et]; iexact HS20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  · iexists _; iexact H15

set_option maxHeartbeats 8000000 in
/-- A later point of the second layer but the last. -/
theorem sound_D (c : Dev nD) (t : Fin cfg0.N) (h25 : 25 < t.val) (h49 : t.val < 49) :
    bodyPre m c t ⊢ wp frame (wpE (defs₀ (F := F)) Variants.none c none) Set.univ (bodyAt0 t) (fun _ => bodyPost m c t) := by
  have hN : t.val < 50 := lt_of_lt_of_eq t.isLt N_50
  have k1 : ¬cond1 (grid0.coords t) := fun h => by have := (hcond1 t).mp h; omega
  have k2 : ¬cond2 (grid0.coords t) := fun h => by have := (hcond2 t).mp h; omega
  have k3 : ¬cond3 (grid0.coords t) := fun h => by have := (hcond3 t).mp h; omega
  have k4 : cond4 (grid0.coords t) := (hcond4 t).mpr (by omega)
  have k5 : ¬cond5 (grid0.coords t) := fun h => by have := (hcond5 t).mp h; omega
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).leavesExact 0 t = owns (c : Thread nD τ) (ms0 t) fullShare (iblk m c 0 t) from by
    unfold Dat.leavesExact; rw [liveAt0_0 t, after0_0]]
  rw [show (dats m 0 c).leavesExact 1 t = owns (c : Thread nD τ) (ms1 t) fullShare (iblk m c 1 t) from by
    unfold Dat.leavesExact; rw [liveAt0_1 t, after0_1]]
  rw [show (dats m 0 c).leavesExact 2 t = owns (c : Thread nD τ) (ms2 t) fullShare (iblk m c 2 t) from by
    unfold Dat.leavesExact; rw [liveAt0_2 t, after0_2]]
  rw [show (dats m 0 c).leavesExact 3 t = owns (c : Thread nD τ) (ms3 t) fullShare (iblk m c 3 t) from by
    unfold Dat.leavesExact; rw [liveAt0_3 t, after0_3]]
  rw [show (dats m 0 c).leavesExact 4 t = owns (c : Thread nD τ) (ms4 t) fullShare (iblk m c 4 t) from by
    unfold Dat.leavesExact; rw [liveAt0_4 t, after0_4]]
  rw [show (dats m 0 c).leavesExact 5 t = owns (c : Thread nD τ) (ms5 t) fullShare (iblk m c 5 t) from by
    unfold Dat.leavesExact; rw [liveAt0_5 t, after0_5]]
  rw [show (dats m 0 c).leavesExact 6 t = owns (c : Thread nD τ) (ms6 t) fullShare (iblk m c 6 t) from by
    unfold Dat.leavesExact; rw [liveAt0_6 t, after0_6]]
  rw [show (dats m 0 c).leavesExact 7 t = owns (c : Thread nD τ) (ms7 t) fullShare (iblk m c 7 t) from by
    unfold Dat.leavesExact; rw [liveAt0_7 t, after0_7]]
  rw [show (dats m 0 c).leavesExact 8 t = owns (c : Thread nD τ) (ms8 t) fullShare (iblk m c 8 t) from by
    unfold Dat.leavesExact; rw [liveAt0_8 t, after0_8]]
  rw [show (dats m 0 c).leavesExact 9 t = owns (c : Thread nD τ) (ms9 t) fullShare (iblk m c 9 t) from by
    unfold Dat.leavesExact; rw [liveAt0_9 t, after0_9]]
  rw [show (dats m 0 c).leavesExact 10 t = owns (c : Thread nD τ) (ms10 t) fullShare (iblk m c 10 t) from by
    unfold Dat.leavesExact; rw [liveAt0_10 t, after0_10]]
  rw [show (dats m 0 c).leavesExact 11 t = owns (c : Thread nD τ) (ms11 t) fullShare (iblk m c 11 t) from by
    unfold Dat.leavesExact; rw [liveAt0_11 t, after0_11]]
  rw [show (dats m 0 c).leavesExact 12 t = owns (c : Thread nD τ) (ms12 t) fullShare (iblk m c 12 t) from by
    unfold Dat.leavesExact; rw [liveAt0_12 t, after0_12]]
  rw [show (dats m 0 c).leavesExact 13 t = owns (c : Thread nD τ) (ms13 t) fullShare (iblk m c 13 t) from by
    unfold Dat.leavesExact; rw [liveAt0_13 t, after0_13]]
  rw [Dat.leavesExact_idle (dats m 0 c) 14 t (idleAt0_14 t k5) (noFlush0_14 t k5)]
  rw [Dat.leavesExact_idle (dats m 0 c) 15 t (idleAt0_15 t k5) (noFlush0_15 t k5)]
  rw [show (dats m 0 c).Φ t.succ = PhiS m c (t.val + 1) t.isLt from rfl, PhiS_high m c (t.val + 1) _ (by omega)]
  rw [PhiS_castSucc m c t, PhiS_high m c _ _ h25]
  iintro ⟨⟨HS18, HS17, HS19, HS20, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc17 (Memref.isWhole_whole _) sc18 (Memref.isWhole_whole _) sc19 (Memref.isWhole_whole _) sc20 (Memref.isWhole_whole _) k1 k2 k3 k4 k5 (iblk m c 1 t) (iblk m c 6 t) (Y2 m c) (accAt m c (t.val - 25)) Set.univ _)
  isplitl [H1]; · iexact H1
  isplitl [H6]; · iexact H6
  isplitl [HS19]; · iexact HS19
  isplitl [HS20]; · iexact HS20
  iintro ⟨H1, H6, HS19, HS20⟩
  isplitl [HS17 HS18 HS19 HS20 Hg]
  · isplitl [HS18]; · iexact HS18
    isplitl [HS17]; · iexact HS17
    isplitl [HS19]; · iexact HS19
    isplitl [HS20]; · rw [accAt_step m c t (by omega)]; iexact HS20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  · iexists _; iexact H15

set_option maxHeartbeats 8000000 in
/-- The last point. -/
theorem sound_E (c : Dev nD) (t : Fin cfg0.N) (h49 : t.val = 49) :
    bodyPre m c t ⊢ wp frame (wpE (defs₀ (F := F)) Variants.none c none) Set.univ (bodyAt0 t) (fun _ => bodyPost m c t) := by
  have hN : t.val < 50 := lt_of_lt_of_eq t.isLt N_50
  have k1 : ¬cond1 (grid0.coords t) := fun h => by have := (hcond1 t).mp h; omega
  have k2 : ¬cond2 (grid0.coords t) := fun h => by have := (hcond2 t).mp h; omega
  have k3 : ¬cond3 (grid0.coords t) := fun h => by have := (hcond3 t).mp h; omega
  have k4 : cond4 (grid0.coords t) := (hcond4 t).mpr (by omega)
  have k5 : cond5 (grid0.coords t) := (hcond5 t).mpr (by omega)
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).leavesExact 0 t = owns (c : Thread nD τ) (ms0 t) fullShare (iblk m c 0 t) from by
    unfold Dat.leavesExact; rw [liveAt0_0 t, after0_0]]
  rw [show (dats m 0 c).leavesExact 1 t = owns (c : Thread nD τ) (ms1 t) fullShare (iblk m c 1 t) from by
    unfold Dat.leavesExact; rw [liveAt0_1 t, after0_1]]
  rw [show (dats m 0 c).leavesExact 2 t = owns (c : Thread nD τ) (ms2 t) fullShare (iblk m c 2 t) from by
    unfold Dat.leavesExact; rw [liveAt0_2 t, after0_2]]
  rw [show (dats m 0 c).leavesExact 3 t = owns (c : Thread nD τ) (ms3 t) fullShare (iblk m c 3 t) from by
    unfold Dat.leavesExact; rw [liveAt0_3 t, after0_3]]
  rw [show (dats m 0 c).leavesExact 4 t = owns (c : Thread nD τ) (ms4 t) fullShare (iblk m c 4 t) from by
    unfold Dat.leavesExact; rw [liveAt0_4 t, after0_4]]
  rw [show (dats m 0 c).leavesExact 5 t = owns (c : Thread nD τ) (ms5 t) fullShare (iblk m c 5 t) from by
    unfold Dat.leavesExact; rw [liveAt0_5 t, after0_5]]
  rw [show (dats m 0 c).leavesExact 6 t = owns (c : Thread nD τ) (ms6 t) fullShare (iblk m c 6 t) from by
    unfold Dat.leavesExact; rw [liveAt0_6 t, after0_6]]
  rw [show (dats m 0 c).leavesExact 7 t = owns (c : Thread nD τ) (ms7 t) fullShare (iblk m c 7 t) from by
    unfold Dat.leavesExact; rw [liveAt0_7 t, after0_7]]
  rw [show (dats m 0 c).leavesExact 8 t = owns (c : Thread nD τ) (ms8 t) fullShare (iblk m c 8 t) from by
    unfold Dat.leavesExact; rw [liveAt0_8 t, after0_8]]
  rw [show (dats m 0 c).leavesExact 9 t = owns (c : Thread nD τ) (ms9 t) fullShare (iblk m c 9 t) from by
    unfold Dat.leavesExact; rw [liveAt0_9 t, after0_9]]
  rw [show (dats m 0 c).leavesExact 10 t = owns (c : Thread nD τ) (ms10 t) fullShare (iblk m c 10 t) from by
    unfold Dat.leavesExact; rw [liveAt0_10 t, after0_10]]
  rw [show (dats m 0 c).leavesExact 11 t = owns (c : Thread nD τ) (ms11 t) fullShare (iblk m c 11 t) from by
    unfold Dat.leavesExact; rw [liveAt0_11 t, after0_11]]
  rw [show (dats m 0 c).leavesExact 12 t = owns (c : Thread nD τ) (ms12 t) fullShare (iblk m c 12 t) from by
    unfold Dat.leavesExact; rw [liveAt0_12 t, after0_12]]
  rw [show (dats m 0 c).leavesExact 13 t = owns (c : Thread nD τ) (ms13 t) fullShare (iblk m c 13 t) from by
    unfold Dat.leavesExact; rw [liveAt0_13 t, after0_13]]
  rw [show (dats m 0 c).leavesExact 14 t = owns (c : Thread nD τ) (ms14 t) fullShare (out14 m c t) from by
    unfold Dat.leavesExact; rw [liveAt0_14 t k5, after0_14]]
  rw [show (dats m 0 c).leavesExact 15 t = owns (c : Thread nD τ) (ms15 t) fullShare (out15 m c t) from by
    unfold Dat.leavesExact; rw [liveAt0_15 t k5, after0_15]]
  rw [show (dats m 0 c).Φ t.succ = PhiS m c (t.val + 1) t.isLt from rfl, PhiS_high m c (t.val + 1) _ (by omega)]
  rw [PhiS_castSucc m c t, PhiS_high m c _ _ (by omega)]
  iintro ⟨⟨HS18, HS17, HS19, HS20, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_E c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) sc17 (Memref.isWhole_whole _) sc18 (Memref.isWhole_whole _) sc19 (Memref.isWhole_whole _) sc20 (Memref.isWhole_whole _) k1 k2 k3 k4 k5 (iblk m c 1 t) (iblk m c 6 t) (Y2 m c) (accAt m c (t.val - 25))
    (iblk m c 2 t) (iblk m c 12 t) (iblk m c 13 t) (iblk m c 10 t) (iblk m c 11 t) (iblk m c 7 t) (iblk m c 8 t) (iblk m c 9 t) ((dats m 0 c).before 14 t d14) ((dats m 0 c).before 15 t d15) Set.univ _)
  isplitl [H1]; · iexact H1
  isplitl [H6]; · iexact H6
  isplitl [HS19]; · iexact HS19
  isplitl [H2]; · iexact H2
  isplitl [H12]; · iexact H12
  isplitl [H13]; · iexact H13
  isplitl [H10]; · iexact H10
  isplitl [H11]; · iexact H11
  isplitl [H7]; · iexact H7
  isplitl [H8]; · iexact H8
  isplitl [H9]; · iexact H9
  isplitl [HS20]; · iexact HS20
  isplitl [H14]; · iexact H14
  isplitl [H15]; · iexact H15
  iintro ⟨H1, H6, HS19, H2, H12, H13, H10, H11, H7, H8, H9, HS20, H14, H15⟩
  have eacc : accAt m c 25 = k0_pay5 (iblk m c 1 t) (Y2 m c) (iblk m c 6 t) (accAt m c (t.val - 25)) := by
    rw [← accAt_step m c t (by omega), show t.val + 1 - 25 = 25 from by omega]
  isplitl [HS17 HS18 HS19 HS20 Hg]
  · isplitl [HS18]; · iexact HS18
    isplitl [HS17]; · iexact HS17
    isplitl [HS19]; · iexact HS19
    isplitl [HS20]; · rw [accAt_step m c t (by omega)]; iexact HS20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · unfold out14; rw [eacc]; iexact H14
  · unfold out15; iexact H15

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 50 := lt_of_lt_of_eq t.isLt N_50
  by_cases h0 : t.val = 0
  · exact sound_A m c t h0
  by_cases h25 : t.val < 25
  · exact sound_B m c t h0 h25
  by_cases h25' : t.val = 25
  · exact sound_C m c t h25'
  by_cases h49 : t.val < 49
  · exact sound_D m c t (by omega) h49
  · exact sound_E m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_high m c _ _ (by rw [Fin.val_last, N_50]; omega), PhiA0_eq]
  iintro ⟨HS18, HS17, HS19, HS20, Hg⟩
  isplitr [Hg]
  · isplitl [HS17]; · iexists _; iexact HS17
    isplitl [HS18]; · iexists _; iexact HS18
    isplitl [HS19]; · iexists _; iexact HS19
    iexists _; iexact HS20
  iexact Hg

end Cert.KernelIdeal.Hand

end
-- ==== Proof.IdealFrame.lean ====
import proofs.«177514_g91036126806361_cont_sun_m_26_3_alg».proof.Proof.Gen.KernelIdeal.Frame
import proofs.«177514_g91036126806361_cont_sun_m_26_3_alg».proof.Proof.IdealData
import proofs.«177514_g91036126806361_cont_sun_m_26_3_alg».proof.Proof.IdealBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, and every final state has each
    array of the pipeline at what the proof data computes and every other buffer as the line after the region leaves
    it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to its end, faults nowhere, and leaves its thirteen argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Hand

end
-- ==== Proof.Spec.lean ====
/-
  The network both programs compute, as functions on the extended reals — one definition per stage, over plain
  coordinates (no array layout):

    y1 = x · W1                      h1 = selu (adj · y1 + b1)
    y2 = h1 · W2                     h2 = selu (adj · y2 + b2)
    pooled = selu (column mean of h2)            (the mean as the column sum times 1/10000)
    bn     = (sub − mean) · (var + ε)^(−1/2) · γ + β
    logit  = pooled · FWᵀ[:, :32] + bn · FWᵀ[:, 32:] + fb      (the 96 fused weights split 32 + 64)
    out    = (logit − max logit) − log Σ exp (logit − max logit)
    l1     = (Σ |FW[:, :32]| + Σ |FW[:, 32:]|) / 3072

  selu v = λ · (v if v > 0 else α · (eᵛ − 1)), the two constants kept as the single-precision words the programs carry.
-/
import Idealize.ShloMosaic.PureOps.Ideal
import Idealize.ShloMosaic.Lib.ValueIdx

noncomputable section

namespace Cert.Gcn

open Idealize.ShloMosaic

/-- The scaled exponential linear unit on one extended real. -/
def selu (v : EReal) : EReal :=
  Ideal.ofBits .f32 0x3F867D5F#32 *
    Scalar.select (FloatOps.cmpf (F := Ideal) (φ := .f32) .ogt v (Ideal.ofBits .f32 0x00000000#32)) v
      (Ideal.ofBits .f32 0x3FD62D7D#32 * (Ideal.exp v - Ideal.ofBits .f32 0x3F800000#32))

variable (x : Fin 10000 → Fin 128 → EReal) (adj : Fin 10000 → Fin 10000 → EReal) (sub : Fin 64 → EReal)
  (W1 : Fin 128 → Fin 64 → EReal) (b1 : Fin 64 → EReal) (W2 : Fin 64 → Fin 32 → EReal) (b2 : Fin 32 → EReal)
  (FW : Fin 32 → Fin 96 → EReal) (fb : Fin 32 → EReal) (g be mu var : Fin 64 → EReal)

/-- The first layer's projected features. -/
def y1 (r : Fin 10000) (j : Fin 64) : EReal := ∑ k : Fin 128, x r k * W1 k j

/-- The first layer: aggregate over the graph, add the bias, activate. -/
def h1 (r : Fin 10000) (j : Fin 64) : EReal := selu ((∑ k : Fin 10000, adj r k * y1 x W1 k j) + b1 j)

/-- The second layer's projected features. -/
def y2 (r : Fin 10000) (c : Fin 32) : EReal := ∑ j : Fin 64, h1 x adj W1 b1 r j * W2 j c

/-- The second layer. -/
def h2 (r : Fin 10000) (c : Fin 32) : EReal :=
  selu ((∑ k : Fin 10000, adj r k * y2 x adj W1 b1 W2 k c) + b2 c)

/-- The activated mean over all nodes, the mean as the sum times 1/10000. -/
def pooled (c : Fin 32) : EReal :=
  selu ((∑ r : Fin 10000, h2 x adj W1 b1 W2 b2 r c) * ((1 / 10000 : ℝ) : EReal))

/-- The normalised side features. -/
def bn (j : Fin 64) : EReal :=
  (sub j - mu j) * Ideal.rsqrt (var j + Ideal.ofBits .f32 0x3727C5AC#32) * g j + be j

/-- The fused logits: the 96 weights of a class split into the 32 that meet the pooled features and the 64 that meet
    the side features. -/
def logit (c : Fin 32) : EReal :=
  ((∑ k : Fin 32, pooled x adj W1 b1 W2 b2 k * FW c (Fin.castAdd 64 k))
    + (∑ j : Fin 64, bn sub g be mu var j * FW c (Fin.natAdd 32 j))) + fb c

/-- The largest logit. -/
def top : EReal := Finset.univ.fold max ⊥ (logit x adj sub W1 b1 W2 b2 FW fb g be mu var)

/-- A logit less the largest. -/
def shifted (c : Fin 32) : EReal :=
  logit x adj sub W1 b1 W2 b2 FW fb g be mu var c - top x adj sub W1 b1 W2 b2 FW fb g be mu var

/-- The log-softmax of the logits. -/
def out (c : Fin 32) : EReal :=
  shifted x adj sub W1 b1 W2 b2 FW fb g be mu var c
    - Ideal.log (∑ k : Fin 32, Ideal.exp (shifted x adj sub W1 b1 W2 b2 FW fb g be mu var k))

/-- The mean absolute fused weight, the 3072 entries summed as the 32-column part plus the 64-column part. -/
def l1 : EReal :=
  Ideal.div
    ((∑ c : Fin 32, ∑ k : Fin 32, FloatOps.absf (F := Ideal) (φ := .f32) (FW c (Fin.castAdd 64 k)))
      + (∑ c : Fin 32, ∑ j : Fin 64, FloatOps.absf (F := Ideal) (φ := .f32) (FW c (Fin.natAdd 32 j))))
    (Ideal.ofBits .f32 0x45400000#32)

end Cert.Gcn

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibTransposedMatmul.lean ====
/-
  A matrix product against a TRANSPOSED right operand, into a zero accumulator, read at a row and a column.

  For dimension numbers that contract the left operand's columns with the right operand's COLUMNS (no batch axis) —
  the product  A Bᵀ  of an `[M, K]` matrix and an `[N, K]` matrix —, entry `(r, c)` accumulated into zero is the sum over
  `k` of `lhs (r, k) * rhs (c, k)` on the extended reals: the accumulator contributes `0`, and the contraction index,
  a rank-one index, is re-indexed by its one coordinate. Stated for any extents and float formats, with the dimension
  numbers given by their six lists, so that any printed record with these lists unifies.
-/
import Idealize.ShloMosaic.PureOps.Ideal.Laws
import Idealize.ShloMosaic.Lib.ValueIdx

namespace Cert.Lib.TransposedMatmul

open Idealize.ShloMosaic Idealize.ShloMosaic.ValueIdx

set_option backward.isDefEq.respectTransparency.types false in
/-- The product of `[M, K]` by the transpose of `[N, K]` into the zero splat, at `(r, c)`: `∑ k, lhs (r, k) * rhs (c, k)`. -/
theorem matmul_zero_apply {M K N : ℕ} {φ₁ φ₂ : FTy}
    (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (lhs : FVec Ideal ⟨2, ![M, K]⟩ φ₁) (rhs : FVec Ideal ⟨2, ![N, K]⟩ φ₂)
    (r : Fin M) (c : Fin N) :
    FloatOps.matmul d prec lhs rhs (constant ⟨2, ![M, N]⟩ .f32 0x00000000#32) (ix2 r c)
      = ∑ k : Fin K, lhs (ix2 r k) * rhs (ix2 c k) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : (⟨[1], [1], [0], [0], [], [], wf⟩ : DotDims ⟨2, ![M, K]⟩ ⟨2, ![N, K]⟩ ⟨2, ![M, N]⟩).lhsIdx (ix2 r c)
      ((contrEquiv1 (⟨[1], [1], [0], [0], [], [], wf⟩ : DotDims ⟨2, ![M, K]⟩ ⟨2, ![N, K]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [1], [0], [0], [], [], wf⟩ : DotDims ⟨2, ![M, K]⟩ ⟨2, ![N, K]⟩ ⟨2, ![M, N]⟩).rhsIdx (ix2 r c)
      ((contrEquiv1 (⟨[1], [1], [0], [0], [], [], wf⟩ : DotDims ⟨2, ![M, K]⟩ ⟨2, ![N, K]⟩ ⟨2, ![M, N]⟩) K rfl rfl).symm k) = ix2 c k :=
    funext fun a => Fin.ext (by
      match a with
      | ⟨0, h0⟩ =>
        unfold DotDims.rhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.rhsIdx_val_of_single _ rfl _ _).trans hk)
  rw [el, er]

end Cert.Lib.TransposedMatmul
-- ==== Proof.LibFirstAxisFolds.lean ====
/-
  Folds along the FIRST axis of a rank-2 array at the ideal values, in the form a kernel's own text takes.

  A kernel that keeps the long axis of a matrix on the leading coordinate takes a column's sum or maximum by a
  `vector.multi_reduction` over axis 0. Read at a column `p` the result is the sum over the rows `k` of the entries
  `(k, p)`, or the fold of `max` over them from minus infinity. The two facts a printed reduction carries besides its
  operand (its float type is one the operation is defined at; its accumulator is the operation's neutral word) are taken
  in the spelling a printed kernel gives them, for any extents, so the lemmas rewrite a kernel's value as it stands.
-/
import Idealize.ShloMosaic.PureOps.Ideal.Laws
import Idealize.ShloMosaic.Lib.ValueIdx
import Idealize.ShloMosaic.Lib.Pipeline.Value

noncomputable section

namespace Cert.Lib.FirstAxisFolds

open Idealize.ShloMosaic Idealize.ShloMosaic.ValueIdx

/-- A sum along the first axis from zero, read at its column: the sum down the column. -/
theorem colsum_apply {a b : ℕ} (src : FVec Ideal ⟨2, ![a, b]⟩ .f32)
    (h : (⟨2, ![a, b]⟩ : Shape).Reduces [0] ⟨1, ![b]⟩) (hφ : FTy.f32 = FTy.f32 ∨ FTy.f32 = FTy.bf16)
    (hacc : (0x00000000#32 : BitVec FTy.f32.bits) = 0x00000000#32) (p : Fin b) :
    multiReduction .add [0] ⟨1, ![b]⟩ src 0x00000000#32 h hφ hacc (ix1 p) = ∑ k : Fin a, src (ix2 k p) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the first axis from minus infinity, read at its column: the fold of `max` down the column. -/
theorem colmax_apply {a b : ℕ} (src : FVec Ideal ⟨2, ![a, b]⟩ .f32)
    (h : (⟨2, ![a, b]⟩ : Shape).Reduces [0] ⟨1, ![b]⟩) (hφ : FTy.f32 = FTy.f32 ∨ FTy.f32 = FTy.bf16)
    (hacc : (0xFF800000#32 : BitVec FTy.f32.bits) = 0xFF800000#32) (p : Fin b) :
    multiReduction .maximumf [0] ⟨1, ![b]⟩ src 0xFF800000#32 h hφ hacc (ix1 p)
      = (Finset.univ : Finset (Fin a)).fold max (⊥ : EReal) (fun k => src (ix2 k p)) := by
  refine (Ideal.multiReduction_maximumf_single src 0xFF800000#32 h hφ hacc (ix1 p)).trans ?_
  have hbot : (FloatOps.ofBits (F := Ideal) .f32 0xFF800000#32 : EReal) = ⊥ := by
    show Ideal.ofBits .f32 0xFF800000#32 = ⊥
    simp [Ideal.ofBits, Ideal.ieee]
  rw [hbot]
  refine congrArg (fun f => (Finset.univ : Finset (Fin a)).fold max (⊥ : EReal) f) (funext fun k => ?_)
  exact congrArg src (funext fun d => Fin.ext (by match d with | ⟨0, _⟩ => rfl | ⟨1, _⟩ => rfl))

end Cert.Lib.FirstAxisFolds

end
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.Payloads.lean ====
/-
  The values the kernel body computes, read at an index on the extended reals.

  Each payload of the body — a matrix product into zero, a bias and an activation on top of one, a column sum, the
  fused classifier row, the log-softmax of a row, the mean absolute weight — is read at an entry given by its
  coordinates and written as the sum, fold or pointwise expression of the entries of its operands.
-/
import proofs.«177514_g91036126806361_cont_sun_m_26_3_alg».proof.Proof.Gen.KernelIdeal.Skeleton
import proofs.«177514_g91036126806361_cont_sun_m_26_3_alg».proof.Proof.Spec
import proofs.«177514_g91036126806361_cont_sun_m_26_3_alg».proof.Proof.LibPlainMatmul
import proofs.«177514_g91036126806361_cont_sun_m_26_3_alg».proof.Proof.LibTransposedMatmul
import proofs.«177514_g91036126806361_cont_sun_m_26_3_alg».proof.Proof.LibFirstAxisFolds
import proofs.«177514_g91036126806361_cont_sun_m_26_3_alg».proof.Proof.LibLastAxisFolds
import proofs.«177514_g91036126806361_cont_sun_m_26_3_alg».proof.Proof.LibColumnLayout
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Pay

open Idealize.ShloMosaic Idealize.ShloMosaic.ValueIdx Cert.KernelIdeal

/-- The first layer's projection: entry `(r, j)` is the sum over `k` of `x (r, k) * W1 (k, j)`. -/
theorem pay1_apply (v16 : Vec Ideal S10000x128 .f32) (v17 : Vec Ideal S128x64 .f32) (r : Fin 10000) (j : Fin 64) :
    Gen.k0_pay1 (F := Ideal) v16 v17 (ix2 r j) = ∑ k : Fin 128, v16 (ix2 r k) * v17 (ix2 k j) := by
  unfold Gen.k0_pay1
  rw [shapeCast_self]
  exact Cert.Lib.PlainMatmul.matmul_zero_apply dot_S10000x128_S128x64_S10000x64_1_0_0_1_n_n rfl rfl rfl rfl rfl rfl none v16 v17 r j

/-- The second layer's projection: entry `(r, c)` is the sum over `j` of `h1 (r, j) * W2 (j, c)`. -/
theorem pay3_apply (v16 : Vec Ideal S10000x64 .f32) (v17 : Vec Ideal S64x32 .f32) (r : Fin 10000) (c : Fin 32) :
    Gen.k0_pay3 (F := Ideal) v16 v17 (ix2 r c) = ∑ j : Fin 64, v16 (ix2 r j) * v17 (ix2 j c) := by
  unfold Gen.k0_pay3
  rw [shapeCast_self]
  exact Cert.Lib.PlainMatmul.matmul_zero_apply dot_S10000x64_S64x32_S10000x32_1_0_0_1_n_n rfl rfl rfl rfl rfl rfl none v16 v17 r c

/-- The column sums start from zero. -/
theorem pay4_apply (c : Fin 32) : Gen.k0_pay4 (F := Ideal) (ix2 (0 : Fin 1) c) = 0 := by
  unfold Gen.k0_pay4
  rw [shapeCast_self, broadcast_apply]
  exact Ideal.ofBits_zero_f32

/-- The activation chain of the body, read at an index: the scaled exponential linear unit of the entry. -/
theorem selu_apply {s : Shape} (x : FVec Ideal s .f32) (i : s.Idx) :
    mulf (broadcast s (Scalar.ofBits (F := Ideal) .f32 0x3F867D5F#32))
      (select (cmpf .ogt x (broadcast s (Scalar.ofBits (F := Ideal) .f32 0x00000000#32))) x
        (mulf (broadcast s (Scalar.ofBits (F := Ideal) .f32 0x3FD62D7D#32))
          (subf (exp x) (broadcast s (Scalar.ofBits (F := Ideal) .f32 0x3F800000#32))))) i
      = Cert.Gcn.selu (x i) := rfl

/-- A layer's aggregation: entry `(i, j)` of a block of rows is the activation of the sum over `k` of
    `adj (i, k) * y (k, j)` plus the bias at `j`. -/
theorem pay2_apply (v16 : Vec Ideal S400x10000 .f32) (v17 : Vec Ideal S10000x64 .f32) (v19 : Vec Ideal S1x64 .f32)
    (i : Fin 400) (j : Fin 64) :
    Gen.k0_pay2 (F := Ideal) v16 v17 v19 (ix2 i j)
      = Cert.Gcn.selu ((∑ k : Fin 10000, v16 (ix2 i k) * v17 (ix2 k j)) + v19 (ix2 (0 : Fin 1) j)) := by
  unfold Gen.k0_pay2
  simp only [shapeCast_self]
  refine (selu_apply _ _).trans (congrArg Cert.Gcn.selu ?_)
  rw [addf_apply, broadcastTo_1b_ab_apply]
  exact congrArg (· + v19 (ix2 (0 : Fin 1) j))
    (Cert.Lib.PlainMatmul.matmul_zero_apply dot_S400x10000_S10000x64_S400x64_1_0_0_1_n_n rfl rfl rfl rfl rfl rfl none v16 v17 i j)

/-- The pooled column sums: entry `c` is the running sum plus the sum, over the rows `i` of a block, of the activation of
    the sum over `k` of `adj (i, k) * y (k, c)` plus the bias at `c`. -/
theorem pay5_apply (v16 : Vec Ideal S400x10000 .f32) (v17 : Vec Ideal S10000x32 .f32) (v19 v33 : Vec Ideal S1x32 .f32)
    (c : Fin 32) :
    Gen.k0_pay5 (F := Ideal) v16 v17 v19 v33 (ix2 (0 : Fin 1) c)
      = v33 (ix2 (0 : Fin 1) c)
        + ∑ i : Fin 400, Cert.Gcn.selu ((∑ k : Fin 10000, v16 (ix2 i k) * v17 (ix2 k c)) + v19 (ix2 (0 : Fin 1) c)) := by
  unfold Gen.k0_pay5
  simp only [shapeCast_self]
  rw [addf_apply]
  refine congrArg (v33 (ix2 (0 : Fin 1) c) + ·) ?_
  refine (shapeCast_a_1a_apply _ _ (0 : Fin 1) c).trans ?_
  refine (Cert.Lib.FirstAxisFolds.colsum_apply _ _ _ _ c).trans ?_
  refine Finset.sum_congr rfl fun i _ => ?_
  refine (selu_apply _ _).trans (congrArg Cert.Gcn.selu ?_)
  rw [addf_apply, broadcastTo_1b_ab_apply]
  exact congrArg (· + v19 (ix2 (0 : Fin 1) c))
    (Cert.Lib.PlainMatmul.matmul_zero_apply dot_S400x10000_S10000x32_S400x32_1_0_0_1_n_n rfl rfl rfl rfl rfl rfl none v16 v17 i c)

/-- The reciprocal of the node count the body carries by name is the rational `1 / 10000`. -/
theorem inv_10000 : Named.named (F := Ideal) Cert.KernelIdeal.κ "inv_10000" (φ := .f32) 0x38D1B717#32 = ((1 / 10000 : ℝ) : EReal) :=
  IdealRules.named_const.ideal_named_scalar _ _ _ _ rfl

/-- The fused logits before the bias: entry `c` is the activated mean against the first 32 weights of class `c` plus the
    normalised side features against its last 64. -/
theorem pay10_apply (v16 : Vec Ideal S1x32 .f32) (v29 v30 v33 v39 v42 : Vec Ideal S1x64 .f32) (v45 : Vec Ideal S32x32 .f32)
    (v47 : Vec Ideal S32x64 .f32) (c : Fin 32) :
    Gen.k0_pay10 (F := Ideal) v16 v29 v30 v33 v39 v42 v45 v47 (ix2 (0 : Fin 1) c)
      = (∑ k : Fin 32, Cert.Gcn.selu (v16 (ix2 (0 : Fin 1) k) * ((1 / 10000 : ℝ) : EReal)) * v45 (ix2 c k))
        + (∑ j : Fin 64, ((v29 (ix2 (0 : Fin 1) j) - v30 (ix2 (0 : Fin 1) j))
              * Ideal.rsqrt (v33 (ix2 (0 : Fin 1) j) + Ideal.ofBits .f32 0x3727C5AC#32) * v39 (ix2 (0 : Fin 1) j)
            + v42 (ix2 (0 : Fin 1) j)) * v47 (ix2 c j)) := by
  unfold Gen.k0_pay10 Gen.k0_pay8 Gen.k0_pay9
  simp only [shapeCast_self]
  rw [addf_apply]
  refine congrArg₂ (· + ·) ?_ ?_
  · refine (Cert.Lib.TransposedMatmul.matmul_zero_apply dot_S1x32_S32x32_S1x32_1_1_0_0_n_n rfl rfl rfl rfl rfl rfl none _ v45 (0 : Fin 1) c).trans ?_
    refine Finset.sum_congr rfl fun k _ => ?_
    refine congrArg (· * v45 (ix2 c k)) ?_
    refine (selu_apply _ _).trans (congrArg Cert.Gcn.selu ?_)
    rw [mulf_apply, broadcast_apply, inv_10000]
  · refine (Cert.Lib.TransposedMatmul.matmul_zero_apply dot_S1x64_S32x64_S1x32_1_1_0_0_n_n rfl rfl rfl rfl rfl rfl none _ v47 (0 : Fin 1) c).trans ?_
    rfl

/-- The single-precision word of minus infinity is the bottom of the extended reals. -/
theorem ofBits_neg_inf : Ideal.ofBits .f32 0xFF800000#32 = (⊥ : EReal) := by
  simp [Ideal.ofBits, Ideal.ieee]

/-- The logarithm of a vector read at an index. -/
theorem log_apply {s : Shape} {φ : FTy} (a : FVec Ideal s φ) (i : s.Idx) : log a i = Ideal.log (a i) := rfl

/-- The absolute value of a vector read at an index. -/
theorem absf_apply {s : Shape} {φ : FTy} (a : FVec Ideal s φ) (i : s.Idx) : absf a i = FloatOps.absf (a i) := rfl

/-- The maximum of a row, kept as a one-entry column and repeated along the row: at every column the fold of `max` over
    the row from minus infinity. -/
theorem rowmax_keep_apply (x : FVec Ideal S1x32 .f32) (c : Fin 32) :
    broadcastTo S1x32
        (shapeCast S1x1 (multiReduction .maximumf [1] S1 x 0xFF800000#32 Gen.reduces_S1x32_S1 (.inl rfl) rfl) Gen.shapeCasts_S1_S1x1)
        Gen.broadcasts_S1x1_S1x32 (ix2 (0 : Fin 1) c)
      = Finset.univ.fold max (⊥ : EReal) (fun k : Fin 32 => x (ix2 (0 : Fin 1) k)) := by
  refine (Idealize.ShloMosaic.ColumnLayout.broadcastTo_a1_ab_apply _ _ (0 : Fin 1) c).trans ?_
  refine (shapeCast_a_1a_apply _ _ (0 : Fin 1) (0 : Fin 1)).trans ?_
  refine (Cert.Lib.LastAxisFolds.rowmax_apply _ _ _ _ (0 : Fin 1)).trans ?_
  rw [ofBits_neg_inf]

/-- The log-softmax of the biased logits: entry `c` is the logit less the largest, less the logarithm of the sum of the
    exponentials of the logits less the largest. -/
theorem pay6_apply (v51 v52 : Vec Ideal S1x32 .f32) (c : Fin 32) :
    Gen.k0_pay6 (F := Ideal) v51 v52 (ix2 (0 : Fin 1) c)
      = ((v51 (ix2 (0 : Fin 1) c) + v52 (ix2 (0 : Fin 1) c))
          - Finset.univ.fold max (⊥ : EReal) (fun k : Fin 32 => v51 (ix2 (0 : Fin 1) k) + v52 (ix2 (0 : Fin 1) k)))
        - Ideal.log (∑ k : Fin 32, Ideal.exp ((v51 (ix2 (0 : Fin 1) k) + v52 (ix2 (0 : Fin 1) k))
            - Finset.univ.fold max (⊥ : EReal) (fun k : Fin 32 => v51 (ix2 (0 : Fin 1) k) + v52 (ix2 (0 : Fin 1) k)))) := by
  unfold Gen.k0_pay6
  simp only [shapeCast_self]
  rw [subf_apply, subf_apply, addf_apply]
  refine congrArg₂ (fun a b => (v51 (ix2 (0 : Fin 1) c) + v52 (ix2 (0 : Fin 1) c) - a) - b) (rowmax_keep_apply _ c) ?_
  refine (Idealize.ShloMosaic.ColumnLayout.broadcastTo_a1_ab_apply _ _ (0 : Fin 1) c).trans ?_
  refine (log_apply _ _).trans (congrArg Ideal.log ?_)
  refine (shapeCast_a_1a_apply _ _ (0 : Fin 1) (0 : Fin 1)).trans ?_
  refine (Cert.Lib.LastAxisFolds.rowsum_apply _ _ _ _ (0 : Fin 1)).trans ?_
  refine Finset.sum_congr rfl fun k _ => ?_
  refine (Cert.Lib.LastAxisFolds.exp_apply _ _).trans (congrArg Ideal.exp ?_)
  rw [subf_apply, addf_apply]
  exact congrArg (v51 (ix2 (0 : Fin 1) k) + v52 (ix2 (0 : Fin 1) k) - ·) (rowmax_keep_apply _ k)

/-- The sum of the absolute values of a matrix taken row by row and then down the column of row sums. -/
theorem abs_total_apply {b : ℕ} (x : FVec Ideal ⟨2, ![32, b]⟩ .f32)
    (h1 : (⟨2, ![32, b]⟩ : Shape).Reduces [1] S32) (h2 : S32.ShapeCasts S32x1) :
    shapeCast S1x1
        (multiReduction .add [0] S1 (shapeCast S32x1 (multiReduction .add [1] S32 (absf x) 0x00000000#32 h1 (.inl rfl) rfl) h2)
          0x00000000#32 Gen.reduces_S32x1_S1 (.inl rfl) rfl)
        Gen.shapeCasts_S1_S1x1 (ix2 (0 : Fin 1) (0 : Fin 1))
      = ∑ c : Fin 32, ∑ k : Fin b, FloatOps.absf (F := Ideal) (φ := .f32) (x (ix2 c k)) := by
  refine (shapeCast_a_1a_apply _ _ (0 : Fin 1) (0 : Fin 1)).trans ?_
  refine (Cert.Lib.FirstAxisFolds.colsum_apply _ _ _ _ (0 : Fin 1)).trans ?_
  refine Finset.sum_congr rfl fun c _ => ?_
  refine (Idealize.ShloMosaic.ColumnLayout.shapeCast_a_a1_apply _ _ c (0 : Fin 1)).trans ?_
  refine (Cert.Lib.LastAxisFolds.rowsum_apply _ _ _ _ c).trans ?_
  rfl

/-- The mean absolute fused weight: the absolute values of the two weight blocks summed, over 3072. -/
theorem pay7_apply (v46 : Vec Ideal S32x32 .f32) (v48 : Vec Ideal S32x64 .f32) :
    Gen.k0_pay7 (F := Ideal) v46 v48 (ix2 (0 : Fin 1) (0 : Fin 1))
      = Ideal.div
          ((∑ c : Fin 32, ∑ k : Fin 32, FloatOps.absf (F := Ideal) (φ := .f32) (v46 (ix2 c k)))
            + (∑ c : Fin 32, ∑ j : Fin 64, FloatOps.absf (F := Ideal) (φ := .f32) (v48 (ix2 c j))))
          (Ideal.ofBits .f32 0x45400000#32) := by
  unfold Gen.k0_pay7
  rw [divf_apply, broadcast_apply, addf_apply]
  exact congrArg₂ (fun a b => Ideal.div (a + b) (Ideal.ofBits .f32 0x45400000#32))
    (abs_total_apply v46 Gen.reduces_S32x32_S32 Gen.shapeCasts_S32_S32x1) (abs_total_apply v48 Gen.reduces_S32x64_S32 Gen.shapeCasts_S32_S32x1)

end Cert.KernelIdeal.Pay

end
-- ==== Proof.HostReads.lean ====
/-
  The arrays the region finds, read at an index.

  Before the region the host cuts the fused weights `[32, 96]` into their first 32 and last 64 columns and lays seven
  vectors out as one-row matrices. Read at an entry, each array the region finds is the launched argument at the matching
  entry: a column of the cut at its offset, a row entry at the vector's index.
-/
import proofs.«177514_g91036126806361_cont_sun_m_26_3_alg».proof.Proof.Gen.KernelIdeal.Frame
import Idealize.ShloMosaic.Lib.ValueIdx
import Idealize.ShloMosaic.Lib.Pipeline.Value
import Idealize.ShloMosaic.Lib.ValueLayout

noncomputable section

namespace Cert.KernelIdeal.HostReads

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The first 32 columns of the fused weights. -/
theorem V_main_v0_apply (a k : Fin 32) :
    Gen.V m c main_v0 (ix2 a k) = m ((c : Thread nD τ).loc main_arg7) (ix2 a (Fin.castAdd 64 k)) := by
  have e : (Gen.V m c main_v0 : S32x32.Idx → EReal)
      = extractStridedSlice S32x32 ![0, 0] (m ((c : Thread nD τ).loc main_arg7) : S32x96.Idx → EReal) slices_S32x96_S32x32_0_0 := by
    show StableHlo.after hostOps0 (fun b => m (c, b)) (Proc.devRef .tc main_v0) = _
    after_results <;> rfl
  exact (congrFun e _).trans (slice2_axis1_apply 0 _ _ a k (Fin.castAdd 64 k) (Nat.zero_add _).symm)

/-- The last 64 columns of the fused weights. -/
theorem V_main_v1_apply (a : Fin 32) (j : Fin 64) :
    Gen.V m c main_v1 (ix2 a j) = m ((c : Thread nD τ).loc main_arg7) (ix2 a (Fin.natAdd 32 j)) := by
  have e : (Gen.V m c main_v1 : S32x64.Idx → EReal)
      = extractStridedSlice S32x64 ![0, 32] (m ((c : Thread nD τ).loc main_arg7) : S32x96.Idx → EReal) slices_S32x96_S32x64_0_32 := by
    show StableHlo.after hostOps0 (fun b => m (c, b)) (Proc.devRef .tc main_v1) = _
    after_results <;> rfl
  exact (congrFun e _).trans (slice2_axis1_apply 32 _ _ a j (Fin.natAdd 32 j) rfl)

/-- The first layer's bias as a row. -/
theorem V_main_v2_apply (j : Fin 64) :
    Gen.V m c main_v2 (ix2 (0 : Fin 1) j) = m ((c : Thread nD τ).loc main_arg4) (ix1 j) := by
  have e : (Gen.V m c main_v2 : S1x64.Idx → EReal)
      = shapeCast S1x64 (m ((c : Thread nD τ).loc main_arg4) : S64.Idx → EReal) shapeCasts_S64_S1x64 := by
    show StableHlo.after hostOps0 (fun b => m (c, b)) (Proc.devRef .tc main_v2) = _
    after_results <;> rfl
  exact (congrFun e _).trans (shapeCast_a_1a_apply _ _ (0 : Fin 1) j)

/-- The second layer's bias as a row. -/
theorem V_main_v3_apply (j : Fin 32) :
    Gen.V m c main_v3 (ix2 (0 : Fin 1) j) = m ((c : Thread nD τ).loc main_arg6) (ix1 j) := by
  have e : (Gen.V m c main_v3 : S1x32.Idx → EReal)
      = shapeCast S1x32 (m ((c : Thread nD τ).loc main_arg6) : S32.Idx → EReal) shapeCasts_S32_S1x32 := by
    show StableHlo.after hostOps0 (fun b => m (c, b)) (Proc.devRef .tc main_v3) = _
    after_results <;> rfl
  exact (congrFun e _).trans (shapeCast_a_1a_apply _ _ (0 : Fin 1) j)

/-- The classifier's bias as a row. -/
theorem V_main_v4_apply (j : Fin 32) :
    Gen.V m c main_v4 (ix2 (0 : Fin 1) j) = m ((c : Thread nD τ).loc main_arg8) (ix1 j) := by
  have e : (Gen.V m c main_v4 : S1x32.Idx → EReal)
      = shapeCast S1x32 (m ((c : Thread nD τ).loc main_arg8) : S32.Idx → EReal) shapeCasts_S32_S1x32 := by
    show StableHlo.after hostOps0 (fun b => m (c, b)) (Proc.devRef .tc main_v4) = _
    after_results <;> rfl
  exact (congrFun e _).trans (shapeCast_a_1a_apply _ _ (0 : Fin 1) j)

/-- The normalisation's scale as a row. -/
theorem V_main_v5_apply (j : Fin 64) :
    Gen.V m c main_v5 (ix2 (0 : Fin 1) j) = m ((c : Thread nD τ).loc main_arg9) (ix1 j) := by
  have e : (Gen.V m c main_v5 : S1x64.Idx → EReal)
      = shapeCast S1x64 (m ((c : Thread nD τ).loc main_arg9) : S64.Idx → EReal) shapeCasts_S64_S1x64 := by
    show StableHlo.after hostOps0 (fun b => m (c, b)) (Proc.devRef .tc main_v5) = _
    after_results <;> rfl
  exact (congrFun e _).trans (shapeCast_a_1a_apply _ _ (0 : Fin 1) j)

/-- The normalisation's shift as a row. -/
theorem V_main_v6_apply (j : Fin 64) :
    Gen.V m c main_v6 (ix2 (0 : Fin 1) j) = m ((c : Thread nD τ).loc main_arg10) (ix1 j) := by
  have e : (Gen.V m c main_v6 : S1x64.Idx → EReal)
      = shapeCast S1x64 (m ((c : Thread nD τ).loc main_arg10) : S64.Idx → EReal) shapeCasts_S64_S1x64 := by
    show StableHlo.after hostOps0 (fun b => m (c, b)) (Proc.devRef .tc main_v6) = _
    after_results <;> rfl
  exact (congrFun e _).trans (shapeCast_a_1a_apply _ _ (0 : Fin 1) j)

/-- The normalisation's mean as a row. -/
theorem V_main_v7_apply (j : Fin 64) :
    Gen.V m c main_v7 (ix2 (0 : Fin 1) j) = m ((c : Thread nD τ).loc main_arg11) (ix1 j) := by
  have e : (Gen.V m c main_v7 : S1x64.Idx → EReal)
      = shapeCast S1x64 (m ((c : Thread nD τ).loc main_arg11) : S64.Idx → EReal) shapeCasts_S64_S1x64 := by
    show StableHlo.after hostOps0 (fun b => m (c, b)) (Proc.devRef .tc main_v7) = _
    after_results <;> rfl
  exact (congrFun e _).trans (shapeCast_a_1a_apply _ _ (0 : Fin 1) j)

/-- The normalisation's variance as a row. -/
theorem V_main_v8_apply (j : Fin 64) :
    Gen.V m c main_v8 (ix2 (0 : Fin 1) j) = m ((c : Thread nD τ).loc main_arg12) (ix1 j) := by
  have e : (Gen.V m c main_v8 : S1x64.Idx → EReal)
      = shapeCast S1x64 (m ((c : Thread nD τ).loc main_arg12) : S64.Idx → EReal) shapeCasts_S64_S1x64 := by
    show StableHlo.after hostOps0 (fun b => m (c, b)) (Proc.devRef .tc main_v8) = _
    after_results <;> rfl
  exact (congrFun e _).trans (shapeCast_a_1a_apply _ _ (0 : Fin 1) j)

end Cert.KernelIdeal.HostReads

end
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.LibRunningSum.lean ====
/-
  A sum accumulated block by block, in any commutative additive monoid.

  A quantity that starts at zero and, at step k, grows by the sum of the k-th block of n consecutive terms, equals
  after m steps the sum of all m * n terms (`blocks_total`); more generally a quantity that starts at zero and grows
  by g k at step k is, after k steps, the sum of the first k increments (`partial_sum`). Only the associativity and
  commutativity of addition are used, so this holds on the extended reals whatever the terms are: it is the law by
  which a loop that carries a running total over chunks of a contracted axis computes the one sum over the whole axis.
-/
import proofs.«177514_g91036126806361_cont_sun_m_26_3_alg».proof.Proof.LibSumBlocks

open scoped BigOperators

namespace Cert.Lib.RunningSum

variable {β : Type*} [AddCommMonoid β]

/-- A quantity that starts at zero and grows by `g k` at step `k` is, after `k` steps, the sum of the first `k`
    increments. -/
theorem partial_sum {m : ℕ} (g : Fin m → β) (a : ℕ → β) (h0 : a 0 = 0)
    (hs : ∀ k : Fin m, a (k.val + 1) = a k.val + g k) :
    ∀ (k : ℕ) (hk : k ≤ m), a k = ∑ t : Fin k, g (Fin.castLE hk t)
  | 0, _ => by rw [h0]; rfl
  | k + 1, hk => by
    have ih := partial_sum g a h0 hs k (Nat.le_of_succ_le hk)
    rw [Fin.sum_univ_castSucc]
    calc a (k + 1) = a k + g ⟨k, hk⟩ := hs ⟨k, hk⟩
      _ = (∑ t : Fin k, g (Fin.castLE (Nat.le_of_succ_le hk) t)) + g ⟨k, hk⟩ := by rw [ih]
      _ = _ := rfl

/-- Accumulated over `m` blocks of `n` consecutive terms each, from zero: the sum of all `m * n` terms. -/
theorem blocks_total {m n N : ℕ} (hN : m * n = N) (f : Fin N → β) (a : ℕ → β) (h0 : a 0 = 0)
    (hs : ∀ k : Fin m, a (k.val + 1) = a k.val + ∑ s : Fin n, f (SumBlocks.idx hN k s)) :
    a m = ∑ d : Fin N, f d := by
  rw [SumBlocks.sum_eq hN f, partial_sum (fun k => ∑ s : Fin n, f (SumBlocks.idx hN k s)) a h0 hs m (Nat.le_refl m)]
  rfl

end Cert.Lib.RunningSum
-- ==== Proof.KernelValue.lean ====
/-
  The values the kernel's run carries between grid points, as the network's stages.

  The blocks the pipeline hands the body are the argument arrays read at the matching entries: every window but the
  adjacency is its whole array, and the adjacency's block at a point is its 400 rows numbered from 400 times the point's
  residue modulo 25. Through them the first scratch buffer is the first layer's projection, the second the first layer,
  the third the second layer's projection, the fourth the column sums of the second layer over the row blocks done, and
  the two results are the log-softmax of the fused logits and the mean absolute fused weight.
-/
import proofs.«177514_g91036126806361_cont_sun_m_26_3_alg».proof.Proof.IdealData
import proofs.«177514_g91036126806361_cont_sun_m_26_3_alg».proof.Proof.Payloads
import proofs.«177514_g91036126806361_cont_sun_m_26_3_alg».proof.Proof.HostReads
import proofs.«177514_g91036126806361_cont_sun_m_26_3_alg».proof.Proof.Spec
import proofs.«177514_g91036126806361_cont_sun_m_26_3_alg».proof.Proof.LibRunningSum

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (c : Dev nD)

/-! ## The network's arguments, read off the launched arrays -/

/-- The node features. -/
def ax : Fin 10000 → Fin 128 → EReal := fun r k => m ((c : Thread nD τ).loc main_arg0) (ix2 r k)
/-- The adjacency. -/
def aadj : Fin 10000 → Fin 10000 → EReal := fun r k => m ((c : Thread nD τ).loc main_arg1) (ix2 r k)
/-- The side features. -/
def asub : Fin 64 → EReal := fun j => m ((c : Thread nD τ).loc main_arg2) (ix2 (0 : Fin 1) j)
/-- The first layer's weights. -/
def aW1 : Fin 128 → Fin 64 → EReal := fun k j => m ((c : Thread nD τ).loc main_arg3) (ix2 k j)
/-- The first layer's bias. -/
def ab1 : Fin 64 → EReal := fun j => m ((c : Thread nD τ).loc main_arg4) (ix1 j)
/-- The second layer's weights. -/
def aW2 : Fin 64 → Fin 32 → EReal := fun j c' => m ((c : Thread nD τ).loc main_arg5) (ix2 j c')
/-- The second layer's bias. -/
def ab2 : Fin 32 → EReal := fun c' => m ((c : Thread nD τ).loc main_arg6) (ix1 c')
/-- The fused weights. -/
def aFW : Fin 32 → Fin 96 → EReal := fun a k => m ((c : Thread nD τ).loc main_arg7) (ix2 a k)
/-- The classifier's bias. -/
def afb : Fin 32 → EReal := fun a => m ((c : Thread nD τ).loc main_arg8) (ix1 a)
/-- The normalisation's scale. -/
def ag : Fin 64 → EReal := fun j => m ((c : Thread nD τ).loc main_arg9) (ix1 j)
/-- The normalisation's shift. -/
def abe : Fin 64 → EReal := fun j => m ((c : Thread nD τ).loc main_arg10) (ix1 j)
/-- The normalisation's mean. -/
def amu : Fin 64 → EReal := fun j => m ((c : Thread nD τ).loc main_arg11) (ix1 j)
/-- The normalisation's variance. -/
def avar : Fin 64 → EReal := fun j => m ((c : Thread nD τ).loc main_arg12) (ix1 j)

/-! ## The blocks read at an index -/

/-- Window 0's index map is constant. -/
theorem idx0 : ∀ t : Fin cfg0.N, win0_0.index t (0 : Fin 2) = 0 ∧ win0_0.index t (1 : Fin 2) = 0 :=
  (by decide +kernel : ∀ t : Fin grid0.N, _)

/-- The node features' block is the whole array. -/
theorem iblk0_apply (t : Fin cfg0.N) (r : Fin 10000) (k : Fin 128) :
    (iblk m c 0 t : Vec Ideal S10000x128 .f32) (ix2 r k) = m ((c : Thread nD τ).loc main_arg0) (ix2 r k) := by
  obtain ⟨e0, e1⟩ := idx0 t
  unfold iblk
  rw [View.read_apply]
  refine Eq.trans ?_ (congrFun (V_main_arg0 m c) (ix2 r k))
  show V m c main_arg0 _ = V m c main_arg0 _
  refine congrArg (V m c main_arg0) (funext fun a => Fin.ext ?_)
  match a with
  | ⟨0, _⟩ => show win0_0.index t (0 : Fin 2) * 10000 + 1 * r.val = r.val; omega
  | ⟨1, _⟩ => show win0_0.index t (1 : Fin 2) * 128 + 1 * k.val = k.val; omega

/-- The adjacency's index map: the point's residue modulo 25 along the rows. -/
theorem idx1 : ∀ t : Fin cfg0.N, win0_1.index t (0 : Fin 2) = t.val % 25 ∧ win0_1.index t (1 : Fin 2) = 0 :=
  (by decide +kernel : ∀ t : Fin grid0.N, _)

/-- The adjacency's block at a point: its 400 rows from 400 times the point's residue modulo 25. -/
theorem iblk1_apply (t : Fin cfg0.N) (i : Fin 400) (k : Fin 10000) (r : Fin 10000) (hr : r.val = 400 * (t.val % 25) + i.val) :
    (iblk m c 1 t : Vec Ideal S400x10000 .f32) (ix2 i k) = m ((c : Thread nD τ).loc main_arg1) (ix2 r k) := by
  obtain ⟨e0, e1⟩ := idx1 t
  unfold iblk
  rw [View.read_apply]
  refine Eq.trans ?_ (congrFun (V_main_arg1 m c) (ix2 r k))
  show V m c main_arg1 _ = V m c main_arg1 _
  refine congrArg (V m c main_arg1) (funext fun a => Fin.ext ?_)
  match a with
  | ⟨0, _⟩ => show win0_1.index t (0 : Fin 2) * 400 + 1 * i.val = r.val; omega
  | ⟨1, _⟩ => show win0_1.index t (1 : Fin 2) * 10000 + 1 * k.val = k.val; omega

/-- Window 2's index map is constant. -/
theorem idx2 : ∀ t : Fin cfg0.N, win0_2.index t (0 : Fin 2) = 0 ∧ win0_2.index t (1 : Fin 2) = 0 :=
  (by decide +kernel : ∀ t : Fin grid0.N, _)

/-- The side features' block is the whole row. -/
theorem iblk2_apply (t : Fin cfg0.N) (u : Fin 1) (j : Fin 64) :
    (iblk m c 2 t : Vec Ideal S1x64 .f32) (ix2 u j) = m ((c : Thread nD τ).loc main_arg2) (ix2 u j) := by
  obtain ⟨e0, e1⟩ := idx2 t
  unfold iblk
  rw [View.read_apply]
  refine Eq.trans ?_ (congrFun (V_main_arg2 m c) (ix2 u j))
  show V m c main_arg2 _ = V m c main_arg2 _
  refine congrArg (V m c main_arg2) (funext fun a => Fin.ext ?_)
  match a with
  | ⟨0, _⟩ => show win0_2.index t (0 : Fin 2) * 1 + 1 * u.val = u.val; omega
  | ⟨1, _⟩ => show win0_2.index t (1 : Fin 2) * 64 + 1 * j.val = j.val; omega

/-- Window 3's index map is constant. -/
theorem idx3 : ∀ t : Fin cfg0.N, win0_3.index t (0 : Fin 2) = 0 ∧ win0_3.index t (1 : Fin 2) = 0 :=
  (by decide +kernel : ∀ t : Fin grid0.N, _)

/-- The first layer's weights' block is the whole array. -/
theorem iblk3_apply (t : Fin cfg0.N) (k : Fin 128) (j : Fin 64) :
    (iblk m c 3 t : Vec Ideal S128x64 .f32) (ix2 k j) = m ((c : Thread nD τ).loc main_arg3) (ix2 k j) := by
  obtain ⟨e0, e1⟩ := idx3 t
  unfold iblk
  rw [View.read_apply]
  refine Eq.trans ?_ (congrFun (V_main_arg3 m c) (ix2 k j))
  show V m c main_arg3 _ = V m c main_arg3 _
  refine congrArg (V m c main_arg3) (funext fun a => Fin.ext ?_)
  match a with
  | ⟨0, _⟩ => show win0_3.index t (0 : Fin 2) * 128 + 1 * k.val = k.val; omega
  | ⟨1, _⟩ => show win0_3.index t (1 : Fin 2) * 64 + 1 * j.val = j.val; omega

/-- Window 4's index map is constant. -/
theorem idx4 : ∀ t : Fin cfg0.N, win0_4.index t (0 : Fin 2) = 0 ∧ win0_4.index t (1 : Fin 2) = 0 :=
  (by decide +kernel : ∀ t : Fin grid0.N, _)

/-- The first layer's bias as the body reads it. -/
theorem iblk4_apply (t : Fin cfg0.N) (j : Fin 64) :
    (iblk m c 4 t : Vec Ideal S1x64 .f32) (ix2 (0 : Fin 1) j) = m ((c : Thread nD τ).loc main_arg4) (ix1 j) := by
  obtain ⟨e0, e1⟩ := idx4 t
  unfold iblk
  rw [View.read_apply]
  refine Eq.trans ?_ (HostReads.V_main_v2_apply m c j)
  show V m c main_v2 _ = V m c main_v2 _
  refine congrArg (V m c main_v2) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 64 + 1 * j.val = j.val; omega

/-- Window 5's index map is constant. -/
theorem idx5 : ∀ t : Fin cfg0.N, win0_5.index t (0 : Fin 2) = 0 ∧ win0_5.index t (1 : Fin 2) = 0 :=
  (by decide +kernel : ∀ t : Fin grid0.N, _)

/-- The second layer's weights' block is the whole array. -/
theorem iblk5_apply (t : Fin cfg0.N) (j : Fin 64) (k : Fin 32) :
    (iblk m c 5 t : Vec Ideal S64x32 .f32) (ix2 j k) = m ((c : Thread nD τ).loc main_arg5) (ix2 j k) := by
  obtain ⟨e0, e1⟩ := idx5 t
  unfold iblk
  rw [View.read_apply]
  refine Eq.trans ?_ (congrFun (V_main_arg5 m c) (ix2 j k))
  show V m c main_arg5 _ = V m c main_arg5 _
  refine congrArg (V m c main_arg5) (funext fun a => Fin.ext ?_)
  match a with
  | ⟨0, _⟩ => show win0_5.index t (0 : Fin 2) * 64 + 1 * j.val = j.val; omega
  | ⟨1, _⟩ => show win0_5.index t (1 : Fin 2) * 32 + 1 * k.val = k.val; omega

/-- Window 6's index map is constant. -/
theorem idx6 : ∀ t : Fin cfg0.N, win0_6.index t (0 : Fin 2) = 0 ∧ win0_6.index t (1 : Fin 2) = 0 :=
  (by decide +kernel : ∀ t : Fin grid0.N, _)

/-- The second layer's bias as the body reads it. -/
theorem iblk6_apply (t : Fin cfg0.N) (j : Fin 32) :
    (iblk m c 6 t : Vec Ideal S1x32 .f32) (ix2 (0 : Fin 1) j) = m ((c : Thread nD τ).loc main_arg6) (ix1 j) := by
  obtain ⟨e0, e1⟩ := idx6 t
  unfold iblk
  rw [View.read_apply]
  refine Eq.trans ?_ (HostReads.V_main_v3_apply m c j)
  show V m c main_v3 _ = V m c main_v3 _
  refine congrArg (V m c main_v3) (funext fun a => Fin.ext ?_)
  match a with
  | ⟨0, _⟩ => show win0_6.index t (0 : Fin 2) * 1 + 1 * (0 : Fin 1).val = (0 : Fin 1).val; omega
  | ⟨1, _⟩ => show win0_6.index t (1 : Fin 2) * 32 + 1 * j.val = j.val; omega

/-- Window 7's index map is constant. -/
theorem idx7 : ∀ t : Fin cfg0.N, win0_7.index t (0 : Fin 2) = 0 ∧ win0_7.index t (1 : Fin 2) = 0 :=
  (by decide +kernel : ∀ t : Fin grid0.N, _)

/-- The first 32 columns of the fused weights as the body reads them. -/
theorem iblk7_apply (t : Fin cfg0.N) (a : Fin 32) (k : Fin 32) :
    (iblk m c 7 t : Vec Ideal S32x32 .f32) (ix2 a k) = m ((c : Thread nD τ).loc main_arg7) (ix2 a (Fin.castAdd 64 k)) := by
  obtain ⟨e0, e1⟩ := idx7 t
  unfold iblk
  rw [View.read_apply]
  refine Eq.trans ?_ (HostReads.V_main_v0_apply m c a k)
  show V m c main_v0 _ = V m c main_v0 _
  refine congrArg (V m c main_v0) (funext fun d => Fin.ext ?_)
  match d with
  | ⟨0, _⟩ => show win0_7.index t (0 : Fin 2) * 32 + 1 * a.val = a.val; omega
  | ⟨1, _⟩ => show win0_7.index t (1 : Fin 2) * 32 + 1 * k.val = k.val; omega

/-- Window 8's index map is constant. -/
theorem idx8 : ∀ t : Fin cfg0.N, win0_8.index t (0 : Fin 2) = 0 ∧ win0_8.index t (1 : Fin 2) = 0 :=
  (by decide +kernel : ∀ t : Fin grid0.N, _)

/-- The last 64 columns of the fused weights as the body reads them. -/
theorem iblk8_apply (t : Fin cfg0.N) (a : Fin 32) (k : Fin 64) :
    (iblk m c 8 t : Vec Ideal S32x64 .f32) (ix2 a k) = m ((c : Thread nD τ).loc main_arg7) (ix2 a (Fin.natAdd 32 k)) := by
  obtain ⟨e0, e1⟩ := idx8 t
  unfold iblk
  rw [View.read_apply]
  refine Eq.trans ?_ (HostReads.V_main_v1_apply m c a k)
  show V m c main_v1 _ = V m c main_v1 _
  refine congrArg (V m c main_v1) (funext fun d => Fin.ext ?_)
  match d with
  | ⟨0, _⟩ => show win0_8.index t (0 : Fin 2) * 32 + 1 * a.val = a.val; omega
  | ⟨1, _⟩ => show win0_8.index t (1 : Fin 2) * 64 + 1 * k.val = k.val; omega

/-- Window 9's index map is constant. -/
theorem idx9 : ∀ t : Fin cfg0.N, win0_9.index t (0 : Fin 2) = 0 ∧ win0_9.index t (1 : Fin 2) = 0 :=
  (by decide +kernel : ∀ t : Fin grid0.N, _)

/-- The classifier's bias as the body reads it. -/
theorem iblk9_apply (t : Fin cfg0.N) (j : Fin 32) :
    (iblk m c 9 t : Vec Ideal S1x32 .f32) (ix2 (0 : Fin 1) j) = m ((c : Thread nD τ).loc main_arg8) (ix1 j) := by
  obtain ⟨e0, e1⟩ := idx9 t
  unfold iblk
  rw [View.read_apply]
  refine Eq.trans ?_ (HostReads.V_main_v4_apply m c j)
  show V m c main_v4 _ = V m c main_v4 _
  refine congrArg (V m c main_v4) (funext fun a => Fin.ext ?_)
  match a with
  | ⟨0, _⟩ => show win0_9.index t (0 : Fin 2) * 1 + 1 * (0 : Fin 1).val = (0 : Fin 1).val; omega
  | ⟨1, _⟩ => show win0_9.index t (1 : Fin 2) * 32 + 1 * j.val = j.val; omega

/-- Window 10's index map is constant. -/
theorem idx10 : ∀ t : Fin cfg0.N, win0_10.index t (0 : Fin 2) = 0 ∧ win0_10.index t (1 : Fin 2) = 0 :=
  (by decide +kernel : ∀ t : Fin grid0.N, _)

/-- The normalisation's scale as the body reads it. -/
theorem iblk10_apply (t : Fin cfg0.N) (j : Fin 64) :
    (iblk m c 10 t : Vec Ideal S1x64 .f32) (ix2 (0 : Fin 1) j) = m ((c : Thread nD τ).loc main_arg9) (ix1 j) := by
  obtain ⟨e0, e1⟩ := idx10 t
  unfold iblk
  rw [View.read_apply]
  refine Eq.trans ?_ (HostReads.V_main_v5_apply m c j)
  show V m c main_v5 _ = V m c main_v5 _
  refine congrArg (V m c main_v5) (funext fun a => Fin.ext ?_)
  match a with
  | ⟨0, _⟩ => show win0_10.index t (0 : Fin 2) * 1 + 1 * (0 : Fin 1).val = (0 : Fin 1).val; omega
  | ⟨1, _⟩ => show win0_10.index t (1 : Fin 2) * 64 + 1 * j.val = j.val; omega

/-- Window 11's index map is constant. -/
theorem idx11 : ∀ t : Fin cfg0.N, win0_11.index t (0 : Fin 2) = 0 ∧ win0_11.index t (1 : Fin 2) = 0 :=
  (by decide +kernel : ∀ t : Fin grid0.N, _)

/-- The normalisation's shift as the body reads it. -/
theorem iblk11_apply (t : Fin cfg0.N) (j : Fin 64) :
    (iblk m c 11 t : Vec Ideal S1x64 .f32) (ix2 (0 : Fin 1) j) = m ((c : Thread nD τ).loc main_arg10) (ix1 j) := by
  obtain ⟨e0, e1⟩ := idx11 t
  unfold iblk
  rw [View.read_apply]
  refine Eq.trans ?_ (HostReads.V_main_v6_apply m c j)
  show V m c main_v6 _ = V m c main_v6 _
  refine congrArg (V m c main_v6) (funext fun a => Fin.ext ?_)
  match a with
  | ⟨0, _⟩ => show win0_11.index t (0 : Fin 2) * 1 + 1 * (0 : Fin 1).val = (0 : Fin 1).val; omega
  | ⟨1, _⟩ => show win0_11.index t (1 : Fin 2) * 64 + 1 * j.val = j.val; omega

/-- Window 12's index map is constant. -/
theorem idx12 : ∀ t : Fin cfg0.N, win0_12.index t (0 : Fin 2) = 0 ∧ win0_12.index t (1 : Fin 2) = 0 :=
  (by decide +kernel : ∀ t : Fin grid0.N, _)

/-- The normalisation's mean as the body reads it. -/
theorem iblk12_apply (t : Fin cfg0.N) (j : Fin 64) :
    (iblk m c 12 t : Vec Ideal S1x64 .f32) (ix2 (0 : Fin 1) j) = m ((c : Thread nD τ).loc main_arg11) (ix1 j) := by
  obtain ⟨e0, e1⟩ := idx12 t
  unfold iblk
  rw [View.read_apply]
  refine Eq.trans ?_ (HostReads.V_main_v7_apply m c j)
  show V m c main_v7 _ = V m c main_v7 _
  refine congrArg (V m c main_v7) (funext fun a => Fin.ext ?_)
  match a with
  | ⟨0, _⟩ => show win0_12.index t (0 : Fin 2) * 1 + 1 * (0 : Fin 1).val = (0 : Fin 1).val; omega
  | ⟨1, _⟩ => show win0_12.index t (1 : Fin 2) * 64 + 1 * j.val = j.val; omega

/-- Window 13's index map is constant. -/
theorem idx13 : ∀ t : Fin cfg0.N, win0_13.index t (0 : Fin 2) = 0 ∧ win0_13.index t (1 : Fin 2) = 0 :=
  (by decide +kernel : ∀ t : Fin grid0.N, _)

/-- The normalisation's variance as the body reads it. -/
theorem iblk13_apply (t : Fin cfg0.N) (j : Fin 64) :
    (iblk m c 13 t : Vec Ideal S1x64 .f32) (ix2 (0 : Fin 1) j) = m ((c : Thread nD τ).loc main_arg12) (ix1 j) := by
  obtain ⟨e0, e1⟩ := idx13 t
  unfold iblk
  rw [View.read_apply]
  refine Eq.trans ?_ (HostReads.V_main_v8_apply m c j)
  show V m c main_v8 _ = V m c main_v8 _
  refine congrArg (V m c main_v8) (funext fun a => Fin.ext ?_)
  match a with
  | ⟨0, _⟩ => show win0_13.index t (0 : Fin 2) * 1 + 1 * (0 : Fin 1).val = (0 : Fin 1).val; omega
  | ⟨1, _⟩ => show win0_13.index t (1 : Fin 2) * 64 + 1 * j.val = j.val; omega

/-! ## The scratch buffers as the network's stages -/

/-- The first scratch buffer is the first layer's projection. -/
theorem Y1_apply (r : Fin 10000) (j : Fin 64) :
    Hand.Y1 m c (ix2 r j) = Cert.Gcn.y1 (ax m c) (aW1 m c) r j := by
  unfold Hand.Y1
  refine (Pay.pay1_apply (iblk m c 0 (pt 0 (by omega))) (iblk m c 3 (pt 0 (by omega))) r j).trans ?_
  unfold Cert.Gcn.y1
  exact Finset.sum_congr rfl fun k _ => congrArg₂ (· * ·) (iblk0_apply m c _ r k) (iblk3_apply m c _ k j)

/-- Row `r` of the first layer is computed at point `r / 400`, as offset `r % 400` of that point's block. -/
theorem H1full_eq (r : Fin 10000) (j : Fin 64) (h : r.val / 400 < 50) (h' : r.val % 400 < 400) :
    Hand.H1full m c (ix2 r j)
      = k0_pay2 (iblk m c 1 (pt (r.val / 400) h)) (Hand.Y1 m c) (iblk m c 4 (pt (r.val / 400) h))
          (ix2 (⟨r.val % 400, h'⟩ : Fin 400) j) := rfl

/-- The second scratch buffer, once filled, is the first layer. -/
theorem H1full_apply (r : Fin 10000) (j : Fin 64) :
    Hand.H1full m c (ix2 r j) = Cert.Gcn.h1 (ax m c) (aadj m c) (aW1 m c) (ab1 m c) r j := by
  have h : r.val / 400 < 50 := by have := r.isLt; omega
  have h' : r.val % 400 < 400 := Nat.mod_lt _ (by omega)
  refine (H1full_eq m c r j h h').trans ?_
  refine (Pay.pay2_apply (iblk m c 1 (pt (r.val / 400) h)) (Hand.Y1 m c) (iblk m c 4 (pt (r.val / 400) h)) ⟨r.val % 400, h'⟩ j).trans ?_
  unfold Cert.Gcn.h1
  refine congrArg Cert.Gcn.selu (congrArg₂ (· + ·) (Finset.sum_congr rfl fun k _ => ?_) ?_)
  · exact congrArg₂ (· * ·)
      (iblk1_apply m c _ _ k r (by show r.val = 400 * ((r.val / 400) % 25) + r.val % 400; have := r.isLt; omega))
      (Y1_apply m c k j)
  · exact iblk4_apply m c _ j

/-- The third scratch buffer is the second layer's projection. -/
theorem Y2_apply (r : Fin 10000) (c' : Fin 32) :
    Hand.Y2 m c (ix2 r c') = Cert.Gcn.y2 (ax m c) (aadj m c) (aW1 m c) (ab1 m c) (aW2 m c) r c' := by
  unfold Hand.Y2
  refine (Pay.pay3_apply (Hand.H1full m c) (iblk m c 5 (pt 25 (by omega))) r c').trans ?_
  unfold Cert.Gcn.y2
  exact Finset.sum_congr rfl fun j _ => congrArg₂ (· * ·) (H1full_apply m c r j) (iblk5_apply m c _ j c')

/-! ## The pooled sums, block by block -/

/-- The ten thousand rows are 25 blocks of 400. -/
theorem rows_blocks : 25 * 400 = 10000 := by norm_num

/-- From point 25 on each point adds its block of the second layer to the column sums. -/
theorem accAt_succ (k : ℕ) (h : 25 + k < 50) :
    Hand.accAt m c (k + 1)
      = k0_pay5 (iblk m c 1 (pt (25 + k) h)) (Hand.Y2 m c) (iblk m c 6 (pt (25 + k) h)) (Hand.accAt m c k) :=
  dif_pos h

/-- One step of the column sums: the sum so far plus the second layer's rows `400 k … 400 k + 399`. -/
theorem accAt_step (c' : Fin 32) (k : Fin 25) :
    Hand.accAt m c (k.val + 1) (ix2 (0 : Fin 1) c')
      = Hand.accAt m c k.val (ix2 (0 : Fin 1) c')
        + ∑ s : Fin 400, Cert.Gcn.h2 (ax m c) (aadj m c) (aW1 m c) (ab1 m c) (aW2 m c) (ab2 m c) (SumBlocks.idx rows_blocks k s) c' := by
  have h : 25 + k.val < 50 := by have := k.isLt; omega
  refine (congrFun (accAt_succ m c k.val h) (ix2 (0 : Fin 1) c')).trans ?_
  refine (Pay.pay5_apply (iblk m c 1 (pt (25 + k.val) h)) (Hand.Y2 m c) (iblk m c 6 (pt (25 + k.val) h))
    (Hand.accAt m c k.val) c').trans ?_
  refine congrArg (Hand.accAt m c k.val (ix2 (0 : Fin 1) c') + ·) (Finset.sum_congr rfl fun s _ => ?_)
  unfold Cert.Gcn.h2
  refine congrArg Cert.Gcn.selu (congrArg₂ (· + ·) (Finset.sum_congr rfl fun k' _ => ?_) ?_)
  · exact congrArg₂ (· * ·)
      (iblk1_apply m c _ s k' (SumBlocks.idx rows_blocks k s)
        (by show k.val * 400 + s.val = 400 * ((25 + k.val) % 25) + s.val; have := k.isLt; omega))
      (Y2_apply m c k' c')
  · exact iblk6_apply m c _ c'

/-- The column sums start from zero. -/
theorem accAt_zero (c' : Fin 32) : Hand.accAt m c 0 (ix2 (0 : Fin 1) c') = 0 := Pay.pay4_apply c'

/-- After `k` blocks the column sums are the second layer summed over its first `400 k` rows, block by block. -/
theorem accAt_partial (c' : Fin 32) (k : ℕ) (hk : k ≤ 25) :
    Hand.accAt m c k (ix2 (0 : Fin 1) c')
      = ∑ b : Fin k, ∑ s : Fin 400, Cert.Gcn.h2 (ax m c) (aadj m c) (aW1 m c) (ab1 m c) (aW2 m c) (ab2 m c) (SumBlocks.idx rows_blocks (Fin.castLE hk b) s) c' :=
  Cert.Lib.RunningSum.partial_sum
    (fun b : Fin 25 => ∑ s : Fin 400, Cert.Gcn.h2 (ax m c) (aadj m c) (aW1 m c) (ab1 m c) (aW2 m c) (ab2 m c) (SumBlocks.idx rows_blocks b s) c')
    (fun k => Hand.accAt m c k (ix2 (0 : Fin 1) c')) (accAt_zero m c c') (accAt_step m c c') k hk

/-- After all 25 blocks the column sums are the second layer summed over every row. -/
theorem accAt_total (c' : Fin 32) :
    Hand.accAt m c 25 (ix2 (0 : Fin 1) c') = ∑ r : Fin 10000, Cert.Gcn.h2 (ax m c) (aadj m c) (aW1 m c) (ab1 m c) (aW2 m c) (ab2 m c) r c' :=
  Cert.Lib.RunningSum.blocks_total rows_blocks (fun r => Cert.Gcn.h2 (ax m c) (aadj m c) (aW1 m c) (ab1 m c) (aW2 m c) (ab2 m c) r c')
    (fun k => Hand.accAt m c k (ix2 (0 : Fin 1) c')) (accAt_zero m c c') (accAt_step m c c')

/-! ## The two results -/

/-- The log-softmax payload over any row of logits. -/
theorem pay6_of_logits (v51 v52 : Vec Ideal S1x32 .f32) (lg : Fin 32 → EReal)
    (h : ∀ k : Fin 32, v51 (ix2 (0 : Fin 1) k) + v52 (ix2 (0 : Fin 1) k) = lg k) (c' : Fin 32) :
    k0_pay6 (F := Ideal) v51 v52 (ix2 (0 : Fin 1) c')
      = (lg c' - Finset.univ.fold max (⊥ : EReal) lg)
        - Ideal.log (∑ k : Fin 32, Ideal.exp (lg k - Finset.univ.fold max (⊥ : EReal) lg)) := by
  obtain rfl : (fun k : Fin 32 => v51 (ix2 (0 : Fin 1) k) + v52 (ix2 (0 : Fin 1) k)) = lg := funext h
  exact Pay.pay6_apply v51 v52 c'

/-- The fused classifier row plus its bias is the network's logits. -/
theorem logit_apply (t : Fin cfg0.N) (c' : Fin 32) :
    k0_pay10 (Hand.accAt m c 25) (iblk m c 2 t) (iblk m c 12 t) (iblk m c 13 t) (iblk m c 10 t) (iblk m c 11 t)
        (iblk m c 7 t) (iblk m c 8 t) (ix2 (0 : Fin 1) c')
      + (iblk m c 9 t : Vec Ideal S1x32 .f32) (ix2 (0 : Fin 1) c')
      = Cert.Gcn.logit (ax m c) (aadj m c) (asub m c) (aW1 m c) (ab1 m c) (aW2 m c) (ab2 m c) (aFW m c) (afb m c) (ag m c) (abe m c) (amu m c) (avar m c) c' := by
  refine (congrArg₂ (· + ·)
    (Pay.pay10_apply (Hand.accAt m c 25) (iblk m c 2 t) (iblk m c 12 t) (iblk m c 13 t) (iblk m c 10 t) (iblk m c 11 t)
      (iblk m c 7 t) (iblk m c 8 t) c')
    (iblk9_apply m c t c')).trans ?_
  unfold Cert.Gcn.logit
  refine congrArg (· + afb m c c') (congrArg₂ (· + ·) (Finset.sum_congr rfl fun k _ => ?_) (Finset.sum_congr rfl fun j _ => ?_))
  · unfold Cert.Gcn.pooled
    exact congrArg₂ (· * ·)
      (congrArg (fun s => Cert.Gcn.selu (s * ((1 / 10000 : ℝ) : EReal))) (accAt_total m c k))
      (iblk7_apply m c t c' k)
  · unfold Cert.Gcn.bn
    refine congrArg₂ (· * ·) ?_ (iblk8_apply m c t c' j)
    rw [iblk2_apply m c t (0 : Fin 1) j, iblk12_apply m c t j, iblk13_apply m c t j, iblk10_apply m c t j, iblk11_apply m c t j]
    rfl

/-- The first result is the log-softmax of the network's logits. -/
theorem out14_apply (t : Fin cfg0.N) (c' : Fin 32) :
    Hand.out14 m c t (ix2 (0 : Fin 1) c') = Cert.Gcn.out (ax m c) (aadj m c) (asub m c) (aW1 m c) (ab1 m c) (aW2 m c) (ab2 m c) (aFW m c) (afb m c) (ag m c) (abe m c) (amu m c) (avar m c) c' := by
  unfold Hand.out14
  refine (pay6_of_logits
    (k0_pay10 (Hand.accAt m c 25) (iblk m c 2 t) (iblk m c 12 t) (iblk m c 13 t) (iblk m c 10 t) (iblk m c 11 t)
      (iblk m c 7 t) (iblk m c 8 t))
    (iblk m c 9 t) (Cert.Gcn.logit (ax m c) (aadj m c) (asub m c) (aW1 m c) (ab1 m c) (aW2 m c) (ab2 m c) (aFW m c) (afb m c) (ag m c) (abe m c) (amu m c) (avar m c)) (fun k => logit_apply m c t k) c').trans ?_
  unfold Cert.Gcn.out Cert.Gcn.shifted Cert.Gcn.top
  rfl

/-- The second result is the mean absolute fused weight. -/
theorem out15_apply (t : Fin cfg0.N) :
    Hand.out15 m c t (ix2 (0 : Fin 1) (0 : Fin 1)) = Cert.Gcn.l1 (aFW m c) := by
  unfold Hand.out15
  have e8 : k0_pay8 (F := Ideal) (iblk m c 7 t) = iblk m c 7 t := shapeCast_self _ _
  have e9 : k0_pay9 (F := Ideal) (iblk m c 8 t) = iblk m c 8 t := shapeCast_self _ _
  refine (congrArg₂ (fun a b => k0_pay7 (F := Ideal) a b (ix2 (0 : Fin 1) (0 : Fin 1))) e8 e9).trans ?_
  refine (Pay.pay7_apply (iblk m c 7 t) (iblk m c 8 t)).trans ?_
  unfold Cert.Gcn.l1
  refine congrArg₂ (fun a b => Ideal.div (a + b) (Ideal.ofBits .f32 0x45400000#32)) ?_ ?_
  · exact Finset.sum_congr rfl fun a _ => Finset.sum_congr rfl fun k _ =>
      congrArg (FloatOps.absf (F := Ideal) (φ := .f32)) (iblk7_apply m c t a k)
  · exact Finset.sum_congr rfl fun a _ => Finset.sum_congr rfl fun j _ =>
      congrArg (FloatOps.absf (F := Ideal) (φ := .f32)) (iblk8_apply m c t a j)

end Cert.KernelIdeal.KValue

end
-- ==== Proof.KernelRun.lean ====
/-
  The kernel's run with its values: after the run the first result array holds the log-softmax of the network's logits,
  the second result the mean absolute fused weight, and every argument array what it was launched with.

  Only the last grid point writes the two result blocks back, and each block is its whole array; the scalar result is the
  one-entry second result laid out with no axes by the host line after the region.
-/
import proofs.«177514_g91036126806361_cont_sun_m_26_3_alg».proof.Proof.KernelValue
import Idealize.ShloMosaic.Lib.Pipeline.Value
import Idealize.ShloMosaic.Lib.StableHlo.Run
import Idealize.ShloMosaic.Lib.Tactic

set_option maxRecDepth 16384

noncomputable section

namespace Cert.KernelIdeal.KRun

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.KValue

variable (m : (ℓ : Loc nD τ sig) → Buf (Elt Ideal) ℓ) (ρ : Dev nD → PrngReg)

/-- The last grid point. -/
abbrev tlast : Fin cfg0.N := pt 49 (by omega)

/-- The first result's index map is constant. -/
theorem idx14 : ∀ t : Fin cfg0.N, win0_14.index t (0 : Fin 2) = 0 ∧ win0_14.index t (1 : Fin 2) = 0 :=
  (by decide +kernel : ∀ t : Fin grid0.N, _)

/-- The second result's index map is constant. -/
theorem idx15 : ∀ t : Fin cfg0.N, win0_15.index t (0 : Fin 2) = 0 ∧ win0_15.index t (1 : Fin 2) = 0 :=
  (by decide +kernel : ∀ t : Fin grid0.N, _)

/-- The one write-back of the first result, at the last point, writes the whole array. -/
theorem flushed14_eq (c : Dev nD) (t : Fin cfg0.N) (hf : (cfg0.win 14).flush t = true) :
    (dats m 0 c).flushed 14 t = ((cfg0.win 14).blk t).view.read (Elt Ideal) (out14 m c tlast) := by
  have hN : cfg0.N = 50 := N_0
  have h49 : t.val = 49 := by have := (flush0_14 t).mp hf; have := t.isLt; omega
  obtain rfl : t = tlast := Fin.ext h49
  show (cfg0.win 14).cut (grid0.coords tlast) ((dats m 0 c).after 14 tlast) = _
  rw [after0_14]
  obtain ⟨e0, e1⟩ := idx14 tlast
  have hz' : (fun a => win0_14.index tlast a * main_v9_0.ty.shape.size a) = fun _ => 0 := funext fun a => by
    match a with
    | ⟨0, _⟩ => show win0_14.index tlast (0 : Fin 2) * 1 = 0; rw [e0]
    | ⟨1, _⟩ => show win0_14.index tlast (1 : Fin 2) * 32 = 0; rw [e1]
  exact (Memref.read_access_unit_zero (Elt Ideal) main_v9_0 hz' (fun a => by rw [congrFun hz' a]; simp) (out14 m c tlast)).symm

/-- So the first result array ends holding what the last point leaves. -/
theorem final14 (c : Dev nD) : (dats m 0 c).arrAt 14 cfg0.N = out14 m c tlast :=
  (dats m 0 c).arrAt_eq_of_cover 14 (out14 m c tlast) (flushed14_eq m c) fun i =>
    ⟨tlast, (flush0_14 tlast).mpr rfl, by
      show i ∈ ((View.whole main_v9_0).slice (win0_14.rect tlast)).set
      rw [View.set_slice_whole, Rect.mem_set_unit]
      intro a
      have h0 : (i 0 : Nat) < 1 := (i 0).isLt
      have h1 : (i 1 : Nat) < 32 := (i 1).isLt
      obtain ⟨e0, e1⟩ := idx14 tlast
      match a with
      | ⟨0, _⟩ =>
        show win0_14.index tlast (0 : Fin 2) * win0_14.size 0 ≤ (i 0 : Nat) ∧ (i 0 : Nat) < win0_14.index tlast (0 : Fin 2) * win0_14.size 0 + win0_14.xsize (grid0.coords tlast) 0
        rw [e0, show win0_14.xsize (grid0.coords tlast) 0 = 1 from by decide +kernel]; omega
      | ⟨1, _⟩ =>
        show win0_14.index tlast (1 : Fin 2) * win0_14.size 1 ≤ (i 1 : Nat) ∧ (i 1 : Nat) < win0_14.index tlast (1 : Fin 2) * win0_14.size 1 + win0_14.xsize (grid0.coords tlast) 1
        rw [e1, show win0_14.xsize (grid0.coords tlast) 1 = 32 from by decide +kernel]; omega⟩

/-- The one write-back of the second result, at the last point, writes the whole array. -/
theorem flushed15_eq (c : Dev nD) (t : Fin cfg0.N) (hf : (cfg0.win 15).flush t = true) :
    (dats m 0 c).flushed 15 t = ((cfg0.win 15).blk t).view.read (Elt Ideal) (out15 m c tlast) := by
  have hN : cfg0.N = 50 := N_0
  have h49 : t.val = 49 := by have := (flush0_15 t).mp hf; have := t.isLt; omega
  obtain rfl : t = tlast := Fin.ext h49
  show (cfg0.win 15).cut (grid0.coords tlast) ((dats m 0 c).after 15 tlast) = _
  rw [after0_15]
  obtain ⟨e0, e1⟩ := idx15 tlast
  have hz' : (fun a => win0_15.index tlast a * main_v9_1.ty.shape.size a) = fun _ => 0 := funext fun a => by
    match a with
    | ⟨0, _⟩ => show win0_15.index tlast (0 : Fin 2) * 1 = 0; rw [e0]
    | ⟨1, _⟩ => show win0_15.index tlast (1 : Fin 2) * 1 = 0; rw [e1]
  exact (Memref.read_access_unit_zero (Elt Ideal) main_v9_1 hz' (fun a => by rw [congrFun hz' a]; simp) (out15 m c tlast)).symm

/-- So the second result array ends holding what the last point leaves. -/
theorem final15 (c : Dev nD) : (dats m 0 c).arrAt 15 cfg0.N = out15 m c tlast :=
  (dats m 0 c).arrAt_eq_of_cover 15 (out15 m c tlast) (flushed15_eq m c) fun i =>
    ⟨tlast, (flush0_15 tlast).mpr rfl, by
      show i ∈ ((View.whole main_v9_1).slice (win0_15.rect tlast)).set
      rw [View.set_slice_whole, Rect.mem_set_unit]
      intro a
      have h0 : (i 0 : Nat) < 1 := (i 0).isLt
      have h1 : (i 1 : Nat) < 1 := (i 1).isLt
      obtain ⟨e0, e1⟩ := idx15 tlast
      match a with
      | ⟨0, _⟩ =>
        show win0_15.index tlast (0 : Fin 2) * win0_15.size 0 ≤ (i 0 : Nat) ∧ (i 0 : Nat) < win0_15.index tlast (0 : Fin 2) * win0_15.size 0 + win0_15.xsize (grid0.coords tlast) 0
        rw [e0, show win0_15.xsize (grid0.coords tlast) 0 = 1 from by decide +kernel]; omega
      | ⟨1, _⟩ =>
        show win0_15.index tlast (1 : Fin 2) * win0_15.size 1 ≤ (i 1 : Nat) ∧ (i 1 : Nat) < win0_15.index tlast (1 : Fin 2) * win0_15.size 1 + win0_15.xsize (grid0.coords tlast) 1
        rw [e1, show win0_15.xsize (grid0.coords tlast) 1 = 1 from by decide +kernel]; omega⟩

/-- What the last point leaves in the first result, as a function of the row entry. -/
theorem out14_fn (c : Dev nD) :
    (out14 m c tlast : S1x32.Idx → EReal) = fun i => Cert.Gcn.out (ax m c) (aadj m c) (asub m c) (aW1 m c) (ab1 m c) (aW2 m c) (ab2 m c) (aFW m c) (afb m c) (ag m c) (abe m c) (amu m c) (avar m c) (i 1) := by
  funext i
  have hi : i = ix2 (0 : Fin 1) (i 1 : Fin 32) := funext fun a => by
    match a with
    | ⟨0, _⟩ => exact Fin.ext (by show (i 0).val = 0; have h0 : (i 0 : Nat) < 1 := (i 0).isLt; omega)
    | ⟨1, _⟩ => rfl
  exact (congrArg (out14 m c tlast) hi).trans (out14_apply m c tlast (i 1 : Fin 32))

/-- The scalar result after the host line that follows the region. -/
theorem tail10 (c : Dev nD) :
    Pipeline.afterTail₀ cfgs (dats m) 0 (V0 m) [hostOps1] c main_v10 = (fun _ => Cert.Gcn.l1 (aFW m c)) := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.tc.devRef main_v9_1)
      = out15 m c tlast :=
    (Pipeline.withArrays_arr spec0 launch0.win.arr_inj c _ _ 15).trans (final15 m c)
  funext i
  show shapeCast S_ (Pipeline.withArrays (cfgs 0).spec c (V0 m c) (fun w => (dats m 0 c).arrAt w (cfgs 0).N) (Proc.tc.devRef main_v9_1))
      shapeCasts_S1x1_S_ i = _
  refine (congrArg (fun x : S1x1.Idx → EReal => shapeCast S_ x shapeCasts_S1x1_S_ i) e).trans ?_
  refine (shapeCast_apply _ _ i (ix2 (0 : Fin 1) (0 : Fin 1)) ?_).trans (out15_apply m c tlast)
  rw [Shape.rowMajor_val_two]
  have h : ∀ n : Fin 1, (0 * 1 + 0 : ℕ) = n.val := fun n => by omega
  exact h (S_.rowMajor i)

/-- The kernel's run, read off any run that ends with every array of the pipeline at what the proof data computes: the two results as the network's functions of the launched arguments, the arguments unchanged. -/
theorem run_of
    (hrun : θ_run (Cert.KernelIdeal.defs (F := Ideal)) (onTc (τ := τ) (main (F := Ideal))) (s₀ m ρ)
      (Pipeline.FramePost cfgs (dats m) 0 (Pipeline.afterTail₀ cfgs (dats m) 0 (V0 m) [hostOps1]))) :
    θ_run (Cert.KernelIdeal.defs (F := Ideal)) (onTc (τ := τ) (main (F := Ideal))) ⟨m, fun _ => 0, ρ⟩ (fun r => ∀ c : Dev nD,
      r.2.mem ((c.tc : Thread nD τ).loc main_v9_0)
        = (fun i => Cert.Gcn.out (ax m c) (aadj m c) (asub m c) (aW1 m c) (ab1 m c) (aW2 m c) (ab2 m c) (aFW m c) (afb m c) (ag m c) (abe m c) (amu m c) (avar m c) (i 1))
      ∧ r.2.mem ((c.tc : Thread nD τ).loc main_v10) = (fun _ => Cert.Gcn.l1 (aFW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (Cert.KernelIdeal.defs (F := Ideal)) _ _).mono (fun _ h c => ⟨((h c).1 14).trans ((final14 m c).trans (out14_fn m c)),
      ((h c).2 main_v10 (Pipeline.mem_restRefs_of main_v10 (by decide) (by decide))).trans (tail10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    hrun

end Cert.KernelIdeal.KRun

end
-- ==== Proof.RefOps.lean ====
/-
  The reference program as one straight line of host operations.

  The unit and the log-softmax are module-local functions, which run in place on buffers of their own: the line lists
  their operations at the call sites, over each call's buffers. @main is that line run in order, and every operation
  touches TensorCore buffers only.
-/
import proofs.«177514_g91036126806361_cont_sun_m_26_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line of operations -/

/-- @main's 110 operations in order, each called function's operations at its call site over that call's buffers:
    five for the first layer, twenty-three for its unit (the comparison with zero twice, the two selections, expm1,
    the two scalings), the same for the second layer, six for the mean, the unit again, twelve for the batch-norm row,
    five for the fusion layer, five for the mean absolute value, fifteen for the log-softmax. -/
abbrev ops : List (HloOp τ sig (Elt F)) :=
  [ binary main_arg0 main_arg3 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v0 main_v1 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg4 main_v2 (broadcastInDim S1x64 ![1] bcast_S64_S1x64_1 : (⟨S64, .f32⟩ : BufTy).Contents (Elt F) → (⟨S1x64, .f32⟩ : BufTy).Contents (Elt F)),
    unary main_v2 main_v3 (broadcastInDim S10000x64 ![0, 1] bcast_S1x64_S10000x64_0_1 : (⟨S1x64, .f32⟩ : BufTy).Contents (Elt F) → (⟨S10000x64, .f32⟩ : BufTy).Contents (Elt F)),
    binary main_v1 main_v3 main_v4 (addf : (⟨S10000x64, .f32⟩ : BufTy).Contents (Elt F) → (⟨S10000x64, .f32⟩ : BufTy).Contents (Elt F) → (⟨S10000x64, .f32⟩ : BufTy).Contents (Elt F)),
    TRef.nullary main_call0.cst (constant S_ .f32 0x3FD62D7D#32),
    TRef.nullary main_call0_call0.cst (constant S_ .f32 0x00000000#32),
    TRef.unary main_call0_call0.cst main_call0_call0.v0 (broadcastInDim S10000x64 ![] bcast_S_S10000x64),
    TRef.binary (.of main_v4 : TRef sig ⟨S10000x64, .f32⟩) main_call0_call0.v0 main_call0_call0.v1 (cmpf .ogt),
    TRef.nullary main_call0_call0.cst_0 (constant S_ .f32 0x00000000#32),
    TRef.unary main_call0_call0.cst_0 main_call0_call0.v2 (broadcastInDim S10000x64 ![] bcast_S_S10000x64),
    TRef.binary (.of main_v4 : TRef sig ⟨S10000x64, .f32⟩) main_call0_call0.v2 main_call0_call0.v3 (cmpf .ogt),
    TRef.nullary main_call0_call0.cst_1 (constant S_ .f32 0x00000000#32),
    TRef.unary main_call0_call0.cst_1 main_call0_call0_call0.v0 id,
    TRef.unary main_call0_call0_call0.v0 main_call0_call0_call0.v1 (broadcastInDim S10000x64 ![] bcast_S_S10000x64),
    TRef.ternary main_call0_call0.v3 main_call0_call0_call0.v1 (.of main_v4 : TRef sig ⟨S10000x64, .f32⟩) main_call0_call0_call0.v2 select,
    TRef.unary main_call0_call0_call0.v2 main_call0_call0.v5 Host.expm1,
    TRef.unary main_call0.cst main_call0_call0.v6 id,
    TRef.unary main_call0_call0.v6 main_call0_call0.v7 (broadcastInDim S10000x64 ![] bcast_S_S10000x64),
    TRef.binary main_call0_call0.v7 main_call0_call0.v5 main_call0_call0.v8 mulf,
    TRef.ternary main_call0_call0.v1 (.of main_v4 : TRef sig ⟨S10000x64, .f32⟩) main_call0_call0.v8 main_call0_call0_call1.v0 select,
    TRef.nullary main_call0.cst_0 (constant S_ .f32 0x3F867D5F#32),
    TRef.unary main_call0.cst_0 main_call0.v1 (broadcastInDim S10000x64 ![] bcast_S_S10000x64),
    TRef.binary main_call0.v1 main_call0_call0_call1.v0 main_call0.v2 mulf,
    binary main_v5 main_arg5 main_v6 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F)),
    binary main_arg1 main_v6 main_v7 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    unary main_arg6 main_v8 (broadcastInDim S1x32 ![1] bcast_S32_S1x32_1 : (⟨S32, .f32⟩ : BufTy).Contents (Elt F) → (⟨S1x32, .f32⟩ : BufTy).Contents (Elt F)),
    unary main_v8 main_v9 (broadcastInDim S10000x32 ![0, 1] bcast_S1x32_S10000x32_0_1 : (⟨S1x32, .f32⟩ : BufTy).Contents (Elt F) → (⟨S10000x32, .f32⟩ : BufTy).Contents (Elt F)),
    binary main_v7 main_v9 main_v10 (addf : (⟨S10000x32, .f32⟩ : BufTy).Contents (Elt F) → (⟨S10000x32, .f32⟩ : BufTy).Contents (Elt F) → (⟨S10000x32, .f32⟩ : BufTy).Contents (Elt F)),
    TRef.nullary main_call1.cst (constant S_ .f32 0x3FD62D7D#32),
    TRef.nullary main_call1_call0.cst (constant S_ .f32 0x00000000#32),
    TRef.unary main_call1_call0.cst main_call1_call0.v0 (broadcastInDim S10000x32 ![] bcast_S_S10000x32),
    TRef.binary (.of main_v10 : TRef sig ⟨S10000x32, .f32⟩) main_call1_call0.v0 main_call1_call0.v1 (cmpf .ogt),
    TRef.nullary main_call1_call0.cst_0 (constant S_ .f32 0x00000000#32),
    TRef.unary main_call1_call0.cst_0 main_call1_call0.v2 (broadcastInDim S10000x32 ![] bcast_S_S10000x32),
    TRef.binary (.of main_v10 : TRef sig ⟨S10000x32, .f32⟩) main_call1_call0.v2 main_call1_call0.v3 (cmpf .ogt),
    TRef.nullary main_call1_call0.cst_1 (constant S_ .f32 0x00000000#32),
    TRef.unary main_call1_call0.cst_1 main_call1_call0_call0.v0 id,
    TRef.unary main_call1_call0_call0.v0 main_call1_call0_call0.v1 (broadcastInDim S10000x32 ![] bcast_S_S10000x32),
    TRef.ternary main_call1_call0.v3 main_call1_call0_call0.v1 (.of main_v10 : TRef sig ⟨S10000x32, .f32⟩) main_call1_call0_call0.v2 select,
    TRef.unary main_call1_call0_call0.v2 main_call1_call0.v5 Host.expm1,
    TRef.unary main_call1.cst main_call1_call0.v6 id,
    TRef.unary main_call1_call0.v6 main_call1_call0.v7 (broadcastInDim S10000x32 ![] bcast_S_S10000x32),
    TRef.binary main_call1_call0.v7 main_call1_call0.v5 main_call1_call0.v8 mulf,
    TRef.ternary main_call1_call0.v1 (.of main_v10 : TRef sig ⟨S10000x32, .f32⟩) main_call1_call0.v8 main_call1_call0_call1.v0 select,
    TRef.nullary main_call1.cst_0 (constant S_ .f32 0x3F867D5F#32),
    TRef.unary main_call1.cst_0 main_call1.v1 (broadcastInDim S10000x32 ![] bcast_S_S10000x32),
    TRef.binary main_call1.v1 main_call1_call0_call1.v0 main_call1.v2 mulf,
    nullary main_cst (constant S_ .f32 0x00000000#32),
    binary main_v11 main_cst main_v12 ((fun x v => Host.reduceAdd x v reducesTo_S10000x32_S32_d0 h_S_) : (⟨S10000x32, .f32⟩ : BufTy).Contents (Elt F) → (⟨S_, .f32⟩ : BufTy).Contents (Elt F) → (⟨S32, .f32⟩ : BufTy).Contents (Elt F)),
    unary main_v12 main_v13 (broadcastInDim S1x32 ![1] bcast_S32_S1x32_1 : (⟨S32, .f32⟩ : BufTy).Contents (Elt F) → (⟨S1x32, .f32⟩ : BufTy).Contents (Elt F)),
    nullary main_cst_0 (constant S_ .f32 0x461C4000#32),
    unary main_cst_0 main_v14 (broadcastInDim S1x32 ![] bcast_S_S1x32 : (⟨S_, .f32⟩ : BufTy).Contents (Elt F) → (⟨S1x32, .f32⟩ : BufTy).Contents (Elt F)),
    binary main_v13 main_v14 main_v15 (Host.divf : (⟨S1x32, .f32⟩ : BufTy).Contents (Elt F) → (⟨S1x32, .f32⟩ : BufTy).Contents (Elt F) → (⟨S1x32, .f32⟩ : BufTy).Contents (Elt F)),
    TRef.nullary main_call2.cst (constant S_ .f32 0x3FD62D7D#32),
    TRef.nullary main_call2_call0.cst (constant S_ .f32 0x00000000#32),
    TRef.unary main_call2_call0.cst main_call2_call0.v0 (broadcastInDim S1x32 ![] bcast_S_S1x32),
    TRef.binary (.of main_v15 : TRef sig ⟨S1x32, .f32⟩) main_call2_call0.v0 main_call2_call0.v1 (cmpf .ogt),
    TRef.nullary main_call2_call0.cst_0 (constant S_ .f32 0x00000000#32),
    TRef.unary main_call2_call0.cst_0 main_call2_call0.v2 (broadcastInDim S1x32 ![] bcast_S_S1x32),
    TRef.binary (.of main_v15 : TRef sig ⟨S1x32, .f32⟩) main_call2_call0.v2 main_call2_call0.v3 (cmpf .ogt),
    TRef.nullary main_call2_call0.cst_1 (constant S_ .f32 0x00000000#32),
    TRef.unary main_call2_call0.cst_1 main_call2_call0_call0.v0 id,
    TRef.unary main_call2_call0_call0.v0 main_call2_call0_call0.v1 (broadcastInDim S1x32 ![] bcast_S_S1x32),
    TRef.ternary main_call2_call0.v3 main_call2_call0_call0.v1 (.of main_v15 : TRef sig ⟨S1x32, .f32⟩) main_call2_call0_call0.v2 select,
    TRef.unary main_call2_call0_call0.v2 main_call2_call0.v5 Host.expm1,
    TRef.unary main_call2.cst main_call2_call0.v6 id,
    TRef.unary main_call2_call0.v6 main_call2_call0.v7 (broadcastInDim S1x32 ![] bcast_S_S1x32),
    TRef.binary main_call2_call0.v7 main_call2_call0.v5 main_call2_call0.v8 mulf,
    TRef.ternary main_call2_call0.v1 (.of main_v15 : TRef sig ⟨S1x32, .f32⟩) main_call2_call0.v8 main_call2_call0_call1.v0 select,
    TRef.nullary main_call2.cst_0 (constant S_ .f32 0x3F867D5F#32),
    TRef.unary main_call2.cst_0 main_call2.v1 (broadcastInDim S1x32 ![] bcast_S_S1x32),
    TRef.binary main_call2.v1 main_call2_call0_call1.v0 main_call2.v2 mulf,
    unary main_arg11 main_v17 (broadcastInDim S1x64 ![1] bcast_S64_S1x64_1 : (⟨S64, .f32⟩ : BufTy).Contents (Elt F) → (⟨S1x64, .f32⟩ : BufTy).Contents (Elt F)),
    binary main_arg2 main_v17 main_v18 (subf : (⟨S1x64, .f32⟩ : BufTy).Contents (Elt F) → (⟨S1x64, .f32⟩ : BufTy).Contents (Elt F) → (⟨S1x64, .f32⟩ : BufTy).Contents (Elt F)),
    nullary main_cst_1 (constant S_ .f32 0x3727C5AC#32),
    unary main_cst_1 main_v19 (broadcastInDim S64 ![] bcast_S_S64 : (⟨S_, .f32⟩ : BufTy).Contents (Elt F) → (⟨S64, .f32⟩ : BufTy).Contents (Elt F)),
    binary main_arg12 main_v19 main_v20 (addf : (⟨S64, .f32⟩ : BufTy).Contents (Elt F) → (⟨S64, .f32⟩ : BufTy).Contents (Elt F) → (⟨S64, .f32⟩ : BufTy).Contents (Elt F)),
    unary main_v20 main_v21 (Host.sqrt : (⟨S64, .f32⟩ : BufTy).Contents (Elt F) → (⟨S64, .f32⟩ : BufTy).Contents (Elt F)),
    unary main_v21 main_v22 (broadcastInDim S1x64 ![1] bcast_S64_S1x64_1 : (⟨S64, .f32⟩ : BufTy).Contents (Elt F) → (⟨S1x64, .f32⟩ : BufTy).Contents (Elt F)),
    binary main_v18 main_v22 main_v23 (Host.divf : (⟨S1x64, .f32⟩ : BufTy).Contents (Elt F) → (⟨S1x64, .f32⟩ : BufTy).Contents (Elt F) → (⟨S1x64, .f32⟩ : BufTy).Contents (Elt F)),
    unary main_arg9 main_v24 (broadcastInDim S1x64 ![1] bcast_S64_S1x64_1 : (⟨S64, .f32⟩ : BufTy).Contents (Elt F) → (⟨S1x64, .f32⟩ : BufTy).Contents (Elt F)),
    binary main_v23 main_v24 main_v25 (mulf : (⟨S1x64, .f32⟩ : BufTy).Contents (Elt F) → (⟨S1x64, .f32⟩ : BufTy).Contents (Elt F) → (⟨S1x64, .f32⟩ : BufTy).Contents (Elt F)),
    unary main_arg10 main_v26 (broadcastInDim S1x64 ![1] bcast_S64_S1x64_1 : (⟨S64, .f32⟩ : BufTy).Contents (Elt F) → (⟨S1x64, .f32⟩ : BufTy).Contents (Elt F)),
    binary main_v25 main_v26 main_v27 (addf : (⟨S1x64, .f32⟩ : BufTy).Contents (Elt F) → (⟨S1x64, .f32⟩ : BufTy).Contents (Elt F) → (⟨S1x64, .f32⟩ : BufTy).Contents (Elt F)),
    binary main_v16 main_v27 main_v28 ((fun a b => concatenate S1x96 1 [⟨S1x32, a⟩, ⟨S1x64, b⟩] concatenates_S1x32_S1x64_S1x96_d1) : (⟨S1x32, .f32⟩ : BufTy).Contents (Elt F) → (⟨S1x64, .f32⟩ : BufTy).Contents (Elt F) → (⟨S1x96, .f32⟩ : BufTy).Contents (Elt F)),
    unary main_arg7 main_v29 ((transpose S96x32 [1, 0] · transposes_S32x96_S96x32_1_0) : (⟨S32x96, .f32⟩ : BufTy).Contents (Elt F) → (⟨S96x32, .f32⟩ : BufTy).Contents (Elt F)),
    binary main_v28 main_v29 main_v30 ((fun l r => Host.dotGeneral dot_S1x96_S96x32_S1x32_1_0_0_1_n_n none l r) : (⟨S1x96, .f32⟩ : BufTy).Contents (Elt F) → (⟨S96x32, .f32⟩ : BufTy).Contents (Elt F) → (⟨S1x32, .f32⟩ : BufTy).Contents (Elt F)),
    unary main_arg8 main_v31 (broadcastInDim S1x32 ![1] bcast_S32_S1x32_1 : (⟨S32, .f32⟩ : BufTy).Contents (Elt F) → (⟨S1x32, .f32⟩ : BufTy).Contents (Elt F)),
    binary main_v30 main_v31 main_v32 (addf : (⟨S1x32, .f32⟩ : BufTy).Contents (Elt F) → (⟨S1x32, .f32⟩ : BufTy).Contents (Elt F) → (⟨S1x32, .f32⟩ : BufTy).Contents (Elt F)),
    unary main_arg7 main_v33 (Host.absf : (⟨S32x96, .f32⟩ : BufTy).Contents (Elt F) → (⟨S32x96, .f32⟩ : BufTy).Contents (Elt F)),
    nullary main_cst_2 (constant S_ .f32 0x00000000#32),
    binary main_v33 main_cst_2 main_v34 ((fun x v => Host.reduceAdd x v reducesTo_S32x96_S_d0_1 h_S_) : (⟨S32x96, .f32⟩ : BufTy).Contents (Elt F) → (⟨S_, .f32⟩ : BufTy).Contents (Elt F) → (⟨S_, .f32⟩ : BufTy).Contents (Elt F)),
    nullary main_cst_3 (constant S_ .f32 0x45400000#32),
    binary main_v34 main_cst_3 main_v35 (Host.divf : (⟨S_, .f32⟩ : BufTy).Contents (Elt F) → (⟨S_, .f32⟩ : BufTy).Contents (Elt F) → (⟨S_, .f32⟩ : BufTy).Contents (Elt F)),
    TRef.nullary main_call3.cst (constant S_ .f32 0xFF800000#32),
    TRef.binary (.of main_v32 : TRef sig ⟨S1x32, .f32⟩) main_call3.cst main_call3.v0 (fun x v => Host.reduce FloatOps.maximumf x v reducesTo_S1x32_S1_d1 h_S_),
    TRef.nullary main_call3.cst_0 (constant S_ .f32 0xFF800000#32),
    TRef.unary main_call3.cst_0 main_call3.v1 (broadcastInDim S1 ![] bcast_S_S1),
    TRef.binary main_call3.v1 main_call3.v0 main_call3.v2 maximumf,
    TRef.unary main_call3.v2 main_call3.v3 (broadcastInDim S1x1 ![0] bcast_S1_S1x1_0),
    TRef.unary main_call3.v3 main_call3.v4 (broadcastInDim S1x32 ![0, 1] bcast_S1x1_S1x32_0_1),
    TRef.binary (.of main_v32 : TRef sig ⟨S1x32, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S1x32_S1_d1 h_S_),
    TRef.unary main_call3.v7 main_call3.v8 (broadcastInDim S1x1 ![0] bcast_S1_S1x1_0),
    TRef.unary main_call3.v8 main_call3.v9 Host.log,
    TRef.unary main_call3.v9 main_call3.v10 (broadcastInDim S1x32 ![0, 1] bcast_S1x1_S1x32_0_1),
    TRef.binary main_call3.v5 main_call3.v10 main_call3.v11 subf ]

set_option maxHeartbeats 4000000 in
/-- @main is that line: the functions' bodies unfolded at their calls, and sequencing reassociated. -/
theorem main_eq (c : Dev nD) : main (F := F) c = seq ops := by
  simp only [main, fn_where.body, fn_where_0.body, fn_elu.body, fn_selu.body, fn_where_3.body, fn_where_4.body, fn_elu_2.body, fn_selu_1.body, fn_where_7.body, fn_where_8.body, fn_elu_6.body, fn_selu_5.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., nullary_bufs_sub .., binary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.ReferenceIdeal.RefRun

end
-- ==== Proof.RefStages.lean ====
/-
  The reference network's stages, each a function of the arrays it reads.

  The reference is two graph-convolution layers (adj · (h · W) + b, the bias broadcast along the rows), each followed
  by the scaled exponential linear unit; the mean over the 10000 rows; the unit once more on that row; a batch-norm
  row ((s − μ) / sqrt(var + ε) · γ + β) of the side features; the two rows joined into 96 entries and multiplied by
  the transposed fusion matrix, plus its bias; the mean absolute value of the fusion matrix; and the row's
  log-softmax. Each stage is the program's own operations composed; the two results are the stages composed over the
  argument arrays at launch (`outTerm`, `l1Term`).
-/
import proofs.«177514_g91036126806361_cont_sun_m_26_3_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The scaled exponential linear unit, entry by entry, on a vector of shape `S`:
    scale · (v where v > 0, else alpha · expm1 (0 where v > 0, else v)). -/
def seluV (S : Shape) (hb : S_.BroadcastsInDim S (![] : Fin 0 → Fin S.rank)) (v : FVec F S .f32) : FVec F S .f32 :=
  mulf (broadcastInDim S ![] hb (constant S_ .f32 0x3F867D5F#32))
    (select (cmpf .ogt v (broadcastInDim S ![] hb (constant S_ .f32 0x00000000#32))) v
      (mulf (broadcastInDim S ![] hb (constant S_ .f32 0x3FD62D7D#32))
        (Host.expm1 (select (cmpf .ogt v (broadcastInDim S ![] hb (constant S_ .f32 0x00000000#32)))
          (broadcastInDim S ![] hb (constant S_ .f32 0x00000000#32)) v))))

/-- The first layer before its unit: adj · (x · W1) + b1, the bias broadcast along the rows. -/
def layer1 (x : FVec F S10000x128 .f32) (adj : FVec F S10000x10000 .f32) (W : FVec F S128x64 .f32) (b : FVec F S64 .f32) :
    FVec F S10000x64 .f32 :=
  addf (Host.dotGeneral dot_S10000x10000_S10000x64_S10000x64_1_0_0_1_n_n none adj
      (Host.dotGeneral dot_S10000x128_S128x64_S10000x64_1_0_0_1_n_n none x W))
    (broadcastInDim S10000x64 ![0, 1] bcast_S1x64_S10000x64_0_1 (broadcastInDim S1x64 ![1] bcast_S64_S1x64_1 b))

/-- The second layer before its unit: adj · (h · W2) + b2. -/
def layer2 (h : FVec F S10000x64 .f32) (adj : FVec F S10000x10000 .f32) (W : FVec F S64x32 .f32) (b : FVec F S32 .f32) :
    FVec F S10000x32 .f32 :=
  addf (Host.dotGeneral dot_S10000x10000_S10000x32_S10000x32_1_0_0_1_n_n none adj
      (Host.dotGeneral dot_S10000x64_S64x32_S10000x32_1_0_0_1_n_n none h W))
    (broadcastInDim S10000x32 ![0, 1] bcast_S1x32_S10000x32_0_1 (broadcastInDim S1x32 ![1] bcast_S32_S1x32_1 b))

/-- The mean over the 10000 rows, as a row: the column sums from zero, divided by 10000. -/
def colMean (h : FVec F S10000x32 .f32) : FVec F S1x32 .f32 :=
  Host.divf (broadcastInDim S1x32 ![1] bcast_S32_S1x32_1
      (Host.reduceAdd h (constant S_ .f32 0x00000000#32) reducesTo_S10000x32_S32_d0 h_S_))
    (broadcastInDim S1x32 ![] bcast_S_S1x32 (constant S_ .f32 0x461C4000#32))

/-- The batch-norm row of the side features: (s − μ) / sqrt (var + ε) · γ + β. -/
def bnRow (s : FVec F S1x64 .f32) (mu var g be : FVec F S64 .f32) : FVec F S1x64 .f32 :=
  addf (mulf (Host.divf (subf s (broadcastInDim S1x64 ![1] bcast_S64_S1x64_1 mu))
        (broadcastInDim S1x64 ![1] bcast_S64_S1x64_1
          (Host.sqrt (addf var (broadcastInDim S64 ![] bcast_S_S64 (constant S_ .f32 0x3727C5AC#32))))))
      (broadcastInDim S1x64 ![1] bcast_S64_S1x64_1 g))
    (broadcastInDim S1x64 ![1] bcast_S64_S1x64_1 be)

/-- The fusion layer: the pooled row and the batch-norm row joined, times the transposed fusion matrix, plus the bias. -/
def logits (p : FVec F S1x32 .f32) (s : FVec F S1x64 .f32) (fw : FVec F S32x96 .f32) (fb : FVec F S32 .f32) :
    FVec F S1x32 .f32 :=
  addf (Host.dotGeneral dot_S1x96_S96x32_S1x32_1_0_0_1_n_n none
      (concatenate S1x96 1 [⟨S1x32, p⟩, ⟨S1x64, s⟩] concatenates_S1x32_S1x64_S1x96_d1)
      (transpose S96x32 [1, 0] fw transposes_S32x96_S96x32_1_0))
    (broadcastInDim S1x32 ![1] bcast_S32_S1x32_1 fb)

/-- The mean absolute value of the fusion matrix: the sum of |w| over all 3072 entries from zero, divided by 3072. -/
def l1Mean (fw : FVec F S32x96 .f32) : FVec F S_ .f32 :=
  Host.divf (Host.reduceAdd (Host.absf fw) (constant S_ .f32 0x00000000#32) reducesTo_S32x96_S_d0_1 h_S_)
    (constant S_ .f32 0x45400000#32)

/-- A row minus its largest entry (the maximum folded from −∞, and once more against −∞). -/
def shiftedRow (z : FVec F S1x32 .f32) : FVec F S1x32 .f32 :=
  subf z (broadcastInDim S1x32 ![0, 1] bcast_S1x1_S1x32_0_1 (broadcastInDim S1x1 ![0] bcast_S1_S1x1_0
    (maximumf (broadcastInDim S1 ![] bcast_S_S1 (constant S_ .f32 0xFF800000#32))
      (Host.reduce FloatOps.maximumf z (constant S_ .f32 0xFF800000#32) reducesTo_S1x32_S1_d1 h_S_))))

/-- The log-softmax of a row: the shifted row minus the logarithm of the sum of its exponentials. -/
def logSoftmaxRow (z : FVec F S1x32 .f32) : FVec F S1x32 .f32 :=
  subf (shiftedRow z) (broadcastInDim S1x32 ![0, 1] bcast_S1x1_S1x32_0_1 (Host.log (broadcastInDim S1x1 ![0] bcast_S1_S1x1_0
    (Host.reduceAdd (Host.exp (shiftedRow z)) (constant S_ .f32 0x00000000#32) reducesTo_S1x32_S1_d1 h_S_))))

/-- The pooled row: both layers with their units, the mean over the rows, and the unit once more. -/
def pooledRow (x : FVec F S10000x128 .f32) (adj : FVec F S10000x10000 .f32) (W1 : FVec F S128x64 .f32) (b1 : FVec F S64 .f32)
    (W2 : FVec F S64x32 .f32) (b2 : FVec F S32 .f32) : FVec F S1x32 .f32 :=
  seluV S1x32 bcast_S_S1x32 (colMean (seluV S10000x32 bcast_S_S10000x32
    (layer2 (seluV S10000x64 bcast_S_S10000x64 (layer1 x adj W1 b1)) adj W2 b2)))

/-- The first result as a function of the argument arrays at launch: the log-softmax of the fusion layer's row. -/
def outTerm (m : (ℓ : Loc nD τ sig) → Buf (Elt F) ℓ) (c : Dev nD) : FVec F S1x32 .f32 :=
  logSoftmaxRow (logits (pooledRow (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
    (bnRow (m ((c.tc : Thread nD τ).loc main_arg2)) (m ((c.tc : Thread nD τ).loc main_arg11)) (m ((c.tc : Thread nD τ).loc main_arg12)) (m ((c.tc : Thread nD τ).loc main_arg9)) (m ((c.tc : Thread nD τ).loc main_arg10))) (m ((c.tc : Thread nD τ).loc main_arg7)) (m ((c.tc : Thread nD τ).loc main_arg8)))

/-- The second result as a function of the argument arrays at launch: the mean absolute value of the fusion matrix. -/
def l1Term (m : (ℓ : Loc nD τ sig) → Buf (Elt F) ℓ) (c : Dev nD) : FVec F S_ .f32 :=
  l1Mean (m ((c.tc : Thread nD τ).loc main_arg7))

end Cert.ReferenceIdeal.RefRun

end
-- ==== Proof.LibTypedRefCasts.lean ====
/-
  Typed references to host buffers: contents carried to the buffer's own type and back.

  A host operation of a called function is spelt over typed references: each operand's contents are carried from the
  buffer's type to the value's type on the way in, and the result back on the way out. When such operations are
  composed, every intermediate value appears carried out and straight back in. That round trip is the identity, for
  any signature, any element values and any buffer type; rewriting with it leaves the composed operations bare.
-/
import Idealize.ShloMosaic.Lib.StableHlo

namespace Cert.Lib.TypedRefCasts

open Idealize.ShloMosaic Idealize.ShloMosaic.StableHlo

/-- Contents carried to a typed reference's buffer type and back are the contents: `x.ofBuf (x.toBuf v) = v`.
    Use it as a rewrite rule (`simp only [ofBuf_toBuf]`) on the composed term of a list of typed-reference host
    operations, before comparing that term with anything: it removes every paired transport and leaves only the
    transports at the argument buffers and at the result. -/
theorem ofBuf_toBuf {sig : RefSig} {Val : EltTy → Type} {T : BufTy} (x : TRef sig T) (v : T.Contents Val) :
    x.ofBuf (x.toBuf v) = v := by
  obtain ⟨r, rfl, _, _⟩ := x
  rfl

end Cert.Lib.TypedRefCasts
-- ==== Proof.RefOut.lean ====
/-
  The two result buffers after the line of operations, from the launch contents: the stages composed.

  Folding the line at a result buffer rewrites each operation's result at its own buffer to its function's value
  and at any other buffer to what was there; the contents carried to a called function's buffer types and straight
  back are the contents.
-/
import proofs.«177514_g91036126806361_cont_sun_m_26_3_alg».proof.Proof.RefOps
import proofs.«177514_g91036126806361_cont_sun_m_26_3_alg».proof.Proof.RefStages
import proofs.«177514_g91036126806361_cont_sun_m_26_3_alg».proof.Proof.LibTypedRefCasts

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line folded -/

set_option maxHeartbeats 4000000 in
/-- The contents of the first result's buffer after the line, from the launch contents: the stages composed. -/
theorem out_eq (m : (ℓ : Loc nD τ sig) → Buf (Elt F) ℓ) (c : Dev nD) :
    after ops (launchContents m c) (Proc.devRef .tc main_v36) = outTerm m c := by
  after_results_simp
  simp only [Cert.Lib.TypedRefCasts.ofBuf_toBuf]
  rfl

/-- The contents of the second result's buffer after the line. -/
theorem l1_eq (m : (ℓ : Loc nD τ sig) → Buf (Elt F) ℓ) (c : Dev nD) :
    after ops (launchContents m c) (Proc.devRef .tc main_v35) = l1Term m c := by
  after_results_simp
  rfl

end Cert.ReferenceIdeal.RefRun

end
-- ==== Proof.RefArgs.lean ====
/-
  No operation of the line writes an argument buffer: each ends as it began.
-/
import proofs.«177514_g91036126806361_cont_sun_m_26_3_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem arg0_eq (m : (ℓ : Loc nD τ sig) → Buf (Elt F) ℓ) (c : Dev nD) :
    after ops (launchContents m c) (Proc.devRef .tc main_arg0) = m ((c.tc : Thread nD τ).loc main_arg0) := by
  after_results_simp
  try rfl

theorem arg1_eq (m : (ℓ : Loc nD τ sig) → Buf (Elt F) ℓ) (c : Dev nD) :
    after ops (launchContents m c) (Proc.devRef .tc main_arg1) = m ((c.tc : Thread nD τ).loc main_arg1) := by
  after_results_simp
  try rfl

theorem arg2_eq (m : (ℓ : Loc nD τ sig) → Buf (Elt F) ℓ) (c : Dev nD) :
    after ops (launchContents m c) (Proc.devRef .tc main_arg2) = m ((c.tc : Thread nD τ).loc main_arg2) := by
  after_results_simp
  try rfl

theorem arg3_eq (m : (ℓ : Loc nD τ sig) → Buf (Elt F) ℓ) (c : Dev nD) :
    after ops (launchContents m c) (Proc.devRef .tc main_arg3) = m ((c.tc : Thread nD τ).loc main_arg3) := by
  after_results_simp
  try rfl

theorem arg4_eq (m : (ℓ : Loc nD τ sig) → Buf (Elt F) ℓ) (c : Dev nD) :
    after ops (launchContents m c) (Proc.devRef .tc main_arg4) = m ((c.tc : Thread nD τ).loc main_arg4) := by
  after_results_simp
  try rfl

theorem arg5_eq (m : (ℓ : Loc nD τ sig) → Buf (Elt F) ℓ) (c : Dev nD) :
    after ops (launchContents m c) (Proc.devRef .tc main_arg5) = m ((c.tc : Thread nD τ).loc main_arg5) := by
  after_results_simp
  try rfl

theorem arg6_eq (m : (ℓ : Loc nD τ sig) → Buf (Elt F) ℓ) (c : Dev nD) :
    after ops (launchContents m c) (Proc.devRef .tc main_arg6) = m ((c.tc : Thread nD τ).loc main_arg6) := by
  after_results_simp
  try rfl

theorem arg7_eq (m : (ℓ : Loc nD τ sig) → Buf (Elt F) ℓ) (c : Dev nD) :
    after ops (launchContents m c) (Proc.devRef .tc main_arg7) = m ((c.tc : Thread nD τ).loc main_arg7) := by
  after_results_simp
  try rfl

theorem arg8_eq (m : (ℓ : Loc nD τ sig) → Buf (Elt F) ℓ) (c : Dev nD) :
    after ops (launchContents m c) (Proc.devRef .tc main_arg8) = m ((c.tc : Thread nD τ).loc main_arg8) := by
  after_results_simp
  try rfl

theorem arg9_eq (m : (ℓ : Loc nD τ sig) → Buf (Elt F) ℓ) (c : Dev nD) :
    after ops (launchContents m c) (Proc.devRef .tc main_arg9) = m ((c.tc : Thread nD τ).loc main_arg9) := by
  after_results_simp
  try rfl

theorem arg10_eq (m : (ℓ : Loc nD τ sig) → Buf (Elt F) ℓ) (c : Dev nD) :
    after ops (launchContents m c) (Proc.devRef .tc main_arg10) = m ((c.tc : Thread nD τ).loc main_arg10) := by
  after_results_simp
  try rfl

theorem arg11_eq (m : (ℓ : Loc nD τ sig) → Buf (Elt F) ℓ) (c : Dev nD) :
    after ops (launchContents m c) (Proc.devRef .tc main_arg11) = m ((c.tc : Thread nD τ).loc main_arg11) := by
  after_results_simp
  try rfl

theorem arg12_eq (m : (ℓ : Loc nD τ sig) → Buf (Elt F) ℓ) (c : Dev nD) :
    after ops (launchContents m c) (Proc.devRef .tc main_arg12) = m ((c.tc : Thread nD τ).loc main_arg12) := by
  after_results_simp
  try rfl

end Cert.ReferenceIdeal.RefRun

end
-- ==== Proof.RefRun.lean ====
/-
  The reference's run: every weakly fair execution terminates with the two results at the stages composed over the
  arguments' launch contents, and the arguments unchanged.
-/
import proofs.«177514_g91036126806361_cont_sun_m_26_3_alg».proof.Proof.RefOut
import proofs.«177514_g91036126806361_cont_sun_m_26_3_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The run -/

/-- On every device, for any float values, from any memory with zero counters: every weakly fair execution of @main
    terminates with the two results at the stages composed over the launch contents of the arguments, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v36) = outTerm m c
      ∧ r.2.mem ((c.tc : Thread nD τ).loc main_v35) = l1Term m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v36).trans (out_eq m c), (h c main_v35).trans (l1_eq m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c),
      (h c main_arg6).trans (arg6_eq m c),
      (h c main_arg7).trans (arg7_eq m c),
      (h c main_arg8).trans (arg8_eq m c),
      (h c main_arg9).trans (arg9_eq m c),
      (h c main_arg10).trans (arg10_eq m c),
      (h c main_arg11).trans (arg11_eq m c),
      (h c main_arg12).trans (arg12_eq m c)⟩)
    (run_seq scopedRefs_eq scopedSems_eq defs main (fun _ => ops) main_eq (fun _ => ops_sub) m ρ)

end Cert.ReferenceIdeal.RefRun

end
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.LibHostRows.lean ====
/-
  The host's two bias-row broadcasts read at coordinates, for any element type and any extents.

  A host program adds a bias vector to every row of a matrix in two steps: the vector `[b]` is laid along a new
  leading unit axis (`broadcast_in_dim`, dims = [1], into `[1, b]`), and that unit row is repeated down the rows
  (`broadcast_in_dim`, dims = [0, 1], into `[a, b]`).  Read at `(u, c)` the first is the vector at `c`; read at
  `(p, c)` the second is the unit row at `(0, c)`.  (The column counterparts, dims = [0] and a column repeated along
  the row, are the host keepdims forms.)
-/
import Idealize.ShloMosaic.Lib.ValueIdx
import Idealize.ShloMosaic.Lib.Pipeline.Value
import Idealize.ShloMosaic.Lib.ValueLayout

noncomputable section

namespace Cert.Lib.HostRows

open Idealize.ShloMosaic Idealize.ShloMosaic.ValueIdx

/-- A vector laid along a unit row reads, at `(u, c)`, the vector at `c`. -/
theorem bcast_b_1b_apply {α : Type} {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) :=
  broadcastInDim_apply ![1] h x (ix2 u c) (ix1 c) (fun k => by
    match k with
    | ⟨0, _⟩ =>
      show c.val = if b = 1 then 0 else c.val
      split_ifs with h1
      · have := c.isLt; omega
      · rfl)

/-- A unit row repeated down the rows reads, at `(p, c)`, the row at `c`. -/
theorem bcast_1b_ab_apply {α : Type} {a b : ℕ} (h : (⟨2, ![1, b]⟩ : Shape).BroadcastsInDim ⟨2, ![a, b]⟩ ![0, 1])
    (x : (⟨2, ![1, b]⟩ : Shape).Idx → α) (p : Fin a) (c : Fin b) :
    broadcastInDim ⟨2, ![a, b]⟩ ![0, 1] h x (ix2 p c) = x (ix2 (0 : Fin 1) c) :=
  broadcastInDim_apply ![0, 1] h x (ix2 p c) (ix2 (0 : Fin 1) c) (fun k => by
    match k with
    | ⟨0, _⟩ =>
      show (0 : ℕ) = if (1 : ℕ) = 1 then 0 else p.val
      rfl
    | ⟨1, _⟩ =>
      show c.val = if b = 1 then 0 else c.val
      split_ifs with h1
      · have := c.isLt; omega
      · rfl)

end Cert.Lib.HostRows

end
-- ==== Proof.LibHostRowMax.lean ====
/-
  The host's maximum along the last axis of a matrix, read at a row.

  A host reduction with a maximum body over the last axis of an `[a, b]` array, started from the word of minus
  infinity, holds at row `r` the fold of `max` from minus infinity over the row's `b` entries. Stated at the ideal
  values for any extents, over indices written by their coordinates. It is the host-side counterpart of a kernel's
  maximum reduction along the last axis read at a row, for references that take a row maximum — a softmax or a
  log-softmax in its stable form.
-/
import Idealize.ShloMosaic.PureOps.Ideal.Laws
import Idealize.ShloMosaic.Lib.ValueIdx

noncomputable section

namespace Cert.Lib.HostRowMax

open Idealize.ShloMosaic Idealize.ShloMosaic.ValueIdx

/-- The host's reduction with a maximum body along the last axis of a matrix, from the word of minus infinity, read at
    row r: the fold of max over the row from minus infinity. -/
theorem hostRowMax_apply {a b : ℕ} (x : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 0xFF800000#32) h' hu (ix1 r)
      = (Finset.univ : Finset (Fin b)).fold max (Ideal.ofBits .f32 0xFF800000#32) (fun k => x (ix2 r k)) := by
  rw [Host.reduce_eq_fold_single FloatOps.maximumf x _ h' h hu]
  refine congrArg (fun f => (Finset.univ : Finset (Fin b)).fold max (Ideal.ofBits .f32 0xFF800000#32) f) (funext fun k => ?_)
  exact congrArg x (funext fun d => Fin.ext (by match d with | ⟨0, _⟩ => rfl | ⟨1, _⟩ => rfl))

end Cert.Lib.HostRowMax

end
-- ==== Proof.LibFiniteEntries.lean ====
/-
  A true `jnp.all(jnp.abs(x) < inf)` says that every entry of `x` is a real number.

  On the extended reals `|v| = max v (-v)` is `⊤` at both infinities, and the pattern of `+inf` denotes `⊤`; so
  `|v| < +inf` holds exactly when `v` is neither infinity, that is, when `v` is the coercion of a real.  A host reduce
  by `and` over every axis that comes out `1` had a `1` at every index, so each entry passed that comparison.
  Stated for any shape of `f32` entries, in the spelling a printed finiteness precondition has: the comparison
  `olt` of `Host.absf x` against the rank-0 constant `0x7F800000` broadcast to the shape, reduced into rank 0.
-/
import Idealize.ShloMosaic.PureOps.Ideal.Laws
import Idealize.ShloMosaic.Lib.ReduceAll

noncomputable section

namespace Cert.Lib.FiniteEntries

open Idealize.ShloMosaic

/-- The pattern of `+inf` denotes the top of the extended reals. -/
theorem ofBits_inf : Ideal.ofBits .f32 0x7F800000#32 = ⊤ := by
  simp [Ideal.ofBits, Ideal.ieee]

/-- An extended real whose absolute value is below `+inf` is a real. -/
theorem real_of_abs_lt_inf (v : EReal) (h : Ideal.cmp .olt (max v (-v)) (Ideal.ofBits .f32 0x7F800000#32) = 1#1) :
    ∃ r : ℝ, v = (r : EReal) := by
  rw [ofBits_inf] at h
  induction v using EReal.rec with
  | bot => simp [Ideal.cmp] at h
  | top => simp [Ideal.cmp] at h
  | coe r => exact ⟨r, rfl⟩

/-- The rank-0 shape has one index. -/
instance : Subsingleton (⟨0, ![]⟩ : Shape).Idx := ⟨fun _ _ => funext fun d => d.elim0⟩

/-- If `jnp.all(jnp.abs(x) < inf)`, as a host program prints it, is `1`, every entry of `x` is a real. -/
theorem entries_real {s : Shape} {axes : List (Fin s.rank)}
    (hb : (⟨0, ![]⟩ : Shape).BroadcastsInDim s (![] : Fin 0 → Fin s.rank))
    (hr : s.ReducesTo axes ⟨0, ![]⟩) (hu : 0 < (⟨0, ![]⟩ : Shape).numel) (x : FVec Ideal s .f32)
    (j : (⟨0, ![]⟩ : Shape).Idx)
    (h : Host.reduce IntOp.andi
          (cmpf .olt (Host.absf x) (broadcastInDim s ![] hb (constant (F := Ideal) ⟨0, ![]⟩ .f32 0x7F800000#32)))
          (constantI ⟨0, ![]⟩ 1 1#1) hr hu j = 1#1)
    (i : s.Idx) : ∃ r : ℝ, x i = (r : EReal) :=
  real_of_abs_lt_inf (x i) (Host.reduce_andi_all _ _ hr hu j h i)

end Cert.Lib.FiniteEntries

end
-- ==== Proof.LibHostRowSums.lean ====
/-
  Host sums along the last axis of a matrix, read at a row, and a printed positivity test on them, at the ideal values
  (a float is an extended real, every sum exact).  For any extents `[a, b]` and any float type:

  * a host `reduce` with `add` over the last axis, at row `p`, is the initial value plus the sum over `k < b` of the matrix
    at `(p, k)` (`hostRowSum_apply`);
  * if a printed `jnp.all(jnp.sum(y, axis=1) > 0)` — the `and`-reduce into rank 0 of the comparison `ogt` of that row sum
    (from a zero) against the zero constant broadcast along the rows — is `1`, then every row sum of `y` is positive
    (`rowSums_pos`): the reduce had a `1` at every row, the zero pattern denotes `0`, and the comparison is the order's.
-/
import proofs.«177514_g91036126806361_cont_sun_m_26_3_alg».proof.Proof.LibFiniteEntries
import Idealize.ShloMosaic.Lib.IdealHost
import Idealize.ShloMosaic.Lib.ReduceAll

noncomputable section

namespace Cert.Lib.HostRowSums

open Idealize.ShloMosaic Idealize.ShloMosaic.ValueIdx

/-- A host sum over the last axis of `[a, b]`, read at row `p`: the initial value plus the sum over the row. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  rw [hostReduceAdd_apply, Ideal.hostReduceAdd_single h' h]
  refine congrArg (_ + ·) (Finset.sum_congr rfl fun k _ => ?_)
  exact congrArg x (funext fun d => Fin.ext (by match d with | ⟨0, _⟩ => rfl | ⟨1, _⟩ => rfl))

/-- If `jnp.all(jnp.sum(y, axis=1) > 0)`, as a host program prints it, is `1`, every row of `y` has a positive sum. -/
theorem rowSums_pos {a b : ℕ} (y : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hb : (⟨0, ![]⟩ : Shape).BroadcastsInDim ⟨1, ![a]⟩ (![] : Fin 0 → Fin 1))
    (hr : (⟨1, ![a]⟩ : Shape).ReducesTo [0] ⟨0, ![]⟩) (hu : 0 < (⟨0, ![]⟩ : Shape).numel)
    (j : (⟨0, ![]⟩ : Shape).Idx)
    (e : Host.reduce IntOp.andi
          (cmpf .ogt (Host.reduceAdd y (constant (F := Ideal) ⟨0, ![]⟩ .f32 0x00000000#32) h' hu)
            (broadcastInDim ⟨1, ![a]⟩ ![] hb (constant (F := Ideal) ⟨0, ![]⟩ .f32 0x00000000#32)))
          (constantI ⟨0, ![]⟩ 1 1#1) hr hu j = 1#1)
    (p : Fin a) : 0 < ∑ k : Fin b, y (ix2 p k) := by
  have h1 : Ideal.cmp .ogt (Host.reduceAdd y (constant (F := Ideal) ⟨0, ![]⟩ .f32 0x00000000#32) h' hu (ix1 p))
      (Ideal.ofBits .f32 0x00000000#32) = 1#1 := Host.reduce_andi_all _ _ hr hu j e (ix1 p)
  rw [hostRowSum_apply y _ h' h hu p] at h1
  have h2 : Ideal.cmp .ogt (Ideal.ofBits .f32 0x00000000#32 + ∑ k : Fin b, y (ix2 p k)) (Ideal.ofBits .f32 0x00000000#32) = 1#1 := h1
  rw [Ideal.ofBits_zero_f32, zero_add] at h2
  by_contra hn
  simp [Ideal.cmp, hn] at h2

end Cert.Lib.HostRowSums

end
-- ==== Proof.LibLogSoftmaxRow.lean ====
/-
  The log-softmax of one row on the extended reals, in the numerically stable form, for any row length.

  For a row `z` of `n` entries, `rowMax z` is the fold of `max` over the entries started from the word of minus infinity,
  and entry `c` of the log-softmax is `(z c − rowMax z) − log ∑ k, exp (z k − rowMax z)`. A fold of `max` is never below the
  value it starts from, so `max` of the starting value with the fold is the fold (`max_rowMax`): a program that takes that
  `max` once more — a reduction with an initial value, followed by a maximum with the same initial value — computes the same
  row maximum. No property of the entries is used. With them, the host's logarithm and exponential of an array read at an
  index.
-/
import Idealize.ShloMosaic.PureOps.Ideal

noncomputable section

namespace Cert.Lib.LogSoftmaxRow

open Idealize.ShloMosaic

/-- The maximum of a row: the fold of `max` over its entries from the word of minus infinity. -/
def rowMax {n : ℕ} (z : Fin n → EReal) : EReal :=
  (Finset.univ : Finset (Fin n)).fold max (Ideal.ofBits .f32 0xFF800000#32) z

/-- Entry `c` of the log-softmax of a row, in the stable form. -/
def logSoftmaxRow {n : ℕ} (z : Fin n → EReal) (c : Fin n) : EReal :=
  (z c - rowMax z) - Ideal.log (∑ k : Fin n, Ideal.exp (z k - rowMax z))

/-- Taking `max` of the starting value with the fold again changes nothing. -/
theorem max_rowMax {n : ℕ} (z : Fin n → EReal) : max (Ideal.ofBits .f32 0xFF800000#32) (rowMax z) = rowMax z :=
  max_eq_right ((Finset.le_fold_max _).mpr (Or.inl le_rfl))

/-- The host's logarithm of an array, read at an index. -/
theorem hostLog_apply {s : Shape} (x : FVec Ideal s .f32) (i : s.Idx) : Host.log x i = Ideal.log (x i) := rfl
/-- The host's exponential of an array, read at an index. -/
theorem hostExp_apply {s : Shape} (x : FVec Ideal s .f32) (i : s.Idx) : Host.exp x i = Ideal.exp (x i) := rfl

end Cert.Lib.LogSoftmaxRow

end
-- ==== Proof.LibHostColumns.lean ====
/-
  The host's keepdims layouts read at coordinates, for any element type and extents: a vector [a] laid down a
  column [a, 1] (broadcast_in_dim with dims = [0]) reads the vector at the row; a column [a, 1] repeated along the row
  into [a, b] (dims = [0, 1]) reads the column at the row.
-/
import Idealize.ShloMosaic.Lib.Pipeline.Value
import Idealize.ShloMosaic.Lib.ValueIdx

namespace Cert.Lib.HostColumns

open Idealize.ShloMosaic Idealize.ShloMosaic.ValueIdx

variable {α : Type}

/-- A vector laid down a column reads the vector at the row. -/
theorem bcast_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x (ix2 i u) (ix1 i) (fun k => by
    match k with
    | ⟨0, _⟩ =>
      show i.val = if a = 1 then 0 else i.val
      split_ifs with h1
      · have := i.isLt; omega
      · rfl)

/-- A column repeated along the row reads the column at the row. -/
theorem bcast_a1_ab_apply {a b : ℕ} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply ![0, 1] h x (ix2 i j) (ix2 i (0 : Fin 1)) (fun k => by
    match k with
    | ⟨0, _⟩ =>
      show i.val = if a = 1 then 0 else i.val
      split_ifs with h1
      · have := i.isLt; omega
      · rfl
    | ⟨1, _⟩ =>
      show (0 : ℕ) = if (1 : ℕ) = 1 then 0 else j.val
      rfl)

end Cert.Lib.HostColumns
-- ==== Proof.RefValue.lean ====
/-
  The reference network's stages read at an index, on the extended reals.

  Each stage of the reference's composed term is read at the coordinates of one entry: the unit entry by entry;
  a layer's entry (r, j) as the sum over k of adj (r, k) times the sum over l of h (k, l) W (l, j), plus the bias at j;
  the mean row's entry c as the column sum from zero divided by 10000; the batch-norm row's entry j;
  the fusion layer's entry c as the 96-term sum split into the 32 pooled and the 64 side terms, plus the bias;
  the mean absolute value as the double sum over the fusion matrix's entries, its columns split 32 + 64;
  and the log-softmax row as the stable form over the row's entries. No property of the entries is used.
-/
import proofs.«177514_g91036126806361_cont_sun_m_26_3_alg».proof.Proof.RefStages
import proofs.«177514_g91036126806361_cont_sun_m_26_3_alg».proof.Proof.LibPlainDotGeneral
import proofs.«177514_g91036126806361_cont_sun_m_26_3_alg».proof.Proof.LibHostRows
import proofs.«177514_g91036126806361_cont_sun_m_26_3_alg».proof.Proof.LibHostRowMax
import proofs.«177514_g91036126806361_cont_sun_m_26_3_alg».proof.Proof.LibHostRowSums
import proofs.«177514_g91036126806361_cont_sun_m_26_3_alg».proof.Proof.LibLogSoftmaxRow
import proofs.«177514_g91036126806361_cont_sun_m_26_3_alg».proof.Proof.LibHostColumns
import Idealize.ShloMosaic.Lib.IdealHost
import Idealize.ShloMosaic.Lib.ValueLayout
import Idealize.ShloMosaic.Lib.Pipeline.Value

noncomputable section

namespace Cert.ReferenceIdeal.RefRun

open Cert.ReferenceIdeal Cert.ReferenceIdeal.Gen Idealize.ShloMosaic Idealize.ShloMosaic.ValueIdx Cert.Lib

/-! ## Single host operations at an index -/

theorem hostExpm1_apply {s : Shape} (x : FVec Ideal s .f32) (i : s.Idx) : Host.expm1 x i = Ideal.exp (x i) - 1 := rfl
theorem hostSqrt_apply {s : Shape} (x : FVec Ideal s .f32) (i : s.Idx) : Host.sqrt x i = Ideal.sqrt (x i) := rfl
theorem hostAbsf_apply {s : Shape} (x : FVec Ideal s .f32) (i : s.Idx) :
    Host.absf x i = FloatOps.absf (F := Ideal) (φ := .f32) (x i) := rfl

/-- A host sum over the first axis of `[a, b]`, read at column `c`: the initial value plus the sum down the column. -/
theorem hostColSum_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduceAdd x init h' hu (ix1 c) = init (Shape.Idx.first hu) + ∑ k : Fin a, x (ix2 k c) := by
  rw [hostReduceAdd_apply, Ideal.hostReduceAdd_single h' h]
  refine congrArg (_ + ·) (Finset.sum_congr rfl fun k _ => ?_)
  exact congrArg x (funext fun d => Fin.ext (by match d with | ⟨0, _⟩ => rfl | ⟨1, _⟩ => rfl))

/-! ## The stages at an index -/

/-- The unit at an entry: scale · (v where v > 0, else alpha · (exp (0 where v > 0, else v) − 1)). -/
theorem seluV_apply (S : Shape) (hb : S_.BroadcastsInDim S (![] : Fin 0 → Fin S.rank)) (v : FVec Ideal S .f32) (i : S.Idx) :
    seluV S hb v i
      = Ideal.ofBits .f32 0x3F867D5F#32 *
          Scalar.select (Ideal.cmp .ogt (v i) (Ideal.ofBits .f32 0x00000000#32)) (v i)
            (Ideal.ofBits .f32 0x3FD62D7D#32 *
              (Ideal.exp (Scalar.select (Ideal.cmp .ogt (v i) (Ideal.ofBits .f32 0x00000000#32))
                (Ideal.ofBits .f32 0x00000000#32) (v i)) - 1)) := by
  unfold seluV
  simp only [mulf_apply, select_apply, cmpf_apply, hostExpm1_apply, broadcastInDim_scalar_apply, constant_apply]
  rfl

/-- The first layer's entry (r, j). -/
theorem layer1_apply (x : FVec Ideal S10000x128 .f32) (adj : FVec Ideal S10000x10000 .f32) (W : FVec Ideal S128x64 .f32)
    (b : FVec Ideal S64 .f32) (r : Fin 10000) (j : Fin 64) :
    layer1 x adj W b (ix2 r j)
      = (∑ k : Fin 10000, adj (ix2 r k) * ∑ l : Fin 128, x (ix2 k l) * W (ix2 l j)) + b (ix1 j) := by
  unfold layer1
  rw [addf_apply, HostRows.bcast_1b_ab_apply, HostRows.bcast_b_1b_apply]
  dsimp only [Host.dotGeneral]
  rw [PlainDotGeneral.dotGeneral_apply _ rfl rfl rfl rfl rfl rfl]
  refine congrArg (· + _) (Finset.sum_congr rfl fun k _ => ?_)
  rw [PlainDotGeneral.dotGeneral_apply _ rfl rfl rfl rfl rfl rfl]

/-- The second layer's entry (r, c). -/
theorem layer2_apply (h : FVec Ideal S10000x64 .f32) (adj : FVec Ideal S10000x10000 .f32) (W : FVec Ideal S64x32 .f32)
    (b : FVec Ideal S32 .f32) (r : Fin 10000) (c : Fin 32) :
    layer2 h adj W b (ix2 r c)
      = (∑ k : Fin 10000, adj (ix2 r k) * ∑ l : Fin 64, h (ix2 k l) * W (ix2 l c)) + b (ix1 c) := by
  unfold layer2
  rw [addf_apply, HostRows.bcast_1b_ab_apply, HostRows.bcast_b_1b_apply]
  dsimp only [Host.dotGeneral]
  rw [PlainDotGeneral.dotGeneral_apply _ rfl rfl rfl rfl rfl rfl]
  refine congrArg (· + _) (Finset.sum_congr rfl fun k _ => ?_)
  rw [PlainDotGeneral.dotGeneral_apply _ rfl rfl rfl rfl rfl rfl]

/-- The mean row's entry c: the column sum from the zero word, divided by the word of 10000. -/
theorem colMean_apply (h : FVec Ideal S10000x32 .f32) (c : Fin 32) :
    colMean h (ix2 (0 : Fin 1) c)
      = Ideal.div (Ideal.ofBits .f32 0x00000000#32 + ∑ r : Fin 10000, h (ix2 r c)) (Ideal.ofBits .f32 0x461C4000#32) := by
  unfold colMean
  rw [hostDivf_apply, HostRows.bcast_b_1b_apply, broadcastInDim_scalar_apply, constant_apply,
    hostColSum_apply h _ _ (by decide) _ c, constant_apply]

/-- The batch-norm row's entry j. -/
theorem bnRow_apply (s : FVec Ideal S1x64 .f32) (mu var g be : FVec Ideal S64 .f32) (j : Fin 64) :
    bnRow s mu var g be (ix2 (0 : Fin 1) j)
      = Ideal.div (s (ix2 (0 : Fin 1) j) - mu (ix1 j)) (Ideal.sqrt (var (ix1 j) + Ideal.ofBits .f32 0x3727C5AC#32)) * g (ix1 j)
          + be (ix1 j) := by
  unfold bnRow
  rw [addf_apply, mulf_apply, hostDivf_apply, subf_apply, HostRows.bcast_b_1b_apply, HostRows.bcast_b_1b_apply,
    HostRows.bcast_b_1b_apply, HostRows.bcast_b_1b_apply, hostSqrt_apply, addf_apply, broadcastInDim_scalar_apply,
    constant_apply]

/-- The fusion layer's entry c: the 96 products split into the 32 with the pooled row and the 64 with the batch-norm row. -/
theorem logits_apply (p : FVec Ideal S1x32 .f32) (s : FVec Ideal S1x64 .f32) (fw : FVec Ideal S32x96 .f32)
    (fb : FVec Ideal S32 .f32) (c : Fin 32) :
    logits p s fw fb (ix2 (0 : Fin 1) c)
      = ((∑ k : Fin 32, p (ix2 (0 : Fin 1) k) * fw (ix2 c (Fin.castAdd 64 k)))
          + (∑ j : Fin 64, s (ix2 (0 : Fin 1) j) * fw (ix2 c (Fin.natAdd 32 j)))) + fb (ix1 c) := by
  unfold logits
  rw [addf_apply, HostRows.bcast_b_1b_apply]
  dsimp only [Host.dotGeneral]
  rw [PlainDotGeneral.dotGeneral_apply _ rfl rfl rfl rfl rfl rfl]
  refine congrArg (· + _) ?_
  refine (Fin.sum_univ_add (a := 32) (b := 64) _).trans ?_
  refine congrArg₂ (· + ·) (Finset.sum_congr rfl fun k _ => ?_) (Finset.sum_congr rfl fun j _ => ?_)
  · rw [transpose_ix2_apply]
    refine congrArg (· * _) ?_
    exact concatenate_pair_apply_left 1 p s concatenates_S1x32_S1x64_S1x96_d1 _ rfl (ix2 (0 : Fin 1) k)
      (fun b => by match b with | ⟨0, _⟩ => rfl | ⟨1, _⟩ => rfl)
  · rw [transpose_ix2_apply]
    refine congrArg (· * _) ?_
    exact concatenate_pair_apply_right 1 p s concatenates_S1x32_S1x64_S1x96_d1 _ rfl rfl (ix2 (0 : Fin 1) j)
      (fun b hb => by match b, hb with | ⟨0, _⟩, _ => rfl | ⟨1, _⟩, hb => exact absurd rfl hb)
      (by show j.val + 32 = 32 + j.val; omega)

/-- The mean absolute value: the double sum over the fusion matrix, its columns split 32 + 64, from the zero word,
    divided by the word of 3072. -/
theorem l1Mean_apply (fw : FVec Ideal S32x96 .f32) (i : S_.Idx) :
    l1Mean fw i
      = Ideal.div (Ideal.ofBits .f32 0x00000000#32
          + ((∑ c : Fin 32, ∑ k : Fin 32, FloatOps.absf (F := Ideal) (φ := .f32) (fw (ix2 c (Fin.castAdd 64 k))))
            + (∑ c : Fin 32, ∑ j : Fin 64, FloatOps.absf (F := Ideal) (φ := .f32) (fw (ix2 c (Fin.natAdd 32 j))))))
          (Ideal.ofBits .f32 0x45400000#32) := by
  unfold l1Mean
  rw [hostDivf_apply, hostReduceAdd_apply, Ideal.hostReduceAdd_total _ (fun b => b.elim0), constant_apply, constant_apply,
    sum_idx2]
  refine congrArg (fun t => Ideal.div (_ + t) _) ?_
  rw [← Finset.sum_add_distrib]
  refine Finset.sum_congr rfl fun c _ => ?_
  exact Fin.sum_univ_add (a := 32) (b := 64) (fun k => Host.absf fw (ix2 c k))

/-- A row less its maximum, at entry c. -/
theorem shiftedRow_apply (z : FVec Ideal S1x32 .f32) (c : Fin 32) :
    shiftedRow z (ix2 (0 : Fin 1) c) = z (ix2 (0 : Fin 1) c) - LogSoftmaxRow.rowMax (fun k : Fin 32 => z (ix2 (0 : Fin 1) k)) := by
  unfold shiftedRow
  rw [subf_apply, HostColumns.bcast_a1_ab_apply, HostColumns.bcast_a_a1_apply, maximumf_apply, broadcastInDim_scalar_apply,
    constant_apply, HostRowMax.hostRowMax_apply z _ (by decide) _ (0 : Fin 1)]
  exact congrArg (z _ - ·) (LogSoftmaxRow.max_rowMax _)

/-- The log-softmax row at entry c: the stable form over the row's 32 entries. -/
theorem logSoftmaxRow_apply (z : FVec Ideal S1x32 .f32) (c : Fin 32) :
    logSoftmaxRow z (ix2 (0 : Fin 1) c) = LogSoftmaxRow.logSoftmaxRow (fun k : Fin 32 => z (ix2 (0 : Fin 1) k)) c := by
  unfold logSoftmaxRow LogSoftmaxRow.logSoftmaxRow
  rw [subf_apply, HostColumns.bcast_a1_ab_apply, LogSoftmaxRow.hostLog_apply, HostColumns.bcast_a_a1_apply,
    HostRowSums.hostRowSum_apply _ _ _ (by decide) _ (0 : Fin 1), constant_apply, Ideal.ofBits_zero_f32, zero_add, shiftedRow_apply]
  simp only [LogSoftmaxRow.hostExp_apply, shiftedRow_apply]

end Cert.ReferenceIdeal.RefRun

end
-- ==== Proof.RefSpec.lean ====
/-
  The reference's two results are the network of the specification, entry by entry.

  Reading the composed term stage by stage: the unit's printed form (the exponential taken of 0 where the entry is
  positive, and the result discarded there) is the specification's unit; a layer's entry is the specification's
  double sum; dividing the column sum by 10000 is multiplying it by 1/10000; where the variance is a real that is
  not negative, var + ε is a positive real, and dividing by its square root is multiplying by its reciprocal square
  root; the 96 products of a logit are already split 32 + 64; the row maximum folded from the word of minus infinity
  is the fold from the bottom element; and the sum of absolute values starts from the zero word, which is zero.
-/
import proofs.«177514_g91036126806361_cont_sun_m_26_3_alg».proof.Proof.RefValue
import proofs.«177514_g91036126806361_cont_sun_m_26_3_alg».proof.Proof.Spec

noncomputable section

namespace Cert.ReferenceIdeal.RefRun

open Cert.ReferenceIdeal Cert.ReferenceIdeal.Gen Idealize.ShloMosaic Idealize.ShloMosaic.TcCoe Idealize.SL.Sem
  Idealize.ShloMosaic.ValueIdx Cert.Lib

/-! ## Words as extended reals -/

/-- The word of minus infinity is the bottom element. -/
theorem ofBits_neg_inf : Ideal.ofBits .f32 0xFF800000#32 = ⊥ := by
  simp [Ideal.ofBits, Ideal.ieee]

/-- The word `0x461C4000` is the real 10000. -/
theorem ofBits_10000 : Ideal.ofBits .f32 0x461C4000#32 = ((10000 : ℝ) : EReal) := by
  simp [Ideal.ofBits, Ideal.ieee, -EReal.coe_mul]; norm_num

/-- The word of ε, `0x3727C5AC`, is a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## Scalar laws -/

/-- The printed unit is the specification's: where the entry is positive both select the entry; elsewhere the inner
    selection is the entry itself, and expm1 is the exponential less one. -/
theorem selu_eq (v : EReal) :
    Ideal.ofBits .f32 0x3F867D5F#32 *
        Scalar.select (Ideal.cmp .ogt v (Ideal.ofBits .f32 0x00000000#32)) v
          (Ideal.ofBits .f32 0x3FD62D7D#32 *
            (Ideal.exp (Scalar.select (Ideal.cmp .ogt v (Ideal.ofBits .f32 0x00000000#32))
              (Ideal.ofBits .f32 0x00000000#32) v) - 1))
      = Cert.Gcn.selu v := by
  unfold Cert.Gcn.selu
  rw [Ideal.cmpf_def]
  by_cases h : Ideal.cmp .ogt v (Ideal.ofBits .f32 0x00000000#32) = 1#1
  · rw [h, select_one, select_one]
  · rw [eq_zero_of_ne_one h, select_zero, select_zero, select_zero, Ideal.ofBits_one_f32]

/-- Dividing by the square root of a positive real is multiplying by its reciprocal square root. -/
theorem div_sqrt_eq_mul_rsqrt (a : EReal) {t : ℝ} (ht : 0 < t) :
    Ideal.div a (Ideal.sqrt (t : EReal)) = a * Ideal.rsqrt (t : EReal) := by
  rw [Ideal.sqrt_coe, Ideal.rsqrt_coe, if_neg (not_lt.mpr ht.le), if_neg (not_lt.mpr ht.le), if_neg ht.ne',
    Ideal.div_coe (Real.sqrt_ne_zero'.mpr ht), one_div]

/-! ## The stages are the specification's -/

theorem seluV_eq (S : Shape) (hb : S_.BroadcastsInDim S (![] : Fin 0 → Fin S.rank)) (v : FVec Ideal S .f32) (i : S.Idx) :
    seluV S hb v i = Cert.Gcn.selu (v i) :=
  (seluV_apply S hb v i).trans (selu_eq (v i))

section Layers

variable (x : FVec Ideal S10000x128 .f32) (adj : FVec Ideal S10000x10000 .f32) (W1 : FVec Ideal S128x64 .f32)
  (b1 : FVec Ideal S64 .f32) (W2 : FVec Ideal S64x32 .f32) (b2 : FVec Ideal S32 .f32)

theorem h1_eq (r : Fin 10000) (j : Fin 64) :
    seluV S10000x64 bcast_S_S10000x64 (layer1 x adj W1 b1) (ix2 r j)
      = Cert.Gcn.h1 (fun r k => x (ix2 r k)) (fun r k => adj (ix2 r k)) (fun k j => W1 (ix2 k j)) (fun j => b1 (ix1 j)) r j := by
  rw [seluV_eq, layer1_apply]
  rfl

theorem h2_eq (r : Fin 10000) (c : Fin 32) :
    seluV S10000x32 bcast_S_S10000x32 (layer2 (seluV S10000x64 bcast_S_S10000x64 (layer1 x adj W1 b1)) adj W2 b2) (ix2 r c)
      = Cert.Gcn.h2 (fun r k => x (ix2 r k)) (fun r k => adj (ix2 r k)) (fun k j => W1 (ix2 k j)) (fun j => b1 (ix1 j))
          (fun k j => W2 (ix2 k j)) (fun j => b2 (ix1 j)) r c := by
  rw [seluV_eq, layer2_apply]
  simp only [h1_eq]
  rfl

theorem pooled_eq (c : Fin 32) :
    pooledRow x adj W1 b1 W2 b2 (ix2 (0 : Fin 1) c)
      = Cert.Gcn.pooled (fun r k => x (ix2 r k)) (fun r k => adj (ix2 r k)) (fun k j => W1 (ix2 k j)) (fun j => b1 (ix1 j))
          (fun k j => W2 (ix2 k j)) (fun j => b2 (ix1 j)) c := by
  unfold pooledRow
  rw [seluV_eq, colMean_apply, Ideal.ofBits_zero_f32, zero_add, ofBits_10000, Ideal.div_coe (by norm_num)]
  simp only [h2_eq]
  rfl

end Layers

theorem bn_eq (s : FVec Ideal S1x64 .f32) (mu var g be : FVec Ideal S64 .f32)
    (hvar : ∀ j : Fin 64, ∃ v : ℝ, 0 ≤ v ∧ var (ix1 j) = (v : EReal)) (j : Fin 64) :
    bnRow s mu var g be (ix2 (0 : Fin 1) j)
      = Cert.Gcn.bn (fun j => s (ix2 (0 : Fin 1) j)) (fun j => g (ix1 j)) (fun j => be (ix1 j)) (fun j => mu (ix1 j))
          (fun j => var (ix1 j)) j := by
  obtain ⟨v, hv, ev⟩ := hvar j
  obtain ⟨e, he, ee⟩ := ofBits_eps_pos
  rw [bnRow_apply]
  unfold Cert.Gcn.bn
  dsimp only
  rw [ev, ee, ← EReal.coe_add, div_sqrt_eq_mul_rsqrt _ (by positivity : 0 < v + e)]

/-! ## The two results -/

/-- The second result is the specification's mean absolute fused weight. -/
theorem l1Term_eq_spec (m : (ℓ : Loc nD τ sig) → Buf (Elt Ideal) ℓ) (c : Dev nD) :
    l1Term (F := Ideal) m c = fun _ => Cert.Gcn.l1 (fun k j => (m ((c.tc : Thread nD τ).loc main_arg7)) (ix2 k j)) := by
  funext i
  unfold l1Term
  rw [l1Mean_apply, Ideal.ofBits_zero_f32, zero_add]
  rfl

/-- The first result is the specification's log-softmax row, where every variance entry is a real that is not negative. -/
theorem outTerm_eq_spec (m : (ℓ : Loc nD τ sig) → Buf (Elt Ideal) ℓ) (c : Dev nD)
    (hvar : ∀ j : Fin 64, ∃ v : ℝ, 0 ≤ v ∧ (m ((c.tc : Thread nD τ).loc main_arg12)) (ix1 j) = (v : EReal)) :
    outTerm (F := Ideal) m c = fun i => Cert.Gcn.out (fun r k => (m ((c.tc : Thread nD τ).loc main_arg0)) (ix2 r k)) (fun r k => (m ((c.tc : Thread nD τ).loc main_arg1)) (ix2 r k))
      (fun j => (m ((c.tc : Thread nD τ).loc main_arg2)) (ix2 (0 : Fin 1) j)) (fun k j => (m ((c.tc : Thread nD τ).loc main_arg3)) (ix2 k j)) (fun j => (m ((c.tc : Thread nD τ).loc main_arg4)) (ix1 j))
      (fun k j => (m ((c.tc : Thread nD τ).loc main_arg5)) (ix2 k j)) (fun j => (m ((c.tc : Thread nD τ).loc main_arg6)) (ix1 j)) (fun k j => (m ((c.tc : Thread nD τ).loc main_arg7)) (ix2 k j)) (fun j => (m ((c.tc : Thread nD τ).loc main_arg8)) (ix1 j))
      (fun j => (m ((c.tc : Thread nD τ).loc main_arg9)) (ix1 j)) (fun j => (m ((c.tc : Thread nD τ).loc main_arg10)) (ix1 j)) (fun j => (m ((c.tc : Thread nD τ).loc main_arg11)) (ix1 j)) (fun j => (m ((c.tc : Thread nD τ).loc main_arg12)) (ix1 j)) (i 1) := by
  funext i
  obtain ⟨u, k, rfl⟩ : ∃ (u : Fin 1) (k : Fin 32), i = ix2 u k := ⟨i 0, i 1, eq_ix2 i⟩
  obtain rfl : u = 0 := Subsingleton.elim _ _
  unfold outTerm
  rw [logSoftmaxRow_apply]
  unfold LogSoftmaxRow.logSoftmaxRow LogSoftmaxRow.rowMax Cert.Gcn.out Cert.Gcn.shifted Cert.Gcn.top
  simp only [logits_apply, pooled_eq, bn_eq _ _ _ _ _ hvar, ofBits_neg_inf]
  rfl

end Cert.ReferenceIdeal.RefRun

end
-- ==== Proof.PreVar.lean ====
/-
  What the precondition says of the running variance: every entry is a real number, and none is negative. The
  predicate is a conjunction, one `all` per input; the variance's two conjuncts — finite, and at least zero — are the
  last two, so they are the outermost.
-/
import proofs.«177514_g91036126806361_cont_sun_m_26_3_alg».proof.Pre_finite_inputs
import proofs.«177514_g91036126806361_cont_sun_m_26_3_alg».proof.Proof.LibFiniteEntries
import Idealize.ShloMosaic.Lib.ReduceAll
import Idealize.ShloMosaic.Lib.Affine
import Idealize.ShloMosaic.Lib.ValueIdx
import Idealize.ShloMosaic.PureOps.Ideal.Laws

set_option maxRecDepth 16384

noncomputable section

namespace Cert.PreVar

open Idealize.ShloMosaic Idealize.ShloMosaic.ValueIdx

/-- Under the precondition every entry of the variance is a nonnegative real. -/
theorem var_real_nonneg [hP : Cert.Pre_finite_inputs.Facts] (a0 : FVec Ideal Cert.Pre_finite_inputs.S10000x128 .f32) (a1 : FVec Ideal Cert.Pre_finite_inputs.S10000x10000 .f32) (a2 : FVec Ideal Cert.Pre_finite_inputs.S1x64 .f32) (a3 : FVec Ideal Cert.Pre_finite_inputs.S128x64 .f32) (a4 : FVec Ideal Cert.Pre_finite_inputs.S64 .f32) (a5 : FVec Ideal Cert.Pre_finite_inputs.S64x32 .f32) (a6 : FVec Ideal Cert.Pre_finite_inputs.S32 .f32) (a7 : FVec Ideal Cert.Pre_finite_inputs.S32x96 .f32) (a8 : FVec Ideal Cert.Pre_finite_inputs.S32 .f32) (a9 : FVec Ideal Cert.Pre_finite_inputs.S64 .f32) (a10 : FVec Ideal Cert.Pre_finite_inputs.S64 .f32) (a11 : FVec Ideal Cert.Pre_finite_inputs.S64 .f32) (a12 : FVec Ideal Cert.Pre_finite_inputs.S64 .f32)
    (h : Cert.Pre_finite_inputs.fn (F := Ideal) a0 a1 a2 a3 a4 a5 a6 a7 a8 a9 a10 a11 a12 = fun _ => 1#1) (j : Fin 64) :
    ∃ v : ℝ, 0 ≤ v ∧ a12 (ix1 j) = (v : EReal) := by
  have h0 : Cert.Pre_finite_inputs.fn (F := Ideal) a0 a1 a2 a3 a4 a5 a6 a7 a8 a9 a10 a11 a12 ix0 = 1#1 := congrFun h _
  dsimp only [Cert.Pre_finite_inputs.fn, Cert.Pre_finite_inputs.fn_part1, Cert.Pre_finite_inputs.fn_part2,
    Cert.Pre_finite_inputs.fn_part3] at h0
  obtain ⟨h1, hge⟩ := IntOp.andi_eq_one.mp h0
  obtain ⟨-, hfin⟩ := IntOp.andi_eq_one.mp h1
  obtain ⟨r, hr⟩ := Cert.Lib.FiniteEntries.entries_real _ _ _ a12 ix0 hfin (ix1 j)
  have hpos := Host.reduce_andi_all _ _ _ _ ix0 hge (ix1 j)
  refine ⟨r, ?_, hr⟩
  have hc : Ideal.cmp .oge (a12 (ix1 j)) (Ideal.ofBits .f32 0x00000000#32) = 1#1 := hpos
  rw [hr, Ideal.ofBits_zero_f32] at hc
  simp [Ideal.cmp] at hc
  by_cases h0 : 0 ≤ r
  · exact h0
  · simp [h0] at hc

end Cert.PreVar

end
-- ==== Proof.Algebraic.lean ====
/-
  The two programs compute the same two results.

  From any launch memory under the precondition, and a reference memory that agrees with it on the thirteen arguments, the
  kernel's run leaves the log-softmax of the network's logits and the mean absolute fused weight, as functions of the
  launched arguments; the reference's run leaves the same two functions of its own arguments, which are the kernel's. The
  precondition enters once: the reference divides by a square root where the kernel multiplies by a reciprocal square root,
  and the two agree because every variance entry is a real that is not negative.
-/
import proofs.«177514_g91036126806361_cont_sun_m_26_3_alg».proof.Defs
import proofs.«177514_g91036126806361_cont_sun_m_26_3_alg».proof.Proof.Gen.KernelIdeal
import proofs.«177514_g91036126806361_cont_sun_m_26_3_alg».proof.Proof.Gen.ReferenceIdeal
import proofs.«177514_g91036126806361_cont_sun_m_26_3_alg».proof.Proof.Gen.Pre_finite_inputs
import proofs.«177514_g91036126806361_cont_sun_m_26_3_alg».proof.Proof.KernelRun
import proofs.«177514_g91036126806361_cont_sun_m_26_3_alg».proof.Proof.RefRun
import proofs.«177514_g91036126806361_cont_sun_m_26_3_alg».proof.Proof.RefSpec
import proofs.«177514_g91036126806361_cont_sun_m_26_3_alg».proof.Proof.PreVar

set_option maxRecDepth 16384

noncomputable section

namespace Cert.Proof.Alg

open Idealize.ShloMosaic Idealize.ShloMosaic.TcCoe Idealize.ShloMosaic.ValueIdx Idealize.SL.Sem

/-- The algebraic claim, from any run of the kernel that ends with every array of its pipeline at what the proof data
    computes. -/
theorem algebraic_of
    (hK : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) (s₀ m ρ)
        (Pipeline.FramePost Cert.KernelIdeal.cfgs (Cert.KernelIdeal.Hand.dats m) 0
          (Pipeline.afterTail₀ Cert.KernelIdeal.cfgs (Cert.KernelIdeal.Hand.dats m) 0 (Cert.KernelIdeal.Gen.V0 m) [Cert.KernelIdeal.Gen.hostOps1]))) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => fun i => Cert.Gcn.out (Cert.KernelIdeal.KValue.ax m c) (Cert.KernelIdeal.KValue.aadj m c) (Cert.KernelIdeal.KValue.asub m c) (Cert.KernelIdeal.KValue.aW1 m c) (Cert.KernelIdeal.KValue.ab1 m c) (Cert.KernelIdeal.KValue.aW2 m c) (Cert.KernelIdeal.KValue.ab2 m c) (Cert.KernelIdeal.KValue.aFW m c) (Cert.KernelIdeal.KValue.afb m c) (Cert.KernelIdeal.KValue.ag m c) (Cert.KernelIdeal.KValue.abe m c) (Cert.KernelIdeal.KValue.amu m c) (Cert.KernelIdeal.KValue.avar m c) (i 1),
    fun c => fun _ => Cert.Gcn.l1 (Cert.KernelIdeal.KValue.aFW m c), Cert.KernelIdeal.KRun.run_of m ρ (hK m ρ), ?_⟩
  refine (θ_run (Cert.ReferenceIdeal.defs (F := Ideal)) _ _).mono (fun _ h c => ⟨(h c).1.trans ?_, (h c).2.1.trans ?_, (h c).2.2⟩)
    (Cert.ReferenceIdeal.RefRun.run (F := Ideal) m' ρ')
  · obtain ⟨a0, a1, a2, a3, a4, a5, a6, a7, a8, a9, a10, a11, a12⟩ := hagree c
    have hvar : ∀ j : Fin 64, ∃ v : ℝ, 0 ≤ v ∧ m' ((c.tc : Thread Cert.ReferenceIdeal.nD Cert.ReferenceIdeal.τ).loc Cert.ReferenceIdeal.main_arg12) (ix1 j) = (v : EReal) := fun j => by
      rw [a12]
      exact Cert.PreVar.var_real_nonneg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
        (m ((c.tc : Thread Cert.KernelIdeal.nD Cert.KernelIdeal.τ).loc Cert.KernelIdeal.main_arg12)) (hpre c) j
    rw [Cert.ReferenceIdeal.RefRun.outTerm_eq_spec m' c hvar, a0, a1, a2, a3, a4, a5, a6, a7, a8, a9, a10, a11, a12]
    rfl
  · obtain ⟨-, -, -, -, -, -, -, a7, -⟩ := hagree c
    rw [Cert.ReferenceIdeal.RefRun.l1Term_eq_spec m' c, a7]
    rfl

end Cert.Proof.Alg

end
-- ==== Proof.lean ====
/-
  The certificate's five claims for a fused two-layer graph-convolution kernel against its reference.

  The kernel walks fifty grid points: x·W1 at the first, the first layer h1 = selu (adj·(x·W1) + b1) four hundred rows
  per point over points 0–24, h1·W2 at point 25, the column sums of the second layer h2 = selu (adj·(h1·W2) + b2)
  accumulated over points 25–49, and at the last point the log-softmax of the fused logits and the mean absolute
  fused weight. Its three intermediates and the running column sums live in scratch buffers carried from point to
  point, so the frame is proved with an invariant that names what each scratch holds before every point
  (Proof/IdealData.lean, the five control cases in Proof/IdealRun*.lean, the obligation in Proof/IdealBody.lean; the
  same text at the word-level program in Proof/Bits*.lean).

  On the extended reals both programs compute one function of the arguments (Proof/Spec.lean): the kernel's mean as
  a product with 1/10000 is the reference's quotient by 10000; the kernel's (x − μ)·rsqrt(σ² + ε) is the reference's
  (x − μ)/√(σ² + ε) because the precondition makes every σ² a nonnegative real, so σ² + ε > 0; the reference's 96-term
  logit sums split 32 + 64 into the kernel's two products; the kernel's block-by-block column sums add up to the
  reference's sum over all rows by commutativity and associativity alone.
-/
import proofs.«177514_g91036126806361_cont_sun_m_26_3_alg».proof.Defs
import proofs.«177514_g91036126806361_cont_sun_m_26_3_alg».proof.Proof.Gen.Kernel
import proofs.«177514_g91036126806361_cont_sun_m_26_3_alg».proof.Proof.Gen.KernelIdeal
import proofs.«177514_g91036126806361_cont_sun_m_26_3_alg».proof.Proof.Gen.ReferenceIdeal
import proofs.«177514_g91036126806361_cont_sun_m_26_3_alg».proof.Proof.Gen.Pre_finite_inputs
import proofs.«177514_g91036126806361_cont_sun_m_26_3_alg».proof.Proof.BitsFrame
import proofs.«177514_g91036126806361_cont_sun_m_26_3_alg».proof.Proof.IdealFrame
import proofs.«177514_g91036126806361_cont_sun_m_26_3_alg».proof.Proof.KernelRun
import proofs.«177514_g91036126806361_cont_sun_m_26_3_alg».proof.Proof.RefRun
import proofs.«177514_g91036126806361_cont_sun_m_26_3_alg».proof.Proof.Algebraic
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ => Cert.Kernel.Hand.frame m ρ

theorem frame_ki : Cert.frame_KernelIdeal (hKernelIdeal := Cert.KernelIdeal.Gen.facts) (hPre_finite_inputs := Cert.Pre_finite_inputs.Gen.facts) := fun m ρ _ => Cert.KernelIdeal.Hand.frame m ρ

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2) (Cert.ReferenceIdeal.RefRun.run (F := Ideal) m ρ)

/-- The one rewrite of the idealization: the kernel's literal 9.99999974e-5 read as the exact 1/10000. -/
theorem preserves : Cert.preserves_Kernel_KernelIdeal :=
  IdealRules.named_const.statement Cert.KernelIdeal.κ "inv_10000" .f32 0x38D1B717#32 ((1 / 10000 : ℝ) : EReal) rfl

/-- From memories agreeing on the arguments both idealized programs end with the same log-softmax row and the same
    mean absolute weight, each the function of the arguments that Proof/Spec.lean states. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  Cert.Proof.Alg.algebraic_of (fun m ρ => Cert.KernelIdeal.Hand.run_main (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
